-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_v55) = v3 c
          ∧ r.2.mem ((c.tc : Thread Cert.ReferenceIdeal.nD Cert.ReferenceIdeal.τ).loc Cert.ReferenceIdeal.main_v61) = v4 c
          ∧ r.2.mem ((c.tc : Thread Cert.ReferenceIdeal.nD Cert.ReferenceIdeal.τ).loc Cert.ReferenceIdeal.main_v67) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x128 : Shape := ⟨2, ![64, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part6 {F : FTy → Type} [FloatOps F] (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  main_v103

def fn_part5 {F : FTy → Type} [FloatOps F] (main_arg18 : FVec F S128 .f32) (main_arg19 : FVec F S64x128 .f32) (main_arg20 : FVec F S128 .f32) (main_v83 : IVec S_ 1) (main_v84 : FVec F S64x128 .f32) (main_cst_32 : FVec F S_ .f32) : IVec S_ 1 :=
  let main_v85 : FVec F S64x128 .f32 := broadcastInDim S64x128 ![] bcast_S_S64x128 main_cst_32
  let main_v86 : IVec S64x128 1 := cmpf .olt main_v84 main_v85
  let main_c_33 : IVec S_ 1 := constantI S_ 1 1#1
  let main_v87 : IVec S_ 1 := (fun x v => Host.reduce IntOp.andi x v reducesTo_S64x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S64x128 .f32 := Host.absf main_arg19
  let main_cst_36 : FVec F S_ .f32 := constant S_ .f32 0x7F800000#32
  let main_v95 : FVec F S64x128 .f32 := broadcastInDim S64x128 ![] bcast_S_S64x128 main_cst_36
  let main_v96 : IVec S64x128 1 := cmpf .olt main_v94 main_v95
  let main_c_37 : IVec S_ 1 := constantI S_ 1 1#1
  let main_v97 : IVec S_ 1 := (fun x v => Host.reduce IntOp.andi x v reducesTo_S64x128_S_d0_1 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_v98 main_v101 main_c_39

def fn_part4 {F : FTy → Type} [FloatOps F] (main_arg14 : FVec F S64 .f32) (main_arg15 : FVec F S64x128 .f32) (main_arg16 : FVec F S128 .f32) (main_arg17 : FVec F S64x128 .f32) (main_arg18 : FVec F S128 .f32) (main_arg19 : FVec F S64x128 .f32) (main_arg20 : FVec F S128 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x128 .f32 := Host.absf main_arg15
  let main_cst_28 : FVec F S_ .f32 := constant S_ .f32 0x7F800000#32
  let main_v75 : FVec F S64x128 .f32 := broadcastInDim S64x128 ![] bcast_S_S64x128 main_cst_28
  let main_v76 : IVec S64x128 1 := cmpf .olt main_v74 main_v75
  let main_c_29 : IVec S_ 1 := constantI S_ 1 1#1
  let main_v77 : IVec S_ 1 := (fun x v => Host.reduce IntOp.andi x v reducesTo_S64x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S64x128 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S32x64 .f32) (main_arg12 : FVec F S64 .f32) (main_arg13 : FVec F S64 .f32) (main_arg14 : FVec F S64 .f32) (main_arg15 : FVec F S64x128 .f32) (main_arg16 : FVec F S128 .f32) (main_arg17 : FVec F S64x128 .f32) (main_arg18 : FVec F S128 .f32) (main_arg19 : FVec F S64x128 .f32) (main_arg20 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S32x64 .f32 := Host.absf main_arg11
  let main_cst_20 : FVec F S_ .f32 := constant S_ .f32 0x7F800000#32
  let main_v55 : FVec F S32x64 .f32 := broadcastInDim S32x64 ![] bcast_S_S32x64 main_cst_20
  let main_v56 : IVec S32x64 1 := cmpf .olt main_v54 main_v55
  let main_c_21 : IVec S_ 1 := constantI S_ 1 1#1
  let main_v57 : IVec S_ 1 := (fun x v => Host.reduce IntOp.andi x v reducesTo_S32x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_arg20 main_v63 main_v67

def fn_part2 {F : FTy → Type} [FloatOps F] (main_arg7 : FVec F S32x64 .f32) (main_arg8 : FVec F S64 .f32) (main_arg9 : FVec F S64x128 .f32) (main_arg10 : FVec F S128 .f32) (main_arg11 : FVec F S32x64 .f32) (main_arg12 : FVec F S64 .f32) (main_arg13 : FVec F S64 .f32) (main_arg14 : FVec F S64 .f32) (main_arg15 : FVec F S64x128 .f32) (main_arg16 : FVec F S128 .f32) (main_arg17 : FVec F S64x128 .f32) (main_arg18 : FVec F S128 .f32) (main_arg19 : FVec F S64x128 .f32) (main_arg20 : FVec F S128 .f32) (main_v33 : IVec S_ 1) : IVec S_ 1 :=
  let main_v34 : FVec F S32x64 .f32 := Host.absf main_arg7
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x128 .f32 := Host.absf main_arg9
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S64 .f32) (main_arg5 : FVec F S64x32 .f32) (main_arg6 : FVec F S32 .f32) (main_arg7 : FVec F S32x64 .f32) (main_arg8 : FVec F S64 .f32) (main_arg9 : FVec F S64x128 .f32) (main_arg10 : FVec F S128 .f32) (main_arg11 : FVec F S32x64 .f32) (main_arg12 : FVec F S64 .f32) (main_arg13 : FVec F S64 .f32) (main_arg14 : FVec F S64 .f32) (main_arg15 : FVec F S64x128 .f32) (main_arg16 : FVec F S128 .f32) (main_arg17 : FVec F S64x128 .f32) (main_arg18 : FVec F S128 .f32) (main_arg19 : FVec F S64x128 .f32) (main_arg20 : FVec F S128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg5
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S10000x128 .f32) (main_arg1 : FVec F S10000x128 .f32) (main_arg2 : FVec F S10000x10000 .f32) (main_arg3 : FVec F S128x64 .f32) (main_arg4 : FVec F S64 .f32) (main_arg5 : FVec F S64x32 .f32) (main_arg6 : FVec F S32 .f32) (main_arg7 : FVec F S32x64 .f32) (main_arg8 : FVec F S64 .f32) (main_arg9 : FVec F S64x128 .f32) (main_arg10 : FVec F S128 .f32) (main_arg11 : FVec F S32x64 .f32) (main_arg12 : FVec F S64 .f32) (main_arg13 : FVec F S64 .f32) (main_arg14 : FVec F S64 .f32) (main_arg15 : FVec F S64x128 .f32) (main_arg16 : FVec F S128 .f32) (main_arg17 : FVec F S64x128 .f32) (main_arg18 : FVec F S128 .f32) (main_arg19 : FVec F S64x128 .f32) (main_arg20 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x128 : Shape := ⟨2, ![64, 128]⟩
abbrev S128 : Shape := ⟨1, ![128]⟩
abbrev S1x128 : Shape := ⟨2, ![1, 128]⟩
abbrev S_ : Shape := ⟨0, ![]⟩
abbrev S1 : Shape := ⟨1, ![1]⟩
abbrev S2 : Shape := ⟨1, ![2]⟩
abbrev S1x64 : Shape := ⟨2, ![1, 64]⟩
abbrev S64x64 : Shape := ⟨2, ![64, 64]⟩
abbrev S10000x64 : Shape := ⟨2, ![10000, 64]⟩
abbrev S10000x32 : Shape := ⟨2, ![10000, 32]⟩
abbrev S400x10000 : Shape := ⟨2, ![400, 10000]⟩
abbrev S400x64 : Shape := ⟨2, ![400, 64]⟩
abbrev S400x128 : Shape := ⟨2, ![400, 128]⟩
abbrev S400x32 : Shape := ⟨2, ![400, 32]⟩

abbrev nBuf : Space → Nat
  | .hbm => 66
  | .vmem => 41
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x10000, .f32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S32x64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64x128, .f32⟩
  | .hbm, ⟨16, _⟩ => ⟨S128, .f32⟩
  | .hbm, ⟨17, _⟩ => ⟨S64x128, .f32⟩
  | .hbm, ⟨18, _⟩ => ⟨S128, .f32⟩
  | .hbm, ⟨19, _⟩ => ⟨S64x128, .f32⟩
  | .hbm, ⟨20, _⟩ => ⟨S128, .f32⟩
  | .hbm, ⟨21, _⟩ => ⟨S128, .f32⟩
  | .hbm, ⟨22, _⟩ => ⟨S1x128, .f32⟩
  | .hbm, ⟨23, _⟩ => ⟨S_, .f32⟩
  | .hbm, ⟨24, _⟩ => ⟨S128x64, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S128x64, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S128x64, .f32⟩
  | .hbm, ⟨37, _⟩ => ⟨S64, .f32⟩
  | .hbm, ⟨38, _⟩ => ⟨S1x64, .f32⟩
  | .hbm, ⟨39, _⟩ => ⟨S_, .f32⟩
  | .hbm, ⟨40, _⟩ => ⟨S64x64, .f32⟩
  | .hbm, ⟨41, _⟩ => ⟨S_, .i32⟩
  | .hbm, ⟨42, _⟩ => ⟨S1, .i32⟩
  | .hbm, ⟨43, _⟩ => ⟨S64x64, .f32⟩
  | .hbm, ⟨44, _⟩ => ⟨S_, .f32⟩
  | .hbm, ⟨45, _⟩ => ⟨S64x64, .f32⟩
  | .hbm, ⟨46, _⟩ => ⟨S_, .i32⟩
  | .hbm, ⟨47, _⟩ => ⟨S1, .i32⟩
  | .hbm, ⟨48, _⟩ => ⟨S64x64, .f32⟩
  | .hbm, ⟨49, _⟩ => ⟨S10000x128, .f32⟩
  | .hbm, ⟨50, _⟩ => ⟨S10000x64, .f32⟩
  | .hbm, ⟨51, _⟩ => ⟨S1x64, .f32⟩
  | .hbm, ⟨52, _⟩ => ⟨S1x128, .f32⟩
  | .hbm, ⟨53, _⟩ => ⟨S1x64, .f32⟩
  | .hbm, ⟨54, _⟩ => ⟨S10000x32, .f32⟩
  | .hbm, ⟨55, _⟩ => ⟨S10000x32, .f32⟩
  | .hbm, ⟨56, _⟩ => ⟨S10000x128, .f32⟩
  | .hbm, ⟨57, _⟩ => ⟨S10000x64, .f32⟩
  | .hbm, ⟨58, _⟩ => ⟨S1x64, .f32⟩
  | .hbm, ⟨59, _⟩ => ⟨S1x64, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S10000x128, .f32⟩
  | .hbm, ⟨64, _⟩ => ⟨S10000x128, .f32⟩
  | .hbm, ⟨65, _⟩ => ⟨S10000x128, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x128, .f32⟩
  | .local _ .vmem, ⟨4, _⟩ => ⟨S400x10000, .f32⟩
  | .local _ .vmem, ⟨5, _⟩ => ⟨S400x10000, .f32⟩
  | .local _ .vmem, ⟨6, _⟩ => ⟨S10000x128, .f32⟩
  | .local _ .vmem, ⟨7, _⟩ => ⟨S1x128, .f32⟩
  | .local _ .vmem, ⟨8, _⟩ => ⟨S128x64, .f32⟩
  | .local _ .vmem, ⟨9, _⟩ => ⟨S400x64, .f32⟩
  | .local _ .vmem, ⟨10, _⟩ => ⟨S400x64, .f32⟩
  | .local _ .vmem, ⟨11, _⟩ => ⟨S400x10000, .f32⟩
  | .local _ .vmem, ⟨12, _⟩ => ⟨S400x10000, .f32⟩
  | .local _ .vmem, ⟨13, _⟩ => ⟨S10000x64, .f32⟩
  | .local _ .vmem, ⟨14, _⟩ => ⟨S1x64, .f32⟩
  | .local _ .vmem, ⟨15, _⟩ => ⟨S64x64, .f32⟩
  | .local _ .vmem, ⟨16, _⟩ => ⟨S1x64, .f32⟩
  | .local _ .vmem, ⟨17, _⟩ => ⟨S64x128, .f32⟩
  | .local _ .vmem, ⟨18, _⟩ => ⟨S1x128, .f32⟩
  | .local _ .vmem, ⟨19, _⟩ => ⟨S64x64, .f32⟩
  | .local _ .vmem, ⟨20, _⟩ => ⟨S1x64, .f32⟩
  | .local _ .vmem, ⟨21, _⟩ => ⟨S400x32, .f32⟩
  | .local _ .vmem, ⟨22, _⟩ => ⟨S400x32, .f32⟩
  | .local _ .vmem, ⟨23, _⟩ => ⟨S400x32, .f32⟩
  | .local _ .vmem, ⟨24, _⟩ => ⟨S400x32, .f32⟩
  | .local _ .vmem, ⟨25, _⟩ => ⟨S400x128, .f32⟩
  | .local _ .vmem, ⟨26, _⟩ => ⟨S400x128, .f32⟩
  | .local _ .vmem, ⟨27, _⟩ => ⟨S400x64, .f32⟩
  | .local _ .vmem, ⟨28, _⟩ => ⟨S400x64, .f32⟩
  | .local _ .vmem, ⟨29, _⟩ => ⟨S10000x64, .f32⟩
  | .local _ .vmem, ⟨30, _⟩ => ⟨S1x64, .f32⟩
  | .local _ .vmem, ⟨31, _⟩ => ⟨S1x64, .f32⟩
  | .local _ .vmem, ⟨32, _⟩ => ⟨S64x128, .f32⟩
  | .local _ .vmem, ⟨33, _⟩ => ⟨S1x128, .f32⟩
  | .local _ .vmem, ⟨34, _⟩ => ⟨S64x128, .f32⟩
  | .local _ .vmem, ⟨35, _⟩ => ⟨S1x128, .f32⟩
  | .local _ .vmem, ⟨36, _⟩ => ⟨S64x128, .f32⟩
  | .local _ .vmem, ⟨37, _⟩ => ⟨S1x128, .f32⟩
  | .local _ .vmem, ⟨38, _⟩ => ⟨S10000x128, .f32⟩
  | .local _ .vmem, ⟨39, _⟩ => ⟨S10000x128, .f32⟩
  | .local _ .vmem, ⟨40, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_c : Ref sig .tc := ⟨.hbm, 25, rfl⟩
abbrev main_call0_v3 : Ref sig .tc := ⟨.hbm, 26, rfl⟩
abbrev main_call0_c_0 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_c_1 : Ref sig .tc := ⟨.hbm, 31, rfl⟩
abbrev main_call0_v7 : Ref sig .tc := ⟨.hbm, 32, rfl⟩
abbrev main_call0_c_2 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_cst_3 : Ref sig .tc := ⟨.hbm, 39, rfl⟩
abbrev main_call0_v13 : Ref sig .tc := ⟨.hbm, 40, rfl⟩
abbrev main_call0_c_4 : Ref sig .tc := ⟨.hbm, 41, rfl⟩
abbrev main_call0_v14 : Ref sig .tc := ⟨.hbm, 42, rfl⟩
abbrev main_call0_v15 : Ref sig .tc := ⟨.hbm, 43, rfl⟩
abbrev main_call0_cst_5 : Ref sig .tc := ⟨.hbm, 44, rfl⟩
abbrev main_call0_v16 : Ref sig .tc := ⟨.hbm, 45, rfl⟩
abbrev main_call0_c_6 : Ref sig .tc := ⟨.hbm, 46, rfl⟩
abbrev main_call0_v17 : Ref sig .tc := ⟨.hbm, 47, rfl⟩
abbrev main_call0_v18 : Ref sig .tc := ⟨.hbm, 48, rfl⟩
abbrev main_call0_v19 : Ref sig .tc := ⟨.hbm, 49, rfl⟩
abbrev main_call0_v20 : Ref sig .tc := ⟨.hbm, 50, rfl⟩
abbrev main_call0_v21 : Ref sig .tc := ⟨.hbm, 51, rfl⟩
abbrev main_call0_v22 : Ref sig .tc := ⟨.hbm, 52, rfl⟩
abbrev main_call0_v23 : Ref sig .tc := ⟨.hbm, 53, rfl⟩
abbrev main_v0_0 : Ref sig .tc := ⟨.hbm, 54, rfl⟩
abbrev main_v0_1 : Ref sig .tc := ⟨.hbm, 55, rfl⟩
abbrev main_v0_2 : Ref sig .tc := ⟨.hbm, 56, rfl⟩
abbrev main_call0_v24_3 : Ref sig .tc := ⟨.hbm, 57, rfl⟩
abbrev main_call0_v25 : Ref sig .tc := ⟨.hbm, 58, rfl⟩
abbrev main_call0_v26 : Ref sig .tc := ⟨.hbm, 59, rfl⟩
abbrev main_call0_v27 : Ref sig .tc := ⟨.hbm, 60, rfl⟩
abbrev main_call0_v28 : Ref sig .tc := ⟨.hbm, 61, rfl⟩
abbrev main_call0_v29 : Ref sig .tc := ⟨.hbm, 62, rfl⟩
abbrev main_v0_3 : Ref sig .tc := ⟨.hbm, 63, rfl⟩
abbrev main_v0_4 : Ref sig .tc := ⟨.hbm, 64, rfl⟩
abbrev main_v0_5 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg9_0 : Ref sig .tc := ⟨.vmem, 21, rfl⟩
abbrev cc2_stg9_1 : Ref sig .tc := ⟨.vmem, 22, rfl⟩
abbrev cc2_stg10_0 : Ref sig .tc := ⟨.vmem, 23, rfl⟩
abbrev cc2_stg10_1 : Ref sig .tc := ⟨.vmem, 24, rfl⟩
abbrev cc2_stg11_0 : Ref sig .tc := ⟨.vmem, 25, rfl⟩
abbrev cc2_stg11_1 : Ref sig .tc := ⟨.vmem, 26, rfl⟩
abbrev cc2_stg12_0 : Ref sig .tc := ⟨.vmem, 27, rfl⟩
abbrev cc2_stg12_1 : Ref sig .tc := ⟨.vmem, 28, rfl⟩
abbrev cc3_stg0_0 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg8_0 : Ref sig .tc := ⟨.vmem, 37, rfl⟩
abbrev cc3_stg9_0 : Ref sig .tc := ⟨.vmem, 38, rfl⟩
abbrev cc3_stg10_0 : Ref sig .tc := ⟨.vmem, 39, rfl⟩
abbrev cc3_stg11_0 : Ref sig .tc := ⟨.vmem, 40, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem8_0 : DmaSem sig := 20
abbrev cc2_sem9_0 : DmaSem sig := 21
abbrev cc2_sem9_1 : DmaSem sig := 22
abbrev cc2_sem10_0 : DmaSem sig := 23
abbrev cc2_sem10_1 : DmaSem sig := 24
abbrev cc2_sem11_0 : DmaSem sig := 25
abbrev cc2_sem11_1 : DmaSem sig := 26
abbrev cc2_sem12_0 : DmaSem sig := 27
abbrev cc2_sem12_1 : DmaSem sig := 28
abbrev cc3_sem0_0 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem8_0 : DmaSem sig := 37
abbrev cc3_sem9_0 : DmaSem sig := 38
abbrev cc3_sem10_0 : DmaSem sig := 39
abbrev cc3_sem11_0 : DmaSem sig := 40

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S400x32 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S400x32 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S400x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S400x64 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev grid3 : Pipeline.Grid := .none

abbrev stage3_0 : Fin 1 → Memref sig .tc .vmem S10000x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S64x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev stage3_7 : Fin 1 → Memref sig .tc .vmem S64x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))

abbrev stage3_9 : Fin 1 → Memref sig .tc .vmem S10000x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))

abbrev stage3_10 : Fin 1 → Memref sig .tc .vmem S10000x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))

abbrev stage3_11 : Fin 1 → Memref sig .tc .vmem S10000x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))

class Facts₀ : Prop where
  concatenates_S64_S64_S128_d0 : Shape.Concatenates [S64, S64] S128 0
  shapeCasts_S128_S1x128 : S128.ShapeCasts S1x128
  bcast_S_S128x64 : S_.BroadcastsInDim S128x64 (![] : Fin 0 → Fin S128x64.rank)
  bcast_S_S1 : S_.BroadcastsInDim S1 (![] : Fin 0 → Fin S1.rank)
  concatenates_S1_S1_S2_d0 : Shape.Concatenates [S1, S1] S2 0
  concatenates_S32_S32_S64_d0 : Shape.Concatenates [S32, S32] S64 0
  shapeCasts_S64_S1x64 : S64.ShapeCasts S1x64
  bcast_S_S64x64 : S_.BroadcastsInDim S64x64 (![] : Fin 0 → Fin S64x64.rank)
  inb_S128x64_S128x64_0_0 : ∀ a, (![0, 0] : Fin 2 → Nat) a + S128x64.size a ≤ S128x64.size a
  h_S128x64 : 0 < S128x64.numel
  inb_S10000x128_S10000x128_0_0 : ∀ a, (![0, 0] : Fin 2 → Nat) a + S10000x128.size a ≤ S10000x128.size a
  h_S10000x128 : 0 < S10000x128.numel
  concatenates_S10000x64_S10000x64_S10000x128_d1 : Shape.Concatenates [S10000x64, S10000x64] S10000x128 1
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  shapeCasts_S128x64_S128x64 : S128x64.ShapeCasts S128x64
  inb_S400x64_S400x64_0_0 : ∀ a, (![0, 0] : Fin 2 → Nat) a + S400x64.size a ≤ S400x64.size a
  h_S400x64 : 0 < S400x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  slices_S400x64_o0_0_S400x32 : S400x64.Slices ![0, 0] S400x32
  inb_S400x32_S400x32_0_0 : ∀ a, (![0, 0] : Fin 2 → Nat) a + S400x32.size a ≤ S400x32.size a
  h_S400x32 : 0 < S400x32.numel
  slices_S400x64_o0_32_S400x32 : S400x64.Slices ![0, 32] S400x32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x128_S64x128_0_0 : ∀ a, (![0, 0] : Fin 2 → Nat) a + S64x128.size a ≤ S64x128.size a
  h_S64x128 : 0 < S64x128.numel
  inb_S400x128_S400x128_0_0 : ∀ a, (![0, 0] : Fin 2 → Nat) a + S400x128.size a ≤ S400x128.size a
  h_S400x128 : 0 < S400x128.numel
  reduces_S10000x64_S64 : S10000x64.Reduces [0] S64
  broadcasts_S1x64_S10000x64 : S1x64.Broadcasts S10000x64
  broadcasts_S1x128_S10000x128 : S1x128.Broadcasts S10000x128
  scatter_S128x64_S2_S64x32_01_n_01_0_wf : ScatterDims.WF S128x64 S2 S64x32 [0, 1] [] [0, 1] 0
  scatter_S64x64_S1_S32x64_01_n_0_0_wf : ScatterDims.WF S64x64 S1 S32x64 [0, 1] [] [0] 0
  dot_S10000x128_S128x64_S10000x64_1_0_0_1_n_n_wf : DotDims.WF S10000x128 S128x64 S10000x64 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  dot_S400x64_S64x64_S400x64_1_0_0_1_n_n_wf : DotDims.WF S400x64 S64x64 S400x64 [1] [0] [0] [1] [] []
  dot_S400x64_S64x128_S400x128_1_0_0_1_n_n_wf : DotDims.WF S400x64 S64x128 S400x128 [1] [0] [0] [1] [] []
  dot_S10000x64_S64x128_S10000x128_1_0_0_1_n_n_wf : DotDims.WF S10000x64 S64x128 S10000x128 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x64.size a ≤ S10000x64.size a
  hwx1_4 : ∀ i : grid1.Coords, EltTy.bits .f32 = 32 ∨ (Rect.block (s := S10000x64) S400x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .f32 = 32 ∨ (Rect.block (s := S10000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x128.size a ≤ S64x128.size a
  hwx2_5 : ∀ i : grid2.Coords, EltTy.bits .f32 = 32 ∨ (Rect.block (s := S64x128) S64x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x64.size a ≤ S64x64.size a
  hwx2_7 : ∀ i : grid2.Coords, EltTy.bits .f32 = 32 ∨ (Rect.block (s := S64x64) S64x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S400x32.size a ≤ S10000x32.size a
  hwx2_9 : ∀ i : grid2.Coords, EltTy.bits .f32 = 32 ∨ (Rect.block (s := S10000x32) S400x32.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S400x32.size a ≤ S10000x32.size a
  hwx2_10 : ∀ i : grid2.Coords, EltTy.bits .f32 = 32 ∨ (Rect.block (s := S10000x32) S400x32.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S400x128.size a ≤ S10000x128.size a
  hwx2_11 : ∀ i : grid2.Coords, EltTy.bits .f32 = 32 ∨ (Rect.block (s := S10000x128) S400x128.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S400x64.size a ≤ S10000x64.size a
  hwx2_12 : ∀ i : grid2.Coords, EltTy.bits .f32 = 32 ∨ (Rect.block (s := S10000x64) S400x64.size (cc2_transform_12 i) (hinb2_12 i)).WholeWords (EltTy.packing .f32)
  hstage3_0 : ∀ j, (stage3_0 j).IsWhole
  hstage3_1 : ∀ j, (stage3_1 j).IsWhole
  hstage3_2 : ∀ j, (stage3_2 j).IsWhole
  hstage3_3 : ∀ j, (stage3_3 j).IsWhole
  hstage3_4 : ∀ j, (stage3_4 j).IsWhole
  hstage3_5 : ∀ j, (stage3_5 j).IsWhole
  hstage3_6 : ∀ j, (stage3_6 j).IsWhole
  hstage3_7 : ∀ j, (stage3_7 j).IsWhole
  hstage3_8 : ∀ j, (stage3_8 j).IsWhole
  hstage3_9 : ∀ j, (stage3_9 j).IsWhole
  hstage3_10 : ∀ j, (stage3_10 j).IsWhole
  hstage3_11 : ∀ j, (stage3_11 j).IsWhole

variable [Facts₀]

def scatter_S128x64_S2_S64x32_01_n_01_0 : ScatterDims S128x64 S2 S64x32 where
  updateWindowDims := [0, 1]
  insertedWindowDims := []
  scatterDimsToOperandDims := [0, 1]
  indexVectorDim := 0
  wf := scatter_S128x64_S2_S64x32_01_n_01_0_wf
def scatter_S64x64_S1_S32x64_01_n_0_0 : ScatterDims S64x64 S1 S32x64 where
  updateWindowDims := [0, 1]
  insertedWindowDims := []
  scatterDimsToOperandDims := [0]
  indexVectorDim := 0
  wf := scatter_S64x64_S1_S32x64_01_n_0_0_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf
def dot_S400x64_S64x128_S400x128_1_0_0_1_n_n : DotDims S400x64 S64x128 S400x128 where
  lhsContracting := [1]
  rhsContracting := [0]
  lhsNonContracting := [0]
  rhsNonContracting := [1]
  lhsBatch := []
  rhsBatch := []
  wf := dot_S400x64_S64x128_S400x128_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg3) false false (stage0_2 0) (sem0_2 0) (Memref.isWhole_whole _) (hstage0_2 0)

abbrev win0_3 : Pipeline.Window sig grid0 :=
  Pipeline.Window.whole (Memref.whole main_call0_v19) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v19) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v10) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v20) S400x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg2) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v20) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v12) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v15) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v21) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S64x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v22) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_call0_v18) S64x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_call0_v23) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v0_0) S400x32.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v0_1) S400x32.size cc2_transform_10 reads2_10 true false 2 stage2_10 sem2_10
    hrank2 hreads2_10 hinb2_10 nbuf2_10 (Memref.isWhole_whole _) hwx2_10 hstage2_10

abbrev win2_11 : Pipeline.Window sig grid2 :=
  Pipeline.Window.ofSpec (Memref.whole main_v0_2) S400x128.size cc2_transform_11 reads2_11 true false 2 stage2_11 sem2_11
    hrank2 hreads2_11 hinb2_11 nbuf2_11 (Memref.isWhole_whole _) hwx2_11 hstage2_11

abbrev win2_12 : Pipeline.Window sig grid2 :=
  Pipeline.Window.ofSpec (Memref.whole main_call0_v24_3) S400x64.size cc2_transform_12 reads2_12 true false 2 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

abbrev win3_0 : Pipeline.Window sig grid3 :=
  Pipeline.Window.whole (Memref.whole main_call0_v24_3) false false (stage3_0 0) (sem3_0 0) (Memref.isWhole_whole _) (hstage3_0 0)

abbrev win3_1 : Pipeline.Window sig grid3 :=
  Pipeline.Window.whole (Memref.whole main_call0_v25) false false (stage3_1 0) (sem3_1 0) (Memref.isWhole_whole _) (hstage3_1 0)

abbrev win3_2 : Pipeline.Window sig grid3 :=
  Pipeline.Window.whole (Memref.whole main_call0_v26) false false (stage3_2 0) (sem3_2 0) (Memref.isWhole_whole _) (hstage3_2 0)

abbrev win3_3 : Pipeline.Window sig grid3 :=
  Pipeline.Window.whole (Memref.whole main_arg15) false false (stage3_3 0) (sem3_3 0) (Memref.isWhole_whole _) (hstage3_3 0)

abbrev win3_4 : Pipeline.Window sig grid3 :=
  Pipeline.Window.whole (Memref.whole main_call0_v27) false false (stage3_4 0) (sem3_4 0) (Memref.isWhole_whole _) (hstage3_4 0)

abbrev win3_5 : Pipeline.Window sig grid3 :=
  Pipeline.Window.whole (Memref.whole main_arg17) false false (stage3_5 0) (sem3_5 0) (Memref.isWhole_whole _) (hstage3_5 0)

abbrev win3_6 : Pipeline.Window sig grid3 :=
  Pipeline.Window.whole (Memref.whole main_call0_v28) false false (stage3_6 0) (sem3_6 0) (Memref.isWhole_whole _) (hstage3_6 0)

abbrev win3_7 : Pipeline.Window sig grid3 :=
  Pipeline.Window.whole (Memref.whole main_arg19) false false (stage3_7 0) (sem3_7 0) (Memref.isWhole_whole _) (hstage3_7 0)

abbrev win3_8 : Pipeline.Window sig grid3 :=
  Pipeline.Window.whole (Memref.whole main_call0_v29) false false (stage3_8 0) (sem3_8 0) (Memref.isWhole_whole _) (hstage3_8 0)

abbrev win3_9 : Pipeline.Window sig grid3 :=
  Pipeline.Window.whole (Memref.whole main_v0_3) true false (stage3_9 0) (sem3_9 0) (Memref.isWhole_whole _) (hstage3_9 0)

abbrev win3_10 : Pipeline.Window sig grid3 :=
  Pipeline.Window.whole (Memref.whole main_v0_4) true false (stage3_10 0) (sem3_10 0) (Memref.isWhole_whole _) (hstage3_10 0)

abbrev win3_11 : Pipeline.Window sig grid3 :=
  Pipeline.Window.whole (Memref.whole main_v0_5) true false (stage3_11 0) (sem3_11 0) (Memref.isWhole_whole _) (hstage3_11 0)

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x128 : Shape := ⟨2, ![64, 128]⟩
abbrev S128 : Shape := ⟨1, ![128]⟩
abbrev S10000x64 : Shape := ⟨2, ![10000, 64]⟩
abbrev S1x64 : Shape := ⟨2, ![1, 64]⟩
abbrev S_ : Shape := ⟨0, ![]⟩
abbrev S10000x32 : Shape := ⟨2, ![10000, 32]⟩
abbrev S1x32 : Shape := ⟨2, ![1, 32]⟩
abbrev S1x128 : Shape := ⟨2, ![1, 128]⟩

abbrev nBuf : Space → Nat
  | .hbm => 160
  | .vmem => 0
  | .smem => 0
  | _ => 0

abbrev hbmTy0_0 (i : Nat) : BufTy := match i % 128 with
  | 0 => ⟨S10000x128, .f32⟩
  | 1 => ⟨S10000x128, .f32⟩
  | 2 => ⟨S10000x10000, .f32⟩
  | 3 => ⟨S128x64, .f32⟩
  | 4 => ⟨S64, .f32⟩
  | 5 => ⟨S64x32, .f32⟩
  | 6 => ⟨S32, .f32⟩
  | 7 => ⟨S32x64, .f32⟩
  | 8 => ⟨S64, .f32⟩
  | 9 => ⟨S64x128, .f32⟩
  | 10 => ⟨S128, .f32⟩
  | 11 => ⟨S32x64, .f32⟩
  | 12 => ⟨S64, .f32⟩
  | 13 => ⟨S64, .f32⟩
  | 14 => ⟨S64, .f32⟩
  | 15 => ⟨S64x128, .f32⟩
  | 16 => ⟨S128, .f32⟩
  | 17 => ⟨S64x128, .f32⟩
  | 18 => ⟨S128, .f32⟩
  | 19 => ⟨S64x128, .f32⟩
  | 20 => ⟨S128, .f32⟩
  | 21 => ⟨S10000x64, .f32⟩
  | 22 => ⟨S10000x64, .f32⟩
  | 23 => ⟨S1x64, .f32⟩
  | 24 => ⟨S10000x64, .f32⟩
  | 25 => ⟨S10000x64, .f32⟩
  | 26 => ⟨S_, .f32⟩
  | 27 => ⟨S10000x64, .f32⟩
  | 28 => ⟨S10000x64, .f32⟩
  | 29 => ⟨S10000x32, .f32⟩
  | 30 => ⟨S10000x32, .f32⟩
  | 31 => ⟨S1x32, .f32⟩
  | 32 => ⟨S10000x32, .f32⟩
  | 33 => ⟨S10000x32, .f32⟩
  | 34 => ⟨S10000x64, .f32⟩
  | 35 => ⟨S10000x64, .f32⟩
  | 36 => ⟨S1x64, .f32⟩
  | 37 => ⟨S10000x64, .f32⟩
  | 38 => ⟨S10000x64, .f32⟩
  | 39 => ⟨S_, .f32⟩
  | 40 => ⟨S10000x64, .f32⟩
  | 41 => ⟨S10000x64, .f32⟩
  | 42 => ⟨S10000x32, .f32⟩
  | 43 => ⟨S10000x32, .f32⟩
  | 44 => ⟨S1x32, .f32⟩
  | 45 => ⟨S10000x32, .f32⟩
  | 46 => ⟨S10000x32, .f32⟩
  | 47 => ⟨S10000x64, .f32⟩
  | 48 => ⟨S1x64, .f32⟩
  | 49 => ⟨S10000x64, .f32⟩
  | 50 => ⟨S10000x64, .f32⟩
  | 51 => ⟨S_, .f32⟩
  | 52 => ⟨S64, .f32⟩
  | 53 => ⟨S_, .f32⟩
  | 54 => ⟨S64, .f32⟩
  | 55 => ⟨S64, .f32⟩
  | 56 => ⟨S_, .i32⟩
  | 57 => ⟨S_, .f32⟩
  | 58 => ⟨S64, .f32⟩
  | 59 => ⟨S1x64, .f32⟩
  | 60 => ⟨S_, .f32⟩
  | 61 => ⟨S1x64, .f32⟩
  | 62 => ⟨S1x64, .f32⟩
  | 63 => ⟨S10000x64, .f32⟩
  | 64 => ⟨S10000x64, .f32⟩
  | 65 => ⟨S10000x64, .f32⟩
  | 66 => ⟨S_, .f32⟩
  | 67 => ⟨S_, .f32⟩
  | 68 => ⟨S_, .f32⟩
  | 69 => ⟨S_, .f32⟩
  | 70 => ⟨S64, .f32⟩
  | 71 => ⟨S64, .f32⟩
  | 72 => ⟨S64, .f32⟩
  | 73 => ⟨S_, .f32⟩
  | 74 => ⟨S_, .i1⟩
  | 75 => ⟨S_, .f32⟩
  | 76 => ⟨S_, .f32⟩
  | 77 => ⟨S64, .f32⟩
  | 78 => ⟨S64, .f32⟩
  | 79 => ⟨S1x64, .f32⟩
  | 80 => ⟨S10000x64, .f32⟩
  | 81 => ⟨S10000x64, .f32⟩
  | 82 => ⟨S_, .f32⟩
  | 83 => ⟨S64, .f32⟩
  | 84 => ⟨S64, .f32⟩
  | 85 => ⟨S64, .f32⟩
  | 86 => ⟨S1x64, .f32⟩
  | 87 => ⟨S10000x64, .f32⟩
  | 88 => ⟨S10000x64, .f32⟩
  | 89 => ⟨S1x64, .f32⟩
  | 90 => ⟨S10000x64, .f32⟩
  | 91 => ⟨S10000x64, .f32⟩
  | 92 => ⟨S1x64, .f32⟩
  | 93 => ⟨S10000x64, .f32⟩
  | 94 => ⟨S10000x64, .f32⟩
  | 95 => ⟨S_, .f32⟩
  | 96 => ⟨S10000x64, .f32⟩
  | 97 => ⟨S10000x64, .f32⟩
  | 98 => ⟨S10000x128, .f32⟩
  | 99 => ⟨S1x128, .f32⟩
  | 100 => ⟨S10000x128, .f32⟩
  | 101 => ⟨S10000x128, .f32⟩
  | 102 => ⟨S10000x128, .f32⟩
  | 103 => ⟨S10000x128, .f32⟩
  | 104 => ⟨S_, .f32⟩
  | 105 => ⟨S10000x128, .f32⟩
  | 106 => ⟨S10000x128, .f32⟩
  | 107 => ⟨S_, .f32⟩
  | 108 => ⟨S10000x128, .f32⟩
  | 109 => ⟨S10000x128, .f32⟩
  | 110 => ⟨S10000x128, .f32⟩
  | 111 => ⟨S1x128, .f32⟩
  | 112 => ⟨S10000x128, .f32⟩
  | 113 => ⟨S10000x128, .f32⟩
  | 114 => ⟨S_, .f32⟩
  | 115 => ⟨S10000x128, .f32⟩
  | 116 => ⟨S10000x128, .f32⟩
  | 117 => ⟨S10000x128, .f32⟩
  | 118 => ⟨S10000x128, .f32⟩
  | 119 => ⟨S10000x128, .i1⟩
  | 120 => ⟨S10000x128, .f32⟩
  | 121 => ⟨S10000x128, .f32⟩
  | 122 => ⟨S10000x128, .f32⟩
  | 123 => ⟨S10000x128, .f32⟩
  | 124 => ⟨S10000x128, .f32⟩
  | 125 => ⟨S10000x128, .f32⟩
  | 126 => ⟨S10000x128, .f32⟩
  | 127 => ⟨S10000x128, .f32⟩
  | _ => ⟨S10000x128, .f32⟩

abbrev hbmTy0_1 (i : Nat) : BufTy := match i % 128 with
  | 0 => ⟨S_, .f32⟩
  | 1 => ⟨S_, .f32⟩
  | 2 => ⟨S_, .f32⟩
  | 3 => ⟨S10000x128, .f32⟩
  | 4 => ⟨S10000x128, .f32⟩
  | 5 => ⟨S_, .f32⟩
  | 6 => ⟨S10000x128, .f32⟩
  | 7 => ⟨S10000x128, .f32⟩
  | 8 => ⟨S10000x128, .f32⟩
  | 9 => ⟨S1x128, .f32⟩
  | 10 => ⟨S10000x128, .f32⟩
  | 11 => ⟨S10000x128, .f32⟩
  | 12 => ⟨S10000x128, .f32⟩
  | 13 => ⟨S_, .f32⟩
  | 14 => ⟨S_, .f32⟩
  | 15 => ⟨S_, .f32⟩
  | 16 => ⟨S10000x128, .f32⟩
  | 17 => ⟨S10000x128, .f32⟩
  | 18 => ⟨S_, .f32⟩
  | 19 => ⟨S10000x128, .f32⟩
  | 20 => ⟨S10000x128, .f32⟩
  | 21 => ⟨S10000x64, .f32⟩
  | 22 => ⟨S1x64, .f32⟩
  | 23 => ⟨S10000x64, .f32⟩
  | 24 => ⟨S10000x64, .f32⟩
  | 25 => ⟨S_, .f32⟩
  | 26 => ⟨S10000x64, .f32⟩
  | 27 => ⟨S10000x64, .f32⟩
  | 28 => ⟨S10000x128, .f32⟩
  | 29 => ⟨S1x128, .f32⟩
  | 30 => ⟨S10000x128, .f32⟩
  | 31 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_call0_cst : Ref sig .tc := ⟨.hbm, 26, rfl⟩
abbrev main_call0_v0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_call1_cst : Ref sig .tc := ⟨.hbm, 39, rfl⟩
abbrev main_call1_v0 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst : Ref sig .tc := ⟨.hbm, 51, rfl⟩
abbrev main_v26 : Ref sig .tc := ⟨.hbm, 52, rfl⟩
abbrev main_cst_0 : Ref sig .tc := ⟨.hbm, 53, rfl⟩
abbrev main_v27 : Ref sig .tc := ⟨.hbm, 54, rfl⟩
abbrev main_v28 : Ref sig .tc := ⟨.hbm, 55, rfl⟩
abbrev main_c : Ref sig .tc := ⟨.hbm, 56, rfl⟩
abbrev main_call2_cst : Ref sig .tc := ⟨.hbm, 57, rfl⟩
abbrev main_call2_v0 : Ref sig .tc := ⟨.hbm, 58, rfl⟩
abbrev main_call2_v1 : Ref sig .tc := ⟨.hbm, 59, rfl⟩
abbrev main_call2_cst_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_cst_1 : Ref sig .tc := ⟨.hbm, 67, rfl⟩
abbrev main_call2_v8 : Ref sig .tc := ⟨.hbm, 68, rfl⟩
abbrev main_call2_cst_2 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_cst_3 : Ref sig .tc := ⟨.hbm, 73, rfl⟩
abbrev main_call2_v12 : Ref sig .tc := ⟨.hbm, 74, rfl⟩
abbrev main_call2_cst_4 : Ref sig .tc := ⟨.hbm, 75, rfl⟩
abbrev main_call2_call0_v0 : Ref sig .tc := ⟨.hbm, 76, rfl⟩
abbrev main_call2_call0_v1 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_cst_1 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_call3_cst : Ref sig .tc := ⟨.hbm, 95, rfl⟩
abbrev main_call3_v0 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_cst_2 : Ref sig .tc := ⟨.hbm, 104, rfl⟩
abbrev main_v52 : Ref sig .tc := ⟨.hbm, 105, rfl⟩
abbrev main_v53 : Ref sig .tc := ⟨.hbm, 106, rfl⟩
abbrev main_cst_3 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_call4_cst : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_call4_v5 : Ref sig .tc := ⟨.hbm, 120, rfl⟩
abbrev main_call4_v6 : Ref sig .tc := ⟨.hbm, 121, rfl⟩
abbrev main_call4_v7 : Ref sig .tc := ⟨.hbm, 122, rfl⟩
abbrev main_call4_v8 : Ref sig .tc := ⟨.hbm, 123, rfl⟩
abbrev main_call4_v9 : Ref sig .tc := ⟨.hbm, 124, rfl⟩
abbrev main_call4_v10 : Ref sig .tc := ⟨.hbm, 125, rfl⟩
abbrev main_call4_v11 : Ref sig .tc := ⟨.hbm, 126, rfl⟩
abbrev main_v60 : Ref sig .tc := ⟨.hbm, 127, rfl⟩
abbrev main_cst_4 : Ref sig .tc := ⟨.hbm, 128, rfl⟩
abbrev main_cst_5 : Ref sig .tc := ⟨.hbm, 129, rfl⟩
abbrev main_call5_v0 : Ref sig .tc := ⟨.hbm, 130, rfl⟩
abbrev main_call5_v1 : Ref sig .tc := ⟨.hbm, 131, rfl⟩
abbrev main_call5_v2 : Ref sig .tc := ⟨.hbm, 132, rfl⟩
abbrev main_call5_v3 : Ref sig .tc := ⟨.hbm, 133, rfl⟩
abbrev main_call5_v4 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_cst_6 : Ref sig .tc := ⟨.hbm, 141, rfl⟩
abbrev main_cst_7 : Ref sig .tc := ⟨.hbm, 142, rfl⟩
abbrev main_call6_v0 : Ref sig .tc := ⟨.hbm, 143, rfl⟩
abbrev main_call6_v1 : Ref sig .tc := ⟨.hbm, 144, rfl⟩
abbrev main_call6_v2 : Ref sig .tc := ⟨.hbm, 145, rfl⟩
abbrev main_call6_v3 : Ref sig .tc := ⟨.hbm, 146, rfl⟩
abbrev main_call6_v4 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_call7_cst : Ref sig .tc := ⟨.hbm, 153, rfl⟩
abbrev main_call7_v0 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  reducesTo_S10000x64_S64_d0 : S10000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []
  dot_S10000x10000_S10000x32_S10000x32_1_0_0_1_n_n_wf : DotDims.WF S10000x10000 S10000x32 S10000x32 [1] [0] [0] [1] [] []
  dot_S10000x32_S32x64_S10000x64_1_0_0_1_n_n_wf : DotDims.WF S10000x32 S32x64 S10000x64 [1] [0] [0] [1] [] []
  dot_S10000x64_S64x128_S10000x128_1_0_0_1_n_n_wf : DotDims.WF S10000x64 S64x128 S10000x128 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf

class Facts : Prop extends Facts₀ where

variable [Facts]
-- ==== Proof.KernelKeep.lean ====
/-
  Which buffers the segments of @main leave alone.  A host stretch changes only the buffers its operations write; a
  kernel region changes only its output windows' arrays (an input window's array is read, and ends as it was found).
  So an argument array holds its launch contents at every segment boundary, and a buffer computed by a host stretch
  keeps that value until the end.
-/
import proofs.«178206_g36112085024797_cont_8to1_b_1395_2_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem arg0_at1 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem arg1_at1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem arg3_at1 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem arg2_at2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem arg8_at3 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem arg10_at3 (c : Dev nD) : W3 m ρ c (Proc.devRef .tc main_arg10) = m ((c : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem arg12_at3 (c : Dev nD) : W3 m ρ c (Proc.devRef .tc main_arg12) = m ((c : Thread nD τ).loc main_arg12) :=
  calc W3 m ρ c (Proc.devRef .tc main_arg12)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem arg2_at4 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := (W3_arr m ρ c 0).trans (((dat1 (V2 m ρ) c).arrAt_in 0 rfl _).trans (A_eq1 (V2 m ρ) c 0))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem arg9_at4 (c : Dev nD) : W4 m ρ c (Proc.devRef .tc main_arg9) = m ((c : Thread nD τ).loc main_arg9) :=
  calc W4 m ρ c (Proc.devRef .tc main_arg9)
    _ = W3 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem arg13_at5 (c : Dev nD) : W5 m ρ c (Proc.devRef .tc main_arg13) = m ((c : Thread nD τ).loc main_arg13) :=
  calc W5 m ρ c (Proc.devRef .tc main_arg13)
    _ = W4 m ρ c (Proc.devRef .tc main_arg13) := W5_of_ne m ρ c main_arg13 (by decide)
    _ = W3 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem arg14_at5 (c : Dev nD) : W5 m ρ c (Proc.devRef .tc main_arg14) = m ((c : Thread nD τ).loc main_arg14) :=
  calc W5 m ρ c (Proc.devRef .tc main_arg14)
    _ = W4 m ρ c (Proc.devRef .tc main_arg14) := W5_of_ne m ρ c main_arg14 (by decide)
    _ = W3 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem arg16_at5 (c : Dev nD) : W5 m ρ c (Proc.devRef .tc main_arg16) = m ((c : Thread nD τ).loc main_arg16) :=
  calc W5 m ρ c (Proc.devRef .tc main_arg16)
    _ = W4 m ρ c (Proc.devRef .tc main_arg16) := W5_of_ne m ρ c main_arg16 (by decide)
    _ = W3 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg16) := W3_of_ne m ρ c main_arg16 (by decide)
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

theorem arg18_at5 (c : Dev nD) : W5 m ρ c (Proc.devRef .tc main_arg18) = m ((c : Thread nD τ).loc main_arg18) :=
  calc W5 m ρ c (Proc.devRef .tc main_arg18)
    _ = W4 m ρ c (Proc.devRef .tc main_arg18) := W5_of_ne m ρ c main_arg18 (by decide)
    _ = W3 m ρ c (Proc.devRef .tc main_arg18) := StableHlo.after_of_forall_not_mem (b := Proc.devRef .tc main_arg18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg18) := W3_of_ne m ρ c main_arg18 (by decide)
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := rfl

theorem arg20_at5 (c : Dev nD) : W5 m ρ c (Proc.devRef .tc main_arg20) = m ((c : Thread nD τ).loc main_arg20) :=
  calc W5 m ρ c (Proc.devRef .tc main_arg20)
    _ = W4 m ρ c (Proc.devRef .tc main_arg20) := W5_of_ne m ρ c main_arg20 (by decide)
    _ = W3 m ρ c (Proc.devRef .tc main_arg20) := StableHlo.after_of_forall_not_mem (b := Proc.devRef .tc main_arg20) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg20) := W3_of_ne m ρ c main_arg20 (by decide)
    _ = W1 m ρ c (Proc.devRef .tc main_arg20) := W2_of_ne m ρ c main_arg20 (by decide)
    _ = W0 m ρ c (Proc.devRef .tc main_arg20) := StableHlo.after_of_forall_not_mem (b := Proc.devRef .tc main_arg20) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg20) := rfl

theorem arg15_at6 (c : Dev nD) : W6 m ρ c (Proc.devRef .tc main_arg15) = m ((c : Thread nD τ).loc main_arg15) :=
  calc W6 m ρ c (Proc.devRef .tc main_arg15)
    _ = W5 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg15) := W5_of_ne m ρ c main_arg15 (by decide)
    _ = W3 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg15) := W3_of_ne m ρ c main_arg15 (by decide)
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem arg17_at6 (c : Dev nD) : W6 m ρ c (Proc.devRef .tc main_arg17) = m ((c : Thread nD τ).loc main_arg17) :=
  calc W6 m ρ c (Proc.devRef .tc main_arg17)
    _ = W5 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg17) := W5_of_ne m ρ c main_arg17 (by decide)
    _ = W3 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg17) := W3_of_ne m ρ c main_arg17 (by decide)
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

theorem arg19_at6 (c : Dev nD) : W6 m ρ c (Proc.devRef .tc main_arg19) = m ((c : Thread nD τ).loc main_arg19) :=
  calc W6 m ρ c (Proc.devRef .tc main_arg19)
    _ = W5 m ρ c (Proc.devRef .tc main_arg19) := StableHlo.after_of_forall_not_mem (b := Proc.devRef .tc main_arg19) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg19) := W5_of_ne m ρ c main_arg19 (by decide)
    _ = W3 m ρ c (Proc.devRef .tc main_arg19) := StableHlo.after_of_forall_not_mem (b := Proc.devRef .tc main_arg19) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg19) := W3_of_ne m ρ c main_arg19 (by decide)
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg19) := rfl

theorem v1_keep2 (c : Dev nD) : W2 m ρ c (Proc.devRef .tc main_call0_v1) = W1 m ρ c (Proc.devRef .tc main_call0_v1) :=
  calc W2 m ρ c (Proc.devRef .tc main_call0_v1)
    _ = W1 m ρ c (Proc.devRef .tc main_call0_v1) := W2_of_ne m ρ c main_call0_v1 (by decide)

theorem v10_keep2 (c : Dev nD) : W2 m ρ c (Proc.devRef .tc main_call0_v10) = W1 m ρ c (Proc.devRef .tc main_call0_v10) :=
  calc W2 m ρ c (Proc.devRef .tc main_call0_v10)
    _ = W1 m ρ c (Proc.devRef .tc main_call0_v10) := W2_of_ne m ρ c main_call0_v10 (by decide)

theorem v12_keep4 (c : Dev nD) : W4 m ρ c (Proc.devRef .tc main_call0_v12) = W1 m ρ c (Proc.devRef .tc main_call0_v12) :=
  calc W4 m ρ c (Proc.devRef .tc main_call0_v12)
    _ = W3 m ρ c (Proc.devRef .tc main_call0_v12) := StableHlo.after_of_forall_not_mem (b := Proc.devRef .tc main_call0_v12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_call0_v12) := W3_of_ne m ρ c main_call0_v12 (by decide)
    _ = W1 m ρ c (Proc.devRef .tc main_call0_v12) := W2_of_ne m ρ c main_call0_v12 (by decide)

theorem v15_keep4 (c : Dev nD) : W4 m ρ c (Proc.devRef .tc main_call0_v15) = W1 m ρ c (Proc.devRef .tc main_call0_v15) :=
  calc W4 m ρ c (Proc.devRef .tc main_call0_v15)
    _ = W3 m ρ c (Proc.devRef .tc main_call0_v15) := StableHlo.after_of_forall_not_mem (b := Proc.devRef .tc main_call0_v15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_call0_v15) := W3_of_ne m ρ c main_call0_v15 (by decide)
    _ = W1 m ρ c (Proc.devRef .tc main_call0_v15) := W2_of_ne m ρ c main_call0_v15 (by decide)

theorem v18_keep4 (c : Dev nD) : W4 m ρ c (Proc.devRef .tc main_call0_v18) = W1 m ρ c (Proc.devRef .tc main_call0_v18) :=
  calc W4 m ρ c (Proc.devRef .tc main_call0_v18)
    _ = W3 m ρ c (Proc.devRef .tc main_call0_v18) := StableHlo.after_of_forall_not_mem (b := Proc.devRef .tc main_call0_v18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_call0_v18) := W3_of_ne m ρ c main_call0_v18 (by decide)
    _ = W1 m ρ c (Proc.devRef .tc main_call0_v18) := W2_of_ne m ρ c main_call0_v18 (by decide)

theorem v20_keep4 (c : Dev nD) : W4 m ρ c (Proc.devRef .tc main_call0_v20) = W3 m ρ c (Proc.devRef .tc main_call0_v20) :=
  calc W4 m ρ c (Proc.devRef .tc main_call0_v20)
    _ = W3 m ρ c (Proc.devRef .tc main_call0_v20) := StableHlo.after_of_forall_not_mem (b := Proc.devRef .tc main_call0_v20) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem v24_keep6 (c : Dev nD) : W6 m ρ c (Proc.devRef .tc main_call0_v24_3) = W5 m ρ c (Proc.devRef .tc main_call0_v24_3) :=
  calc W6 m ρ c (Proc.devRef .tc main_call0_v24_3)
    _ = W5 m ρ c (Proc.devRef .tc main_call0_v24_3) := StableHlo.after_of_forall_not_mem (b := Proc.devRef .tc main_call0_v24_3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem out0_keep7 (c : Dev nD) : W7 m ρ c (Proc.devRef .tc main_v0_0) = W5 m ρ c (Proc.devRef .tc main_v0_0) :=
  calc W7 m ρ c (Proc.devRef .tc main_v0_0)
    _ = W6 m ρ c (Proc.devRef .tc main_v0_0) := W7_of_ne m ρ c main_v0_0 (by decide)
    _ = W5 m ρ c (Proc.devRef .tc main_v0_0) := StableHlo.after_of_forall_not_mem (b := Proc.devRef .tc main_v0_0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem out1_keep7 (c : Dev nD) : W7 m ρ c (Proc.devRef .tc main_v0_1) = W5 m ρ c (Proc.devRef .tc main_v0_1) :=
  calc W7 m ρ c (Proc.devRef .tc main_v0_1)
    _ = W6 m ρ c (Proc.devRef .tc main_v0_1) := W7_of_ne m ρ c main_v0_1 (by decide)
    _ = W5 m ρ c (Proc.devRef .tc main_v0_1) := StableHlo.after_of_forall_not_mem (b := Proc.devRef .tc main_v0_1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem out2_keep7 (c : Dev nD) : W7 m ρ c (Proc.devRef .tc main_v0_2) = W5 m ρ c (Proc.devRef .tc main_v0_2) :=
  calc W7 m ρ c (Proc.devRef .tc main_v0_2)
    _ = W6 m ρ c (Proc.devRef .tc main_v0_2) := W7_of_ne m ρ c main_v0_2 (by decide)
    _ = W5 m ρ c (Proc.devRef .tc main_v0_2) := StableHlo.after_of_forall_not_mem (b := Proc.devRef .tc main_v0_2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Gen

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibMatProduct.lean ====
/-
  A matrix product as one whole-array function of its two factors, for any extents.

  `prod x w` is the `[M, N]` array whose entry `(r, c)` is the sum over `k` of `x (r, k) · w (k, c)`, on the extended reals.
  Both the kernel's matrix unit accumulating into zero and the host's `dot_general`, for the dimension numbers of a plain
  `[M, K]` by `[K, N]` product, are this function: each is that sum at every entry. A kernel that computes a product block
  of rows by block of rows and a reference that computes it whole can then both be stated with the one term `prod x w`.
-/
import proofs.«178206_g36112085024797_cont_8to1_b_1395_2_alg».proof.Proof.LibPlainDot

noncomputable section

namespace Cert.MatProduct

open Idealize.ShloMosaic Idealize.ShloMosaic.ValueIdx

/-- The row of a rank-2 index, as a number below the row count. -/
def rowOf {M N : ℕ} (y : (⟨2, ![M, N]⟩ : Shape).Idx) : Fin M := ⟨(y 0).val, (y 0).isLt⟩
/-- The column of a rank-2 index, as a number below the column count. -/
def colOf {M N : ℕ} (y : (⟨2, ![M, N]⟩ : Shape).Idx) : Fin N := ⟨(y 1).val, (y 1).isLt⟩

theorem eq_row_col {M N : ℕ} (y : (⟨2, ![M, N]⟩ : Shape).Idx) : y = ix2 (rowOf y) (colOf y) := eq_ix2 y

/-- The product of an `[M, K]` and a `[K, N]` array of extended reals, entry by entry. -/
def prod {M K N : ℕ} (x : (⟨2, ![M, K]⟩ : Shape).Idx → EReal) (w : (⟨2, ![K, N]⟩ : Shape).Idx → EReal) :
    (⟨2, ![M, N]⟩ : Shape).Idx → EReal :=
  fun y => ∑ k : Fin K, x (ix2 (rowOf y) k) * w (ix2 k (colOf y))

/-- The matrix unit accumulating into the zero splat is the product. -/
theorem matmul_zero_eq_prod {M K N : ℕ} {φ₁ φ₂ : FTy} (prec : Option ContractPrecision)
    (lhs : FVec Ideal ⟨2, ![M, K]⟩ φ₁) (rhs : FVec Ideal ⟨2, ![K, N]⟩ φ₂) :
    FloatOps.matmul (DotDims.plain M K N) prec lhs rhs (constant (F := Ideal) ⟨2, ![M, N]⟩ .f32 0x00000000#32) = prod lhs rhs := by
  funext y
  rw [eq_row_col y]
  exact Cert.Sage.matmul_plain_zero_apply prec lhs rhs (rowOf y) (colOf y)

/-- The host's `dot_general` is the product. -/
theorem dotGeneral_eq_prod {M K N : ℕ} {φ₁ φ₂ : FTy} (prec : Option ContractPrecision) (sched : HostSchedule)
    (lhs : FVec Ideal ⟨2, ![M, K]⟩ φ₁) (rhs : FVec Ideal ⟨2, ![K, N]⟩ φ₂) :
    FloatOps.dotGeneral (DotDims.plain M K N) prec sched lhs rhs = prod lhs rhs := by
  funext y
  rw [eq_row_col y]
  exact Cert.Sage.dotGeneral_plain_apply prec sched lhs rhs (rowOf y) (colOf y)

end Cert.MatProduct

end
-- ==== Proof.LibRowBias.lean ====
/-
  A bias row added to every row of an array, with or without a floor, as one whole-array function.

  `addRow x b` is the `[R, N]` array whose entry `(r, c)` is `x (r, c) + b (0, c)`, on the extended reals, for a one-row
  array `b` of shape `[1, N]`; `addRowMax x b z` is the same floored at `z`, entry by entry. A vector unit that spreads
  the row down the rows, adds, and takes the maximum with a splat computes exactly these, for any extents; and both
  functions act on each row by itself, so they keep the relation "a block is a stretch of consecutive rows of a
  taller array".
-/
import Idealize.ShloMosaic.Lib.ValueIdx
import Idealize.ShloMosaic.Lib.Pipeline.Value
import Idealize.ShloMosaic.PureOps.Ideal.Laws
import proofs.«178206_g36112085024797_cont_8to1_b_1395_2_alg».proof.Proof.LibMatProduct

noncomputable section

namespace Cert.RowBias

open Idealize.ShloMosaic Idealize.ShloMosaic.ValueIdx
open Cert.MatProduct (rowOf colOf)

/-- Every row of `x` plus the one row of `b`, entry by entry. -/
def addRow {R N : ℕ} (x : (⟨2, ![R, N]⟩ : Shape).Idx → EReal) (b : (⟨2, ![1, N]⟩ : Shape).Idx → EReal) :
    (⟨2, ![R, N]⟩ : Shape).Idx → EReal :=
  fun y => x y + b (ix2 0 (colOf y))

/-- Every row of `x` plus the one row of `b`, floored at `z`, entry by entry. -/
def addRowMax {R N : ℕ} (x : (⟨2, ![R, N]⟩ : Shape).Idx → EReal) (b : (⟨2, ![1, N]⟩ : Shape).Idx → EReal) (z : EReal) :
    (⟨2, ![R, N]⟩ : Shape).Idx → EReal :=
  fun y => max (x y + b (ix2 0 (colOf y))) z

/-- A one-row array spread down `R` rows reads, at `(r, c)`, the row's entry `c`. -/
theorem spreadRow_apply {R N : ℕ} (b : (⟨2, ![1, N]⟩ : Shape).Idx → EReal)
    (h : (⟨2, ![1, N]⟩ : Shape).Broadcasts ⟨2, ![R, N]⟩) (y : (⟨2, ![R, N]⟩ : Shape).Idx) :
    broadcastTo ⟨2, ![R, N]⟩ b h y = b (ix2 0 (colOf y)) := by
  refine broadcastTo_apply b h y (ix2 0 (colOf y)) fun a => ?_
  match a with
  | ⟨0, _⟩ => exact (if_pos rfl).symm
  | ⟨1, _⟩ =>
    show (y 1).val = if N = 1 then 0 else (y 1).val
    have hy : (y 1).val < N := (y 1).isLt
    split_ifs with hN
    · omega
    · rfl

/-- The vector unit's `x + spread b`, through the identity casts the lowering leaves around both operands. -/
theorem vec_addRow {R N : ℕ} (x : FVec Ideal ⟨2, ![R, N]⟩ .f32) (b : FVec Ideal ⟨2, ![1, N]⟩ .f32)
    (h0 : (⟨2, ![R, N]⟩ : Shape).ShapeCasts ⟨2, ![R, N]⟩) (h1 h2 : (⟨2, ![1, N]⟩ : Shape).ShapeCasts ⟨2, ![1, N]⟩)
    (hb : (⟨2, ![1, N]⟩ : Shape).Broadcasts ⟨2, ![R, N]⟩) :
    addf (shapeCast ⟨2, ![R, N]⟩ x h0) (broadcastTo ⟨2, ![R, N]⟩ (shapeCast ⟨2, ![1, N]⟩ (shapeCast ⟨2, ![1, N]⟩ b h1) h2) hb)
      = addRow x b := by
  rw [shapeCast_self, shapeCast_self, shapeCast_self]
  funext y
  rw [addf_apply, spreadRow_apply]
  rfl

/-- The same floored at a splat of `z`. -/
theorem vec_addRowMax {R N : ℕ} (x : FVec Ideal ⟨2, ![R, N]⟩ .f32) (b : FVec Ideal ⟨2, ![1, N]⟩ .f32)
    (h0 : (⟨2, ![R, N]⟩ : Shape).ShapeCasts ⟨2, ![R, N]⟩) (h1 h2 : (⟨2, ![1, N]⟩ : Shape).ShapeCasts ⟨2, ![1, N]⟩)
    (hb : (⟨2, ![1, N]⟩ : Shape).Broadcasts ⟨2, ![R, N]⟩) (z : Ideal .f32) :
    maximumf (addf (shapeCast ⟨2, ![R, N]⟩ x h0) (broadcastTo ⟨2, ![R, N]⟩ (shapeCast ⟨2, ![1, N]⟩ (shapeCast ⟨2, ![1, N]⟩ b h1) h2) hb))
        (broadcast ⟨2, ![R, N]⟩ z)
      = addRowMax x b z := by
  rw [vec_addRow]
  funext y
  rw [maximumf_apply, broadcast_apply]
  rfl

/-- Two products agree at two entries when the rows and the columns those entries read agree. -/
theorem prod_entry_congr {M M' K N N' : ℕ} {x : (⟨2, ![M, K]⟩ : Shape).Idx → EReal} {x' : (⟨2, ![M', K]⟩ : Shape).Idx → EReal}
    {w : (⟨2, ![K, N]⟩ : Shape).Idx → EReal} {w' : (⟨2, ![K, N']⟩ : Shape).Idx → EReal}
    (y : (⟨2, ![M, N]⟩ : Shape).Idx) (y' : (⟨2, ![M', N']⟩ : Shape).Idx)
    (hx : ∀ k : Fin K, x (ix2 (rowOf y) k) = x' (ix2 (rowOf y') k))
    (hw : ∀ k : Fin K, w (ix2 k (colOf y)) = w' (ix2 k (colOf y'))) :
    Cert.MatProduct.prod x w y = Cert.MatProduct.prod x' w' y' :=
  Finset.sum_congr rfl fun k _ => by rw [hx k, hw k]

/-- `addRow` agrees at two entries when the entries and the bias entries they read agree. -/
theorem addRow_entry_congr {R R' N N' : ℕ} {x : (⟨2, ![R, N]⟩ : Shape).Idx → EReal} {x' : (⟨2, ![R', N']⟩ : Shape).Idx → EReal}
    {b : (⟨2, ![1, N]⟩ : Shape).Idx → EReal} {b' : (⟨2, ![1, N']⟩ : Shape).Idx → EReal}
    (y : (⟨2, ![R, N]⟩ : Shape).Idx) (y' : (⟨2, ![R', N']⟩ : Shape).Idx)
    (hx : x y = x' y') (hb : b (ix2 0 (colOf y)) = b' (ix2 0 (colOf y'))) :
    addRow x b y = addRow x' b' y' := by
  show x y + b (ix2 0 (colOf y)) = x' y' + b' (ix2 0 (colOf y'))
  rw [hx, hb]

/-- `addRowMax` agrees at two entries when the entries and the bias entries they read agree. -/
theorem addRowMax_entry_congr {R R' N N' : ℕ} {x : (⟨2, ![R, N]⟩ : Shape).Idx → EReal} {x' : (⟨2, ![R', N']⟩ : Shape).Idx → EReal}
    {b : (⟨2, ![1, N]⟩ : Shape).Idx → EReal} {b' : (⟨2, ![1, N']⟩ : Shape).Idx → EReal} (z : EReal)
    (y : (⟨2, ![R, N]⟩ : Shape).Idx) (y' : (⟨2, ![R', N']⟩ : Shape).Idx)
    (hx : x y = x' y') (hb : b (ix2 0 (colOf y)) = b' (ix2 0 (colOf y'))) :
    addRowMax x b z y = addRowMax x' b' z y' := by
  show max (x y + b (ix2 0 (colOf y))) z = max (x' y' + b' (ix2 0 (colOf y'))) z
  rw [hx, hb]

/-- A length-`N` vector regarded as one row reads, at `(0, c)`, the vector's entry `c`. -/
theorem vecRow_apply {α : Type} {N : ℕ} (b : (⟨1, ![N]⟩ : Shape).Idx → α)
    (h : (⟨1, ![N]⟩ : Shape).ShapeCasts ⟨2, ![1, N]⟩) (c : Fin N) :
    shapeCast ⟨2, ![1, N]⟩ b h (ix2 (0 : Fin 1) c) = b (ix1 c) := by
  refine shapeCast_apply b h (ix2 (0 : Fin 1) c) (ix1 c) ?_
  rw [Shape.rowMajor_val_one, Shape.rowMajor_val_two]
  show c.val = 0 * N + c.val
  omega

end Cert.RowBias

end
-- ==== Proof.Spec.lean ====
/-
  The mathematics both programs compute, as whole-array functions on the extended reals.

  A graph-convolution layer is  h ↦ A · (h · W) + b  with A the dense adjacency; the network stacks two of them
  with a rectifier in between, once on each of two feature matrices.  From the first embedding a two-layer
  decoder is taken; from the second a linear map followed by a batch normalisation over the rows (column mean,
  biased column variance), a rectifier, and three heads: a logistic head, a clipped softplus head and a clipped
  exponential head.

  Every bias enters as a ONE-ROW matrix, so that a program that holds it as a vector (read through `row`) and a
  program that holds it as a [1, n] array state the same function.
-/
import proofs.«178206_g36112085024797_cont_8to1_b_1395_2_alg».proof.Proof.LibRowBias
import Idealize.ShloMosaic.PureOps.Ideal
import Idealize.ShloMosaic.Lib.ValueIdx

noncomputable section

namespace Cert.Spec

open Idealize.ShloMosaic Idealize.ShloMosaic.ValueIdx
open Cert.MatProduct (rowOf colOf prod)
open Cert.RowBias (addRow addRowMax)

/-- An m × n matrix of extended reals. -/
abbrev Mat (m n : ℕ) : Type := (⟨2, ![m, n]⟩ : Shape).Idx → EReal
/-- A vector of n extended reals. -/
abbrev Vct (n : ℕ) : Type := (⟨1, ![n]⟩ : Shape).Idx → EReal

/-- The extended real a 32-bit float word denotes. -/
def lit (b : BitVec 32) : EReal := Ideal.ofBits .f32 b

/-- A vector as a one-row matrix. -/
def row {n : ℕ} (b : Vct n) : Mat 1 n := fun y => b (ix1 (colOf y))

/-- Columns o, …, o + w − 1 of a matrix. -/
def cols {m n : ℕ} (o w : ℕ) (h : o + w ≤ n) (x : Mat m n) : Mat m w :=
  fun y => x (ix2 (rowOf y) ⟨o + (colOf y).val, by have := (colOf y).isLt; omega⟩)

/-- Two matrices with the same rows, side by side. -/
def joinCols {m a b n : ℕ} (h : n = a + b) (x : Mat m a) (y : Mat m b) : Mat m n :=
  fun i => if hc : (colOf i).val < a then x (ix2 (rowOf i) ⟨(colOf i).val, hc⟩)
    else y (ix2 (rowOf i) ⟨(colOf i).val - a, by have := (colOf i).isLt; omega⟩)

/-! ## The two graph-convolution layers -/

/-- The hidden layer: max (A · (x · W₁) + b₁, 0). -/
def hidden (x : Mat 10000 128) (sadj : Mat 10000 10000) (W1 : Mat 128 64) (b1 : Mat 1 64) : Mat 10000 64 :=
  addRowMax (prod sadj (prod x W1)) b1 0

/-- The embedding: A · (hidden · W₂) + b₂. -/
def embed (x : Mat 10000 128) (sadj : Mat 10000 10000) (W1 : Mat 128 64) (b1 : Mat 1 64) (W2 : Mat 64 32) (b2 : Mat 1 32) :
    Mat 10000 32 :=
  addRow (prod sadj (prod (hidden x sadj W1 b1) W2)) b2

/-- The decoder: max (e · D₁ + d₁, 0) · D₂ + d₂. -/
def decode (e : Mat 10000 32) (dW1 : Mat 32 64) (db1 : Mat 1 64) (dW2 : Mat 64 128) (db2 : Mat 1 128) : Mat 10000 128 :=
  addRow (prod (addRowMax (prod e dW1) db1 0) dW2) db2

/-- The linear map in front of the normalisation: e · Z + z. -/
def zlin (e : Mat 10000 32) (zW : Mat 32 64) (zb : Mat 1 64) : Mat 10000 64 := addRow (prod e zW) zb

/-! ## The normalisation over the rows -/

/-- The mean of column c: the column's sum divided by the float word of 10000. -/
def colMean (z : Mat 10000 64) (c : Fin 64) : EReal :=
  Ideal.div (∑ r : Fin 10000, z (ix2 r c)) (lit 0x461C4000#32)

/-- The biased variance of column c. -/
def colVar (z : Mat 10000 64) (c : Fin 64) : EReal :=
  Ideal.div (∑ r : Fin 10000, (z (ix2 r c) - colMean z c) * (z (ix2 r c) - colMean z c)) (lit 0x461C4000#32)

/-- Normalise each column, scale, shift, rectify. -/
def bnRelu (z : Mat 10000 64) (g bt : Mat 1 64) : Mat 10000 64 := fun y =>
  max (Ideal.div (z y - colMean z (colOf y)) (Ideal.sqrt (colVar z (colOf y) + lit 0x3727C5AC#32)) * g (ix2 0 (colOf y))
        + bt (ix2 0 (colOf y))) 0

/-! ## The three heads -/

/-- max (t, 0) + log (1 + exp (−|t|)). -/
def softplus (t : EReal) : EReal := max t 0 + Ideal.log1p (Ideal.exp (-(max t (-t))))

def piHead (zr : Mat 10000 64) (W : Mat 64 128) (b : Mat 1 128) : Mat 10000 128 :=
  fun y => Ideal.logistic (addRow (prod zr W) b y)

def dispHead (zr : Mat 10000 64) (W : Mat 64 128) (b : Mat 1 128) : Mat 10000 128 :=
  fun y => min (lit 0x461C4000#32) (max (lit 0x38D1B717#32) (softplus (addRow (prod zr W) b y)))

def meanHead (zr : Mat 10000 64) (W : Mat 64 128) (b : Mat 1 128) : Mat 10000 128 :=
  fun y => min (lit 0x49742400#32) (max (lit 0x3727C5AC#32) (Ideal.exp (addRow (prod zr W) b y)))

/-! ## The fused passes: both networks carried side by side in one matrix -/

/-- Both first-layer supports side by side: [x · W₁ | x' · W₁]. -/
def supports (x xbi : Mat 10000 128) (W1 : Mat 128 64) : Mat 10000 128 :=
  joinCols (by norm_num) (prod x W1) (prod xbi W1)

/-- The first pass over the adjacency: max (A · s + b, 0) · w. -/
def pass1 (sadj : Mat 10000 10000) (s1 : Mat 10000 128) (b1c : Mat 1 128) (w2c : Mat 128 64) : Mat 10000 64 :=
  prod (addRowMax (prod sadj s1) b1c 0) w2c

/-- The second pass over the adjacency: A · h + b. -/
def pass2 (sadj : Mat 10000 10000) (h2 : Mat 10000 64) (b2c : Mat 1 64) : Mat 10000 64 :=
  addRow (prod sadj h2) b2c

/-! ## The six results as functions of the twenty-one arguments, in the order of the programs' parameters:
    x, x', A, W₁, b₁, W₂, b₂, D₁, d₁, D₂, d₂, Z, z, γ, β, Π, π, Δ, δ, M, μ. -/

/-- The first network's embedding. -/
def out0 (x xbi : Mat 10000 128) (sadj : Mat 10000 10000) (W1 : Mat 128 64) (b1 : Vct 64) (W2 : Mat 64 32) (b2 : Vct 32) (dW1 : Mat 32 64) (db1 : Vct 64) (dW2 : Mat 64 128) (db2 : Vct 128) (zW : Mat 32 64) (zb : Vct 64) (g bt : Vct 64) (piW : Mat 64 128) (pib : Vct 128) (dispW : Mat 64 128) (dispb : Vct 128) (meanW : Mat 64 128) (meanb : Vct 128) : Mat 10000 32 :=
  embed x sadj W1 (row b1) W2 (row b2)

/-- The second network's embedding. -/
def out1 (x xbi : Mat 10000 128) (sadj : Mat 10000 10000) (W1 : Mat 128 64) (b1 : Vct 64) (W2 : Mat 64 32) (b2 : Vct 32) (dW1 : Mat 32 64) (db1 : Vct 64) (dW2 : Mat 64 128) (db2 : Vct 128) (zW : Mat 32 64) (zb : Vct 64) (g bt : Vct 64) (piW : Mat 64 128) (pib : Vct 128) (dispW : Mat 64 128) (dispb : Vct 128) (meanW : Mat 64 128) (meanb : Vct 128) : Mat 10000 32 :=
  embed xbi sadj W1 (row b1) W2 (row b2)

/-- The decoder of the first embedding. -/
def out2 (x xbi : Mat 10000 128) (sadj : Mat 10000 10000) (W1 : Mat 128 64) (b1 : Vct 64) (W2 : Mat 64 32) (b2 : Vct 32) (dW1 : Mat 32 64) (db1 : Vct 64) (dW2 : Mat 64 128) (db2 : Vct 128) (zW : Mat 32 64) (zb : Vct 64) (g bt : Vct 64) (piW : Mat 64 128) (pib : Vct 128) (dispW : Mat 64 128) (dispb : Vct 128) (meanW : Mat 64 128) (meanb : Vct 128) : Mat 10000 128 :=
  decode (embed x sadj W1 (row b1) W2 (row b2)) dW1 (row db1) dW2 (row db2)

/-- The normalised, rectified features of the second embedding. -/
def feat (x xbi : Mat 10000 128) (sadj : Mat 10000 10000) (W1 : Mat 128 64) (b1 : Vct 64) (W2 : Mat 64 32) (b2 : Vct 32) (dW1 : Mat 32 64) (db1 : Vct 64) (dW2 : Mat 64 128) (db2 : Vct 128) (zW : Mat 32 64) (zb : Vct 64) (g bt : Vct 64) (piW : Mat 64 128) (pib : Vct 128) (dispW : Mat 64 128) (dispb : Vct 128) (meanW : Mat 64 128) (meanb : Vct 128) : Mat 10000 64 :=
  bnRelu (zlin (embed xbi sadj W1 (row b1) W2 (row b2)) zW (row zb)) (row g) (row bt)

/-- The logistic head. -/
def out3 (x xbi : Mat 10000 128) (sadj : Mat 10000 10000) (W1 : Mat 128 64) (b1 : Vct 64) (W2 : Mat 64 32) (b2 : Vct 32) (dW1 : Mat 32 64) (db1 : Vct 64) (dW2 : Mat 64 128) (db2 : Vct 128) (zW : Mat 32 64) (zb : Vct 64) (g bt : Vct 64) (piW : Mat 64 128) (pib : Vct 128) (dispW : Mat 64 128) (dispb : Vct 128) (meanW : Mat 64 128) (meanb : Vct 128) : Mat 10000 128 :=
  piHead (feat x xbi sadj W1 b1 W2 b2 dW1 db1 dW2 db2 zW zb g bt piW pib dispW dispb meanW meanb) piW (row pib)

/-- The clipped softplus head. -/
def out4 (x xbi : Mat 10000 128) (sadj : Mat 10000 10000) (W1 : Mat 128 64) (b1 : Vct 64) (W2 : Mat 64 32) (b2 : Vct 32) (dW1 : Mat 32 64) (db1 : Vct 64) (dW2 : Mat 64 128) (db2 : Vct 128) (zW : Mat 32 64) (zb : Vct 64) (g bt : Vct 64) (piW : Mat 64 128) (pib : Vct 128) (dispW : Mat 64 128) (dispb : Vct 128) (meanW : Mat 64 128) (meanb : Vct 128) : Mat 10000 128 :=
  dispHead (feat x xbi sadj W1 b1 W2 b2 dW1 db1 dW2 db2 zW zb g bt piW pib dispW dispb meanW meanb) dispW (row dispb)

/-- The clipped exponential head. -/
def out5 (x xbi : Mat 10000 128) (sadj : Mat 10000 10000) (W1 : Mat 128 64) (b1 : Vct 64) (W2 : Mat 64 32) (b2 : Vct 32) (dW1 : Mat 32 64) (db1 : Vct 64) (dW2 : Mat 64 128) (db2 : Vct 128) (zW : Mat 32 64) (zb : Vct 64) (g bt : Vct 64) (piW : Mat 64 128) (pib : Vct 128) (dispW : Mat 64 128) (dispb : Vct 128) (meanW : Mat 64 128) (meanb : Vct 128) : Mat 10000 128 :=
  meanHead (feat x xbi sadj W1 b1 W2 b2 dW1 db1 dW2 db2 zW zb g bt piW pib dispW dispb meanW meanb) meanW (row meanb)

end Cert.Spec

end
-- ==== Proof.Algebra.lean ====
/-
  How two networks carried side by side in one matrix separate again.

  A product with the adjacency on the left acts on each column by itself, so it passes through a side-by-side join;
  so do the addition of a joined bias row and the rectifier.  A product with a block-diagonal matrix on the right
  multiplies the left half by the upper block and the right half by the lower block: the sum over the joined axis
  splits into its two halves, and in each half the foreign block contributes zeros (0 · x = 0 and x + 0 = x hold for
  every extended real, so no finiteness is needed).  A matrix padded with zero rows below (above) picks the left
  (right) half alone.
-/
import proofs.«178206_g36112085024797_cont_8to1_b_1395_2_alg».proof.Proof.Spec

noncomputable section

namespace Cert.Spec

open Idealize.ShloMosaic Idealize.ShloMosaic.ValueIdx
open Cert.MatProduct (rowOf colOf prod)
open Cert.RowBias (addRow addRowMax)

@[simp] theorem rowOf_ix2 {M N : ℕ} (r : Fin M) (c : Fin N) : rowOf (ix2 r c) = r := rfl
@[simp] theorem colOf_ix2 {M N : ℕ} (r : Fin M) (c : Fin N) : colOf (ix2 r c) = c := rfl

/-- An entry of a side-by-side join in its left part. -/
theorem joinCols_left {m a b n : ℕ} (h : n = a + b) (x : Mat m a) (y : Mat m b) (r : Fin m) (j : Fin n) (hj : j.val < a) :
    joinCols h x y (ix2 r j) = x (ix2 r ⟨j.val, hj⟩) := by
  unfold joinCols
  rw [dif_pos (show (colOf (ix2 r j)).val < a from hj)]
  rfl

/-- An entry of a side-by-side join in its right part. -/
theorem joinCols_right {m a b n : ℕ} (h : n = a + b) (x : Mat m a) (y : Mat m b) (r : Fin m) (j : Fin n) (hj : ¬ j.val < a) :
    joinCols h x y (ix2 r j) = y (ix2 r ⟨j.val - a, by have := j.isLt; omega⟩) := by
  unfold joinCols
  rw [dif_neg (show ¬ (colOf (ix2 r j)).val < a from hj)]
  rfl

/-- Two matrices are equal when they agree entry by entry, the entry named by its coordinates. -/
theorem mat_ext {m n : ℕ} {x y : Mat m n} (h : ∀ (r : Fin m) (j : Fin n), x (ix2 r j) = y (ix2 r j)) : x = y := by
  funext i
  rw [eq_ix2 i]
  exact h _ _

theorem prod_apply {m k n : ℕ} (x : Mat m k) (w : Mat k n) (r : Fin m) (j : Fin n) :
    prod x w (ix2 r j) = ∑ l : Fin k, x (ix2 r l) * w (ix2 l j) := rfl

theorem addRow_apply {m n : ℕ} (x : Mat m n) (b : Mat 1 n) (r : Fin m) (j : Fin n) :
    addRow x b (ix2 r j) = x (ix2 r j) + b (ix2 0 j) := rfl

theorem addRowMax_apply {m n : ℕ} (x : Mat m n) (b : Mat 1 n) (z : EReal) (r : Fin m) (j : Fin n) :
    addRowMax x b z (ix2 r j) = max (x (ix2 r j) + b (ix2 0 j)) z := rfl

theorem cols_apply {m n : ℕ} (o w : ℕ) (h : o + w ≤ n) (x : Mat m n) (r : Fin m) (j : Fin w) :
    cols o w h x (ix2 r j) = x (ix2 r ⟨o + j.val, by have := j.isLt; omega⟩) := rfl

/-- A product with a fixed matrix on the left passes through a side-by-side join. -/
theorem prod_joinCols {m k a b n : ℕ} (h : n = a + b) (A : Mat m k) (x : Mat k a) (y : Mat k b) :
    prod A (joinCols h x y) = joinCols h (prod A x) (prod A y) := by
  refine mat_ext fun r j => ?_
  rw [prod_apply]
  by_cases hj : j.val < a
  · rw [joinCols_left h _ _ r j hj, prod_apply]
    exact Finset.sum_congr rfl fun l _ => by rw [joinCols_left h x y l j hj]
  · rw [joinCols_right h _ _ r j hj, prod_apply]
    exact Finset.sum_congr rfl fun l _ => by rw [joinCols_right h x y l j hj]

/-- Adding a joined bias row and flooring passes through the join. -/
theorem addRowMax_joinCols {m a b n : ℕ} (h : n = a + b) (x : Mat m a) (y : Mat m b) (p : Mat 1 a) (q : Mat 1 b) (z : EReal) :
    addRowMax (joinCols h x y) (joinCols h p q) z = joinCols h (addRowMax x p z) (addRowMax y q z) := by
  refine mat_ext fun r j => ?_
  rw [addRowMax_apply]
  by_cases hj : j.val < a
  · rw [joinCols_left h _ _ r j hj, joinCols_left h _ _ 0 j hj, joinCols_left h _ _ r j hj, addRowMax_apply]
  · rw [joinCols_right h _ _ r j hj, joinCols_right h _ _ 0 j hj, joinCols_right h _ _ r j hj, addRowMax_apply]

/-- Adding a joined bias row passes through the join. -/
theorem addRow_joinCols {m a b n : ℕ} (h : n = a + b) (x : Mat m a) (y : Mat m b) (p : Mat 1 a) (q : Mat 1 b) :
    addRow (joinCols h x y) (joinCols h p q) = joinCols h (addRow x p) (addRow y q) := by
  refine mat_ext fun r j => ?_
  rw [addRow_apply]
  by_cases hj : j.val < a
  · rw [joinCols_left h _ _ r j hj, joinCols_left h _ _ 0 j hj, joinCols_left h _ _ r j hj, addRow_apply]
  · rw [joinCols_right h _ _ r j hj, joinCols_right h _ _ 0 j hj, joinCols_right h _ _ r j hj, addRow_apply]

/-- The left columns of a join are its left part. -/
theorem cols_joinCols_left {m a b n : ℕ} (h : n = a + b) (x : Mat m a) (y : Mat m b) (ha : 0 + a ≤ n) :
    cols 0 a ha (joinCols h x y) = x := by
  refine mat_ext fun r j => ?_
  rw [cols_apply, joinCols_left h x y r _ (show 0 + j.val < a by have := j.isLt; omega)]
  exact congrArg x (congrArg (ix2 r) (Fin.ext (show 0 + j.val = j.val by omega)))

/-- The right columns of a join are its right part. -/
theorem cols_joinCols_right {m a b n : ℕ} (h : n = a + b) (x : Mat m a) (y : Mat m b) (hb : a + b ≤ n) :
    cols a b hb (joinCols h x y) = y := by
  refine mat_ext fun r j => ?_
  rw [cols_apply, joinCols_right h x y r _ (show ¬ a + j.val < a by omega)]
  exact congrArg y (congrArg (ix2 r) (Fin.ext (show a + j.val - a = j.val by omega)))

/-- A sum over a + b terms is the sum of the first a and the sum of the last b. -/
theorem sum_halves {a b n : ℕ} (h : n = a + b) (f : Fin n → EReal) :
    ∑ l : Fin n, f l = ∑ l : Fin a, f ⟨l.val, by have := l.isLt; omega⟩ + ∑ l : Fin b, f ⟨a + l.val, by have := l.isLt; omega⟩ := by
  subst h
  rw [Fin.sum_univ_add]
  rfl

/-- A product with a block-diagonal matrix on the right multiplies each half by its own block. -/
theorem prod_joinCols_blockDiag {m a b n a' b' n' : ℕ} (h : n = a + b) (h' : n' = a' + b') (x : Mat m a) (y : Mat m b)
    (U : Mat a a') (U' : Mat b b') (W : Mat n n')
    (hUL : ∀ (l : Fin n) (j : Fin n') (hl : l.val < a) (hj : j.val < a'), W (ix2 l j) = U (ix2 ⟨l.val, hl⟩ ⟨j.val, hj⟩))
    (hUR : ∀ (l : Fin n) (j : Fin n') (hl : l.val < a) (hj : ¬ j.val < a'), W (ix2 l j) = 0)
    (hLL : ∀ (l : Fin n) (j : Fin n') (hl : ¬ l.val < a) (hj : j.val < a'), W (ix2 l j) = 0)
    (hLR : ∀ (l : Fin n) (j : Fin n') (hl : ¬ l.val < a) (hj : ¬ j.val < a'),
      W (ix2 l j) = U' (ix2 ⟨l.val - a, by have := l.isLt; omega⟩ ⟨j.val - a', by have := j.isLt; omega⟩)) :
    prod (joinCols h x y) W = joinCols h' (prod x U) (prod y U') := by
  refine mat_ext fun r j => ?_
  rw [prod_apply, sum_halves h]
  by_cases hj : j.val < a'
  · rw [joinCols_left h' _ _ r j hj, prod_apply]
    have e1 : ∀ l : Fin a, joinCols h x y (ix2 r ⟨l.val, by have := l.isLt; omega⟩) * W (ix2 ⟨l.val, by have := l.isLt; omega⟩ j)
        = x (ix2 r l) * U (ix2 l ⟨j.val, hj⟩) := fun l => by
      rw [joinCols_left h x y r _ l.isLt, hUL _ j l.isLt hj]
    have e2 : ∀ l : Fin b, joinCols h x y (ix2 r ⟨a + l.val, by have := l.isLt; omega⟩) * W (ix2 ⟨a + l.val, by have := l.isLt; omega⟩ j)
        = 0 := fun l => by
      rw [hLL _ j (show ¬ a + l.val < a by omega) hj, mul_zero]
    rw [Finset.sum_congr rfl fun l _ => e1 l, Finset.sum_congr rfl fun l _ => e2 l, Finset.sum_const_zero, add_zero]
  · rw [joinCols_right h' _ _ r j hj, prod_apply]
    have e1 : ∀ l : Fin a, joinCols h x y (ix2 r ⟨l.val, by have := l.isLt; omega⟩) * W (ix2 ⟨l.val, by have := l.isLt; omega⟩ j)
        = 0 := fun l => by
      rw [hUR _ j l.isLt hj, mul_zero]
    have e2 : ∀ l : Fin b, joinCols h x y (ix2 r ⟨a + l.val, by have := l.isLt; omega⟩) * W (ix2 ⟨a + l.val, by have := l.isLt; omega⟩ j)
        = y (ix2 r l) * U' (ix2 l ⟨j.val - a', by have := j.isLt; omega⟩) := fun l => by
      rw [joinCols_right h x y r _ (show ¬ a + l.val < a by omega), hLR _ j (show ¬ a + l.val < a by omega) hj]
      have el : (⟨a + l.val - a, by have := l.isLt; omega⟩ : Fin b) = l := Fin.ext (show a + l.val - a = l.val by omega)
      exact congrArg₂ (· * ·) (congrArg y (congrArg (ix2 r) el)) (congrArg U' (congrArg (fun q => ix2 q _) el))
    rw [Finset.sum_congr rfl fun l _ => e1 l, Finset.sum_congr rfl fun l _ => e2 l, Finset.sum_const_zero, zero_add]

/-- A product with a matrix whose lower rows are zero sees the left half alone. -/
theorem prod_joinCols_upper {m a b n k : ℕ} (h : n = a + b) (x : Mat m a) (y : Mat m b) (U : Mat a k) (W : Mat n k)
    (hU : ∀ (l : Fin n) (j : Fin k) (hl : l.val < a), W (ix2 l j) = U (ix2 ⟨l.val, hl⟩ j))
    (hL : ∀ (l : Fin n) (j : Fin k) (hl : ¬ l.val < a), W (ix2 l j) = 0) :
    prod (joinCols h x y) W = prod x U := by
  refine mat_ext fun r j => ?_
  rw [prod_apply, sum_halves h, prod_apply]
  have e1 : ∀ l : Fin a, joinCols h x y (ix2 r ⟨l.val, by have := l.isLt; omega⟩) * W (ix2 ⟨l.val, by have := l.isLt; omega⟩ j)
      = x (ix2 r l) * U (ix2 l j) := fun l => by
    rw [joinCols_left h x y r _ l.isLt, hU _ j l.isLt]
  have e2 : ∀ l : Fin b, joinCols h x y (ix2 r ⟨a + l.val, by have := l.isLt; omega⟩) * W (ix2 ⟨a + l.val, by have := l.isLt; omega⟩ j)
      = 0 := fun l => by
    rw [hL _ j (show ¬ a + l.val < a by omega), mul_zero]
  rw [Finset.sum_congr rfl fun l _ => e1 l, Finset.sum_congr rfl fun l _ => e2 l, Finset.sum_const_zero, add_zero]

/-- A product with a matrix whose upper rows are zero sees the right half alone. -/
theorem prod_joinCols_lower {m a b n k : ℕ} (h : n = a + b) (x : Mat m a) (y : Mat m b) (U' : Mat b k) (W : Mat n k)
    (hU : ∀ (l : Fin n) (j : Fin k) (hl : l.val < a), W (ix2 l j) = 0)
    (hL : ∀ (l : Fin n) (j : Fin k) (hl : ¬ l.val < a), W (ix2 l j) = U' (ix2 ⟨l.val - a, by have := l.isLt; omega⟩ j)) :
    prod (joinCols h x y) W = prod y U' := by
  refine mat_ext fun r j => ?_
  rw [prod_apply, sum_halves h, prod_apply]
  have e1 : ∀ l : Fin a, joinCols h x y (ix2 r ⟨l.val, by have := l.isLt; omega⟩) * W (ix2 ⟨l.val, by have := l.isLt; omega⟩ j)
      = 0 := fun l => by
    rw [hU _ j l.isLt, mul_zero]
  have e2 : ∀ l : Fin b, joinCols h x y (ix2 r ⟨a + l.val, by have := l.isLt; omega⟩) * W (ix2 ⟨a + l.val, by have := l.isLt; omega⟩ j)
      = y (ix2 r l) * U' (ix2 l j) := fun l => by
    rw [joinCols_right h x y r _ (show ¬ a + l.val < a by omega), hL _ j (show ¬ a + l.val < a by omega)]
    have el : (⟨a + l.val - a, by have := l.isLt; omega⟩ : Fin b) = l := Fin.ext (show a + l.val - a = l.val by omega)
    exact congrArg₂ (· * ·) (congrArg y (congrArg (ix2 r) el)) (congrArg U' (congrArg (fun q => ix2 q j) el))
  rw [Finset.sum_congr rfl fun l _ => e1 l, Finset.sum_congr rfl fun l _ => e2 l, Finset.sum_const_zero, zero_add]

end Cert.Spec

end
-- ==== Proof.LibJoins.lean ====
/-
  A few layout operations read at an index, for any extents.

  A vector regarded as a column (`[a]` to `[a, 1]`); two matrices put side by side (`[m, n1]` and `[m, n2]` joined
  along the columns): a column below `n1` comes from the first, a column at or past it from the second; two
  vectors joined end to end, the same way.
-/
import Idealize.ShloMosaic.Lib.ValueIdx
import Idealize.ShloMosaic.Lib.ValueLayout
import Idealize.ShloMosaic.Lib.Pipeline.Value

noncomputable section

namespace Cert.Joins

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Two matrices side by side: a column of the first. -/
theorem join_cols_left {m n1 n2 : ℕ} (x1 : (⟨2, ![m, n1]⟩ : Shape).Idx → α) (x2 : (⟨2, ![m, n2]⟩ : Shape).Idx → α)
    (h : Shape.Concatenates [⟨2, ![m, n1]⟩, ⟨2, ![m, n2]⟩] ⟨2, ![m, n1 + n2]⟩ 1)
    (r : Fin m) (q : Fin (n1 + n2)) (c : Fin n1) (hc : c.val = q.val) :
    concatenate ⟨2, ![m, n1 + n2]⟩ 1 [⟨⟨2, ![m, n1]⟩, x1⟩, ⟨⟨2, ![m, n2]⟩, x2⟩] h (ix2 r q) = x1 (ix2 r c) :=
  concatenate_pair_apply_left 1 x1 x2 h (ix2 r q) rfl (ix2 r c) (fun b => by
    match b with
    | ⟨0, _⟩ => rfl
    | ⟨1, _⟩ => exact hc)

/-- Two matrices side by side: a column of the second. -/
theorem join_cols_right {m n1 n2 : ℕ} (x1 : (⟨2, ![m, n1]⟩ : Shape).Idx → α) (x2 : (⟨2, ![m, n2]⟩ : Shape).Idx → α)
    (h : Shape.Concatenates [⟨2, ![m, n1]⟩, ⟨2, ![m, n2]⟩] ⟨2, ![m, n1 + n2]⟩ 1)
    (r : Fin m) (q : Fin (n1 + n2)) (c : Fin n2) (hc : c.val + n1 = q.val) :
    concatenate ⟨2, ![m, n1 + n2]⟩ 1 [⟨⟨2, ![m, n1]⟩, x1⟩, ⟨⟨2, ![m, n2]⟩, x2⟩] h (ix2 r q) = x2 (ix2 r c) :=
  concatenate_pair_apply_right 1 x1 x2 h (ix2 r q) rfl rfl (ix2 r c) (fun b hb => by
    match b with
    | ⟨0, _⟩ => rfl
    | ⟨1, _⟩ => exact absurd rfl hb) hc

/-- Two vectors end to end: an entry of the first. -/
theorem join_vec_left {n1 n2 : ℕ} (x1 : (⟨1, ![n1]⟩ : Shape).Idx → α) (x2 : (⟨1, ![n2]⟩ : Shape).Idx → α)
    (h : Shape.Concatenates [⟨1, ![n1]⟩, ⟨1, ![n2]⟩] ⟨1, ![n1 + n2]⟩ 0)
    (q : Fin (n1 + n2)) (c : Fin n1) (hc : c.val = q.val) :
    concatenate ⟨1, ![n1 + n2]⟩ 0 [⟨⟨1, ![n1]⟩, x1⟩, ⟨⟨1, ![n2]⟩, x2⟩] h (ix1 q) = x1 (ix1 c) :=
  concatenate_pair_apply_left 0 x1 x2 h (ix1 q) rfl (ix1 c) (fun b => by
    match b with
    | ⟨0, _⟩ => exact hc)

/-- Two vectors end to end: an entry of the second. -/
theorem join_vec_right {n1 n2 : ℕ} (x1 : (⟨1, ![n1]⟩ : Shape).Idx → α) (x2 : (⟨1, ![n2]⟩ : Shape).Idx → α)
    (h : Shape.Concatenates [⟨1, ![n1]⟩, ⟨1, ![n2]⟩] ⟨1, ![n1 + n2]⟩ 0)
    (q : Fin (n1 + n2)) (c : Fin n2) (hc : c.val + n1 = q.val) :
    concatenate ⟨1, ![n1 + n2]⟩ 0 [⟨⟨1, ![n1]⟩, x1⟩, ⟨⟨1, ![n2]⟩, x2⟩] h (ix1 q) = x2 (ix1 c) :=
  concatenate_pair_apply_right 0 x1 x2 h (ix1 q) rfl rfl (ix1 c) (fun b hb => by
    match b with
    | ⟨0, _⟩ => exact absurd rfl hb) hc

end Cert.Joins

end
-- ==== Proof.LibScatterBlock.lean ====
/-
  One block written into a matrix at a start given by two numbers, read at an index.

  What `x.at[o0 : o0 + m, o1 : o1 + n].set(u)` lowers to for a matrix `[M, N]`, a block `[m, n]` and the start held as a
  `[2]` array: a scatter with ONE scatter index, both update axes window axes, nothing inserted, the start's two
  components the two axes, and a body that returns the update. Update entry `(a, b)` lands at `(o0 + a, o1 + b)` when
  that is inside the matrix. Distinct update entries land at distinct places, so the order of the writes does not matter:
  entry `(r, c)` of the result is the block's entry `(r − o0, c − o1)` when `(r, c)` is in the block's range and the
  matrix's own entry otherwise.

  First two facts about any scatter whose body returns the update (a write): an element that no update lands at keeps
  its value, and an element at which updates land, all of one value, has that value.
-/
import Idealize.ShloMosaic.Lib.ValueIdx

noncomputable section

namespace Cert.LibScatterBlock

open Idealize.ShloMosaic Idealize.ShloMosaic.ValueIdx

variable {α : Type}

section Write
variable {s si u : Shape} {w : Nat}

/-- A writing scatter leaves alone an element no update lands at. -/
theorem scatter_write_of_miss (d : ScatterDims s si u) (x : s.Idx → α) (idx : IVec si w) (upd : u.Idx → α) (i : s.Idx)
    (hmiss : ∀ j, d.resultIdx? j idx ≠ some i) :
    Host.scatter d (fun _ b => b) x idx upd i = x i := by
  unfold Host.scatter
  generalize List.finRange u.numel = L
  induction L using List.reverseRecOn with
  | nil => rfl
  | append_singleton L a ih =>
    rw [List.foldl_append, List.foldl_cons, List.foldl_nil]
    rcases hg : d.resultIdx? (u.rowMajor.symm a) idx with _ | i'
    · exact ih
    · have hne : i ≠ i' := fun h => hmiss _ (hg.trans (congrArg some h.symm))
      show (if i = i' then _ else _) = _
      rw [if_neg hne]
      exact ih

/-- A writing scatter puts at an element the value of the updates that land there, when they all have one value. -/
theorem scatter_write_of_hit (d : ScatterDims s si u) (x : s.Idx → α) (idx : IVec si w) (upd : u.Idx → α) (i : s.Idx)
    (j0 : u.Idx) (h0 : d.resultIdx? j0 idx = some i) (hsame : ∀ j, d.resultIdx? j idx = some i → upd j = upd j0) :
    Host.scatter d (fun _ b => b) x idx upd i = upd j0 := by
  unfold Host.scatter
  have hmem : u.rowMajor j0 ∈ List.finRange u.numel := List.mem_finRange _
  generalize List.finRange u.numel = L at hmem
  induction L using List.reverseRecOn with
  | nil => exact absurd hmem List.not_mem_nil
  | append_singleton L a ih =>
    rw [List.foldl_append, List.foldl_cons, List.foldl_nil]
    have hin : u.rowMajor j0 ∈ L ∨ u.rowMajor j0 = a := by
      rcases List.mem_append.mp hmem with h | h
      · exact Or.inl h
      · exact Or.inr (List.mem_singleton.mp h)
    rcases hg : d.resultIdx? (u.rowMajor.symm a) idx with _ | i'
    · rcases hin with h | h
      · exact ih h
      · rw [← h, Equiv.symm_apply_apply, h0] at hg
        cases hg
    · show (if i = i' then _ else _) = _
      by_cases hii : i = i'
      · rw [if_pos hii]
        exact hsame _ (hg.trans (congrArg some hii.symm))
      · rw [if_neg hii]
        rcases hin with h | h
        · exact ih h
        · rw [← h, Equiv.symm_apply_apply, h0] at hg
          exact absurd (Option.some.inj hg) hii

end Write

/-- The dimension numbers of the block write; their conditions are decided on a program's literal shapes. -/
abbrev blockDims (M N m n : Nat) (wf : ScatterDims.WF ⟨2, ![M, N]⟩ ⟨1, ![2]⟩ ⟨2, ![m, n]⟩ [0, 1] [] [0, 1] 0) :
    ScatterDims ⟨2, ![M, N]⟩ ⟨1, ![2]⟩ ⟨2, ![m, n]⟩ where
  updateWindowDims := [0, 1]
  insertedWindowDims := []
  scatterDimsToOperandDims := [0, 1]
  indexVectorDim := 0
  wf := wf

section Block
variable {M N m n w : Nat} (wf : ScatterDims.WF ⟨2, ![M, N]⟩ ⟨1, ![2]⟩ ⟨2, ![m, n]⟩ [0, 1] [] [0, 1] 0)

/-- On the row axis the window starts at the start's first component, read signed. -/
theorem start_row (j : (⟨2, ![m, n]⟩ : Shape).Idx) (idx : IVec ⟨1, ![2]⟩ w) :
    (blockDims M N m n wf).start j idx 0 = (idx (ix1 (0 : Fin 2))).toInt := by
  unfold ScatterDims.start
  rw [dif_pos (show (0 : Fin 2) ∈ (blockDims M N m n wf).scatterDimsToOperandDims from List.mem_cons_self)]
  have hsi : (blockDims M N m n wf).siIdx j ⟨List.idxOf (0 : Fin 2) (blockDims M N m n wf).scatterDimsToOperandDims,
      List.idxOf_lt_length_iff.2 List.mem_cons_self⟩ = ix1 (0 : Fin 2) := by
    funext b; refine Fin.ext ?_
    match b with
    | ⟨0, _⟩ => rfl
  rw [hsi]

/-- On the column axis the window starts at the start's second component, read signed. -/
theorem start_col (j : (⟨2, ![m, n]⟩ : Shape).Idx) (idx : IVec ⟨1, ![2]⟩ w) :
    (blockDims M N m n wf).start j idx 1 = (idx (ix1 (1 : Fin 2))).toInt := by
  have hmem : (1 : Fin 2) ∈ (blockDims M N m n wf).scatterDimsToOperandDims :=
    List.mem_cons_of_mem _ (List.mem_singleton.mpr rfl)
  unfold ScatterDims.start
  rw [dif_pos hmem]
  have hsi : (blockDims M N m n wf).siIdx j ⟨List.idxOf (1 : Fin 2) (blockDims M N m n wf).scatterDimsToOperandDims,
      List.idxOf_lt_length_iff.2 hmem⟩ = ix1 (1 : Fin 2) := by
    funext b; refine Fin.ext ?_
    match b with
    | ⟨0, _⟩ => rfl
  rw [hsi]

/-- The row axis is a window axis: its window coordinate is the update's row. -/
theorem window_row (j : (⟨2, ![m, n]⟩ : Shape).Idx) : (blockDims M N m n wf).window j 0 = (j 0).val := by
  unfold ScatterDims.window
  rw [dif_pos (show (0 : Fin 2) ∈ (blockDims M N m n wf).sKept from by simp [ScatterDims.sKept, Shape.kept])]
  rfl

/-- The column axis is a window axis: its window coordinate is the update's column. -/
theorem window_col (j : (⟨2, ![m, n]⟩ : Shape).Idx) : (blockDims M N m n wf).window j 1 = (j 1).val := by
  unfold ScatterDims.window
  rw [dif_pos (show (1 : Fin 2) ∈ (blockDims M N m n wf).sKept from by simp [ScatterDims.sKept, Shape.kept])]
  rfl

/-- Where an update lands, for a start `(o0, o1)` of natural numbers: update index `j` lands at `(r, c)` exactly when
    `o0 + j 0 = r` and `o1 + j 1 = c`. -/
theorem resultIdx?_eq_some_iff (idx : IVec ⟨1, ![2]⟩ w) (o0 o1 : Nat)
    (h0 : (idx (ix1 (0 : Fin 2))).toInt = (o0 : Int)) (h1 : (idx (ix1 (1 : Fin 2))).toInt = (o1 : Int))
    (j : (⟨2, ![m, n]⟩ : Shape).Idx) (r : Fin M) (c : Fin N) :
    (blockDims M N m n wf).resultIdx? j idx = some (ix2 r c)
      ↔ o0 + (j 0).val = r.val ∧ o1 + (j 1).val = c.val := by
  have s0 := (start_row wf j idx).trans h0
  have s1 := (start_col wf j idx).trans h1
  have w0 := window_row wf j
  have w1 := window_col wf j
  have hr : r.val < M := r.isLt
  have hc : c.val < N := c.isLt
  unfold ScatterDims.resultIdx?
  by_cases hall : ∀ a, 0 ≤ (blockDims M N m n wf).start j idx a + (blockDims M N m n wf).window j a
      ∧ (blockDims M N m n wf).start j idx a + (blockDims M N m n wf).window j a < (⟨2, ![M, N]⟩ : Shape).size a
  · rw [dif_pos hall]
    constructor
    · intro h
      have h' := Option.some.inj h
      have e0 : ((blockDims M N m n wf).start j idx 0 + (blockDims M N m n wf).window j 0).toNat = r.val :=
        congrArg Fin.val (congrFun h' 0)
      have e1 : ((blockDims M N m n wf).start j idx 1 + (blockDims M N m n wf).window j 1).toNat = c.val :=
        congrArg Fin.val (congrFun h' 1)
      rw [s0, w0] at e0
      rw [s1, w1] at e1
      exact ⟨by omega, by omega⟩
    · rintro ⟨hs, hk⟩
      refine congrArg some (funext fun a => Fin.ext ?_)
      match a with
      | ⟨0, _⟩ =>
        show ((blockDims M N m n wf).start j idx 0 + (blockDims M N m n wf).window j 0).toNat = r.val
        rw [s0, w0]; omega
      | ⟨1, _⟩ =>
        show ((blockDims M N m n wf).start j idx 1 + (blockDims M N m n wf).window j 1).toNat = c.val
        rw [s1, w1]; omega
  · rw [dif_neg hall]
    constructor
    · intro h; cases h
    · rintro ⟨hs, hk⟩
      refine absurd (fun a => ?_) hall
      match a with
      | ⟨0, _⟩ =>
        show 0 ≤ (blockDims M N m n wf).start j idx 0 + (blockDims M N m n wf).window j 0
          ∧ (blockDims M N m n wf).start j idx 0 + (blockDims M N m n wf).window j 0 < (M : Int)
        rw [s0, w0]; omega
      | ⟨1, _⟩ =>
        show 0 ≤ (blockDims M N m n wf).start j idx 1 + (blockDims M N m n wf).window j 1
          ∧ (blockDims M N m n wf).start j idx 1 + (blockDims M N m n wf).window j 1 < (N : Int)
        rw [s1, w1]; omega

/-- THE BLOCK WRITE READ INSIDE THE BLOCK'S RANGE: the block's entry `(r − o0, c − o1)`. -/
theorem scatter_block_inside (x : (⟨2, ![M, N]⟩ : Shape).Idx → α) (idx : IVec ⟨1, ![2]⟩ w)
    (upd : (⟨2, ![m, n]⟩ : Shape).Idx → α) (o0 o1 : Nat)
    (h0 : (idx (ix1 (0 : Fin 2))).toInt = (o0 : Int)) (h1 : (idx (ix1 (1 : Fin 2))).toInt = (o1 : Int))
    (r : Fin M) (c : Fin N) (h : o0 ≤ r.val ∧ r.val < o0 + m ∧ o1 ≤ c.val ∧ c.val < o1 + n) :
    Host.scatter (blockDims M N m n wf) (fun _ b => b) x idx upd (ix2 r c)
      = upd (ix2 ⟨r.val - o0, by omega⟩ ⟨c.val - o1, by omega⟩) := by
  refine scatter_write_of_hit _ x idx upd (ix2 r c) (ix2 ⟨r.val - o0, by omega⟩ ⟨c.val - o1, by omega⟩) ?_ ?_
  · refine (resultIdx?_eq_some_iff wf idx o0 o1 h0 h1 _ r c).mpr ⟨?_, ?_⟩
    · show o0 + (r.val - o0) = r.val
      omega
    · show o1 + (c.val - o1) = c.val
      omega
  · intro j hj
    obtain ⟨e0, e1⟩ := (resultIdx?_eq_some_iff wf idx o0 o1 h0 h1 j r c).mp hj
    refine congrArg upd ?_
    rw [eq_ix2 j]
    have a0 : j 0 = (⟨r.val - o0, by omega⟩ : Fin m) := Fin.ext (by show (j 0).val = r.val - o0; omega)
    have a1 : j 1 = (⟨c.val - o1, by omega⟩ : Fin n) := Fin.ext (by show (j 1).val = c.val - o1; omega)
    rw [a0, a1]
    rfl

/-- THE BLOCK WRITE READ OUTSIDE THE BLOCK'S RANGE: the matrix's own entry. -/
theorem scatter_block_outside (x : (⟨2, ![M, N]⟩ : Shape).Idx → α) (idx : IVec ⟨1, ![2]⟩ w)
    (upd : (⟨2, ![m, n]⟩ : Shape).Idx → α) (o0 o1 : Nat)
    (h0 : (idx (ix1 (0 : Fin 2))).toInt = (o0 : Int)) (h1 : (idx (ix1 (1 : Fin 2))).toInt = (o1 : Int))
    (r : Fin M) (c : Fin N) (h : ¬ (o0 ≤ r.val ∧ r.val < o0 + m ∧ o1 ≤ c.val ∧ c.val < o1 + n)) :
    Host.scatter (blockDims M N m n wf) (fun _ b => b) x idx upd (ix2 r c) = x (ix2 r c) := by
  refine scatter_write_of_miss _ x idx upd (ix2 r c) fun j hj => h ?_
  obtain ⟨e0, e1⟩ := (resultIdx?_eq_some_iff wf idx o0 o1 h0 h1 j r c).mp hj
  have b0 : (j 0).val < m := idx2_lt0 j
  have b1 : (j 1).val < n := idx2_lt1 j
  omega

/-- THE BLOCK WRITE READ AT `(r, c)`: the block's entry `(r − o0, c − o1)` in the block's range, the matrix's own entry
    outside it. -/
theorem scatter_block_apply (x : (⟨2, ![M, N]⟩ : Shape).Idx → α) (idx : IVec ⟨1, ![2]⟩ w)
    (upd : (⟨2, ![m, n]⟩ : Shape).Idx → α) (o0 o1 : Nat)
    (h0 : (idx (ix1 (0 : Fin 2))).toInt = (o0 : Int)) (h1 : (idx (ix1 (1 : Fin 2))).toInt = (o1 : Int))
    (r : Fin M) (c : Fin N) :
    Host.scatter (blockDims M N m n wf) (fun _ b => b) x idx upd (ix2 r c)
      = if h : o0 ≤ r.val ∧ r.val < o0 + m ∧ o1 ≤ c.val ∧ c.val < o1 + n then
          upd (ix2 ⟨r.val - o0, by omega⟩ ⟨c.val - o1, by omega⟩)
        else x (ix2 r c) := by
  by_cases h : o0 ≤ r.val ∧ r.val < o0 + m ∧ o1 ≤ c.val ∧ c.val < o1 + n
  · rw [dif_pos h]
    exact scatter_block_inside wf x idx upd o0 o1 h0 h1 r c h
  · rw [dif_neg h]
    exact scatter_block_outside wf x idx upd o0 o1 h0 h1 r c h

end Block

end Cert.LibScatterBlock

end
-- ==== Proof.LibScatterRowBlock.lean ====
/-
  One block of whole-width or narrower rows written into a matrix at a start ROW given by one number, read at an index.

  What `x.at[o0 : o0 + m, :].set(u)` lowers to for a matrix `[M, N]`, a block `[m, n]` and the start held as a `[1]`
  array: a scatter with ONE scatter index whose single component is the row axis' start, both update axes window axes,
  nothing inserted, and a body that returns the update; the column axis has no start component, so its window starts
  at column zero.  Update entry `(a, b)` lands at `(o0 + a, b)` when that is inside the matrix; entry `(r, c)` of the
  result is the block's entry `(r − o0, c)` in the block's range and the matrix's own entry otherwise.
  (Stated with a column start `o1` that is required to be zero, so that the two-component form's arithmetic carries over.)
-/
import proofs.«178206_g36112085024797_cont_8to1_b_1395_2_alg».proof.Proof.LibScatterBlock

noncomputable section

namespace Cert.LibScatterRowBlock

open Idealize.ShloMosaic Idealize.ShloMosaic.ValueIdx
open Cert.LibScatterBlock (scatter_write_of_miss scatter_write_of_hit)

variable {α : Type}

/-- The dimension numbers of the block write; their conditions are decided on a program's literal shapes. -/
abbrev rowBlockDims (M N m n : Nat) (wf : ScatterDims.WF ⟨2, ![M, N]⟩ ⟨1, ![1]⟩ ⟨2, ![m, n]⟩ [0, 1] [] [0] 0) :
    ScatterDims ⟨2, ![M, N]⟩ ⟨1, ![1]⟩ ⟨2, ![m, n]⟩ where
  updateWindowDims := [0, 1]
  insertedWindowDims := []
  scatterDimsToOperandDims := [0]
  indexVectorDim := 0
  wf := wf

section Block
variable {M N m n w : Nat} (wf : ScatterDims.WF ⟨2, ![M, N]⟩ ⟨1, ![1]⟩ ⟨2, ![m, n]⟩ [0, 1] [] [0] 0)

/-- On the row axis the window starts at the start's first component, read signed. -/
theorem start_row (j : (⟨2, ![m, n]⟩ : Shape).Idx) (idx : IVec ⟨1, ![1]⟩ w) :
    (rowBlockDims M N m n wf).start j idx 0 = (idx (ix1 (0 : Fin 1))).toInt := by
  unfold ScatterDims.start
  rw [dif_pos (show (0 : Fin 2) ∈ (rowBlockDims M N m n wf).scatterDimsToOperandDims from List.mem_cons_self)]
  have hsi : (rowBlockDims M N m n wf).siIdx j ⟨List.idxOf (0 : Fin 2) (rowBlockDims M N m n wf).scatterDimsToOperandDims,
      List.idxOf_lt_length_iff.2 List.mem_cons_self⟩ = ix1 (0 : Fin 1) := by
    funext b; refine Fin.ext ?_
    match b with
    | ⟨0, _⟩ => rfl
  rw [hsi]

/-- On the column axis the window starts at zero: the start has no component for it. -/
theorem start_col (j : (⟨2, ![m, n]⟩ : Shape).Idx) (idx : IVec ⟨1, ![1]⟩ w) :
    (rowBlockDims M N m n wf).start j idx 1 = 0 := by
  unfold ScatterDims.start
  rw [dif_neg (show ¬ (1 : Fin 2) ∈ (rowBlockDims M N m n wf).scatterDimsToOperandDims from fun h => absurd (List.mem_singleton.mp h) (show (1 : Fin 2) ≠ 0 by decide))]

/-- The row axis is a window axis: its window coordinate is the update's row. -/
theorem window_row (j : (⟨2, ![m, n]⟩ : Shape).Idx) : (rowBlockDims M N m n wf).window j 0 = (j 0).val := by
  unfold ScatterDims.window
  rw [dif_pos (show (0 : Fin 2) ∈ (rowBlockDims M N m n wf).sKept from by simp [ScatterDims.sKept, Shape.kept])]
  rfl

/-- The column axis is a window axis: its window coordinate is the update's column. -/
theorem window_col (j : (⟨2, ![m, n]⟩ : Shape).Idx) : (rowBlockDims M N m n wf).window j 1 = (j 1).val := by
  unfold ScatterDims.window
  rw [dif_pos (show (1 : Fin 2) ∈ (rowBlockDims M N m n wf).sKept from by simp [ScatterDims.sKept, Shape.kept])]
  rfl

/-- Where an update lands, for a start `(o0, o1)` of natural numbers: update index `j` lands at `(r, c)` exactly when
    `o0 + j 0 = r` and `o1 + j 1 = c`. -/
theorem resultIdx?_eq_some_iff (idx : IVec ⟨1, ![1]⟩ w) (o0 o1 : Nat)
    (h0 : (idx (ix1 (0 : Fin 1))).toInt = (o0 : Int)) (h1 : (0 : Int) = (o1 : Int))
    (j : (⟨2, ![m, n]⟩ : Shape).Idx) (r : Fin M) (c : Fin N) :
    (rowBlockDims M N m n wf).resultIdx? j idx = some (ix2 r c)
      ↔ o0 + (j 0).val = r.val ∧ o1 + (j 1).val = c.val := by
  have s0 := (start_row wf j idx).trans h0
  have s1 := (start_col wf j idx).trans h1
  have w0 := window_row wf j
  have w1 := window_col wf j
  have hr : r.val < M := r.isLt
  have hc : c.val < N := c.isLt
  unfold ScatterDims.resultIdx?
  by_cases hall : ∀ a, 0 ≤ (rowBlockDims M N m n wf).start j idx a + (rowBlockDims M N m n wf).window j a
      ∧ (rowBlockDims M N m n wf).start j idx a + (rowBlockDims M N m n wf).window j a < (⟨2, ![M, N]⟩ : Shape).size a
  · rw [dif_pos hall]
    constructor
    · intro h
      have h' := Option.some.inj h
      have e0 : ((rowBlockDims M N m n wf).start j idx 0 + (rowBlockDims M N m n wf).window j 0).toNat = r.val :=
        congrArg Fin.val (congrFun h' 0)
      have e1 : ((rowBlockDims M N m n wf).start j idx 1 + (rowBlockDims M N m n wf).window j 1).toNat = c.val :=
        congrArg Fin.val (congrFun h' 1)
      rw [s0, w0] at e0
      rw [s1, w1] at e1
      exact ⟨by omega, by omega⟩
    · rintro ⟨hs, hk⟩
      refine congrArg some (funext fun a => Fin.ext ?_)
      match a with
      | ⟨0, _⟩ =>
        show ((rowBlockDims M N m n wf).start j idx 0 + (rowBlockDims M N m n wf).window j 0).toNat = r.val
        rw [s0, w0]; omega
      | ⟨1, _⟩ =>
        show ((rowBlockDims M N m n wf).start j idx 1 + (rowBlockDims M N m n wf).window j 1).toNat = c.val
        rw [s1, w1]; omega
  · rw [dif_neg hall]
    constructor
    · intro h; cases h
    · rintro ⟨hs, hk⟩
      refine absurd (fun a => ?_) hall
      match a with
      | ⟨0, _⟩ =>
        show 0 ≤ (rowBlockDims M N m n wf).start j idx 0 + (rowBlockDims M N m n wf).window j 0
          ∧ (rowBlockDims M N m n wf).start j idx 0 + (rowBlockDims M N m n wf).window j 0 < (M : Int)
        rw [s0, w0]; omega
      | ⟨1, _⟩ =>
        show 0 ≤ (rowBlockDims M N m n wf).start j idx 1 + (rowBlockDims M N m n wf).window j 1
          ∧ (rowBlockDims M N m n wf).start j idx 1 + (rowBlockDims M N m n wf).window j 1 < (N : Int)
        rw [s1, w1]; omega

/-- THE BLOCK WRITE READ INSIDE THE BLOCK'S RANGE: the block's entry `(r − o0, c − o1)`. -/
theorem scatter_rowBlock_inside (x : (⟨2, ![M, N]⟩ : Shape).Idx → α) (idx : IVec ⟨1, ![1]⟩ w)
    (upd : (⟨2, ![m, n]⟩ : Shape).Idx → α) (o0 o1 : Nat)
    (h0 : (idx (ix1 (0 : Fin 1))).toInt = (o0 : Int)) (h1 : (0 : Int) = (o1 : Int))
    (r : Fin M) (c : Fin N) (h : o0 ≤ r.val ∧ r.val < o0 + m ∧ o1 ≤ c.val ∧ c.val < o1 + n) :
    Host.scatter (rowBlockDims M N m n wf) (fun _ b => b) x idx upd (ix2 r c)
      = upd (ix2 ⟨r.val - o0, by omega⟩ ⟨c.val - o1, by omega⟩) := by
  refine scatter_write_of_hit _ x idx upd (ix2 r c) (ix2 ⟨r.val - o0, by omega⟩ ⟨c.val - o1, by omega⟩) ?_ ?_
  · refine (resultIdx?_eq_some_iff wf idx o0 o1 h0 h1 _ r c).mpr ⟨?_, ?_⟩
    · show o0 + (r.val - o0) = r.val
      omega
    · show o1 + (c.val - o1) = c.val
      omega
  · intro j hj
    obtain ⟨e0, e1⟩ := (resultIdx?_eq_some_iff wf idx o0 o1 h0 h1 j r c).mp hj
    refine congrArg upd ?_
    rw [eq_ix2 j]
    have a0 : j 0 = (⟨r.val - o0, by omega⟩ : Fin m) := Fin.ext (by show (j 0).val = r.val - o0; omega)
    have a1 : j 1 = (⟨c.val - o1, by omega⟩ : Fin n) := Fin.ext (by show (j 1).val = c.val - o1; omega)
    rw [a0, a1]
    rfl

/-- THE BLOCK WRITE READ OUTSIDE THE BLOCK'S RANGE: the matrix's own entry. -/
theorem scatter_rowBlock_outside (x : (⟨2, ![M, N]⟩ : Shape).Idx → α) (idx : IVec ⟨1, ![1]⟩ w)
    (upd : (⟨2, ![m, n]⟩ : Shape).Idx → α) (o0 o1 : Nat)
    (h0 : (idx (ix1 (0 : Fin 1))).toInt = (o0 : Int)) (h1 : (0 : Int) = (o1 : Int))
    (r : Fin M) (c : Fin N) (h : ¬ (o0 ≤ r.val ∧ r.val < o0 + m ∧ o1 ≤ c.val ∧ c.val < o1 + n)) :
    Host.scatter (rowBlockDims M N m n wf) (fun _ b => b) x idx upd (ix2 r c) = x (ix2 r c) := by
  refine scatter_write_of_miss _ x idx upd (ix2 r c) fun j hj => h ?_
  obtain ⟨e0, e1⟩ := (resultIdx?_eq_some_iff wf idx o0 o1 h0 h1 j r c).mp hj
  have b0 : (j 0).val < m := idx2_lt0 j
  have b1 : (j 1).val < n := idx2_lt1 j
  omega

/-- THE BLOCK WRITE READ AT `(r, c)`: the block's entry `(r − o0, c − o1)` in the block's range, the matrix's own entry
    outside it. -/
theorem scatter_rowBlock_apply (x : (⟨2, ![M, N]⟩ : Shape).Idx → α) (idx : IVec ⟨1, ![1]⟩ w)
    (upd : (⟨2, ![m, n]⟩ : Shape).Idx → α) (o0 o1 : Nat)
    (h0 : (idx (ix1 (0 : Fin 1))).toInt = (o0 : Int)) (h1 : (0 : Int) = (o1 : Int))
    (r : Fin M) (c : Fin N) :
    Host.scatter (rowBlockDims M N m n wf) (fun _ b => b) x idx upd (ix2 r c)
      = if h : o0 ≤ r.val ∧ r.val < o0 + m ∧ o1 ≤ c.val ∧ c.val < o1 + n then
          upd (ix2 ⟨r.val - o0, by omega⟩ ⟨c.val - o1, by omega⟩)
        else x (ix2 r c) := by
  by_cases h : o0 ≤ r.val ∧ r.val < o0 + m ∧ o1 ≤ c.val ∧ c.val < o1 + n
  · rw [dif_pos h]
    exact scatter_rowBlock_inside wf x idx upd o0 o1 h0 h1 r c h
  · rw [dif_neg h]
    exact scatter_rowBlock_outside wf x idx upd o0 o1 h0 h1 r c h

end Block

end Cert.LibScatterRowBlock

end
-- ==== Proof.LibTRef.lean ====
/-
  Typed references: writing through one and reading back.

  A typed reference is a buffer together with the fact that the buffer's type is a given one; contents at the given type are
  carried to contents of the buffer, and back, along that fact. For any typed reference the round trip is the identity,
  in both orders: the fact is an equation between two types, and along an equation of a type with itself carrying is the
  identity.
-/
import Idealize.ShloMosaic.Lib.StableHlo

namespace Cert.LibTRef

open Idealize.ShloMosaic Idealize.ShloMosaic.StableHlo

variable {sig : RefSig} {Val : EltTy → Type} {T : BufTy}

/-- Carrying contents along an equation of types and back along the same equation is the identity. -/
theorem cast_cast_symm {α β : Type} (h : α = β) (h' : β = α) (v : α) : cast h' (cast h v) = v := by
  subst h; rfl

/-- Contents written through a typed reference read back through it unchanged. -/
theorem ofBuf_toBuf (x : TRef sig T) (v : T.Contents Val) : x.ofBuf (x.toBuf v) = v :=
  cast_cast_symm _ _ v

/-- A buffer's contents read through a typed reference write back through it unchanged. -/
theorem toBuf_ofBuf (x : TRef sig T) (u : x.ref.ty.Contents Val) : x.toBuf (x.ofBuf u) = u :=
  cast_cast_symm _ _ u

end Cert.LibTRef
-- ==== Proof.HostFacts.lean ====
/-
  What the host computes before the first kernel region, read as matrices: a bias vector joined to itself and laid
  out as one row is the bias row beside itself; a zero matrix with the second-layer weights written at its upper-left
  and lower-right blocks is block diagonal; a zero matrix with a weight matrix written over its upper (lower) rows is
  that matrix padded with zero rows below (above).
-/
import proofs.«178206_g36112085024797_cont_8to1_b_1395_2_alg».proof.Proof.KernelKeep
import proofs.«178206_g36112085024797_cont_8to1_b_1395_2_alg».proof.Proof.Algebra
import proofs.«178206_g36112085024797_cont_8to1_b_1395_2_alg».proof.Proof.LibJoins
import proofs.«178206_g36112085024797_cont_8to1_b_1395_2_alg».proof.Proof.LibScatterRowBlock
import Idealize.ShloMosaic.Lib.StableHlo.Run
import proofs.«178206_g36112085024797_cont_8to1_b_1395_2_alg».proof.Proof.LibTRef
import Idealize.ShloMosaic.PureOps.Ideal.Laws

set_option maxRecDepth 16384

noncomputable section

namespace Cert.Spec

open Idealize.ShloMosaic Idealize.ShloMosaic.ValueIdx
open Cert.MatProduct (rowOf colOf prod)
open Cert.RowBias (addRow addRowMax)

/-- A vector cast to one row is `row` of it. -/
theorem shapeCast_row {n : ℕ} (x : Vct n) (h : (⟨1, ![n]⟩ : Shape).ShapeCasts ⟨2, ![1, n]⟩) :
    shapeCast ⟨2, ![1, n]⟩ x h = row x := by
  refine mat_ext fun r j => ?_
  obtain rfl : r = 0 := Subsingleton.elim _ _
  exact Cert.RowBias.vecRow_apply x h j

/-- Two vectors joined end to end and cast to one row: the two rows side by side. -/
theorem row_join {a b : ℕ} (x : Vct a) (y : Vct b) (hc : Shape.Concatenates [⟨1, ![a]⟩, ⟨1, ![b]⟩] ⟨1, ![a + b]⟩ 0)
    (hs : (⟨1, ![a + b]⟩ : Shape).ShapeCasts ⟨2, ![1, a + b]⟩) :
    shapeCast ⟨2, ![1, a + b]⟩ (concatenate ⟨1, ![a + b]⟩ 0 [⟨⟨1, ![a]⟩, x⟩, ⟨⟨1, ![b]⟩, y⟩] hc) hs
      = joinCols rfl (row x) (row y) := by
  rw [shapeCast_row]
  refine mat_ext fun r j => ?_
  by_cases hj : j.val < a
  · rw [joinCols_left rfl _ _ r j hj]
    exact Cert.Joins.join_vec_left x y hc j ⟨j.val, hj⟩ rfl
  · rw [joinCols_right rfl _ _ r j hj]
    exact Cert.Joins.join_vec_right x y hc j ⟨j.val - a, by have := j.isLt; omega⟩ (by show j.val - a + a = j.val; omega)

end Cert.Spec

namespace Cert.KernelIdeal.KValue

open Idealize.ShloMosaic Idealize.ShloMosaic.TcCoe Idealize.ShloMosaic.ValueIdx Idealize.SL.Sem
open Cert.KernelIdeal Cert.KernelIdeal.Gen Cert.Spec
open Cert.MatProduct (rowOf colOf prod)

variable (m : (ℓ : Loc nD τ sig) → Buf (Elt Ideal) ℓ) (ρ : Dev nD → PrngReg)

/-- The first layer's bias, joined to itself and laid out as one row. -/
theorem b1c_eq (c : Dev nD) : (W1 m ρ c (Proc.devRef .tc main_call0_v1) : Mat 1 128)
    = joinCols (by norm_num) (row (m ((c : Thread nD τ).loc main_arg4))) (row (m ((c : Thread nD τ).loc main_arg4))) := by
  have e : (W1 m ρ c (Proc.devRef .tc main_call0_v1) : Mat 1 128)
      = shapeCast S1x128 (concatenate S128 0 [⟨S64, (m ((c : Thread nD τ).loc main_arg4))⟩, ⟨S64, (m ((c : Thread nD τ).loc main_arg4))⟩] concatenates_S64_S64_S128_d0) shapeCasts_S128_S1x128 := by
    dsimp only [W1, hostOps0]; after_results; rfl
  rw [e]
  exact row_join (a := 64) (b := 64) (m ((c : Thread nD τ).loc main_arg4)) (m ((c : Thread nD τ).loc main_arg4)) concatenates_S64_S64_S128_d0 shapeCasts_S128_S1x128

/-- The second layer's bias, joined to itself and laid out as one row. -/
theorem b2c_eq (c : Dev nD) : (W1 m ρ c (Proc.devRef .tc main_call0_v12) : Mat 1 64)
    = joinCols (by norm_num) (row (m ((c : Thread nD τ).loc main_arg6))) (row (m ((c : Thread nD τ).loc main_arg6))) := by
  have e : (W1 m ρ c (Proc.devRef .tc main_call0_v12) : Mat 1 64)
      = shapeCast S1x64 (concatenate S64 0 [⟨S32, (m ((c : Thread nD τ).loc main_arg6))⟩, ⟨S32, (m ((c : Thread nD τ).loc main_arg6))⟩] concatenates_S32_S32_S64_d0) shapeCasts_S64_S1x64 := by
    dsimp only [W1, hostOps0]; after_results; rfl
  rw [e]
  exact row_join (a := 32) (b := 32) (m ((c : Thread nD τ).loc main_arg6)) (m ((c : Thread nD τ).loc main_arg6)) concatenates_S32_S32_S64_d0 shapeCasts_S64_S1x64

/-- A block written into a matrix by a scatter whose dimension numbers are the block write's. -/
theorem scatter_block_apply' {α : Type} {M N m' n' w : ℕ} (d : ScatterDims ⟨2, ![M, N]⟩ ⟨1, ![2]⟩ ⟨2, ![m', n']⟩)
    (wf : ScatterDims.WF ⟨2, ![M, N]⟩ ⟨1, ![2]⟩ ⟨2, ![m', n']⟩ [0, 1] [] [0, 1] 0) (hd : d = Cert.LibScatterBlock.blockDims M N m' n' wf)
    (x : (⟨2, ![M, N]⟩ : Shape).Idx → α) (idx : IVec ⟨1, ![2]⟩ w) (upd : (⟨2, ![m', n']⟩ : Shape).Idx → α) (o0 o1 : ℕ)
    (h0 : (idx (ix1 (0 : Fin 2))).toInt = (o0 : Int)) (h1 : (idx (ix1 (1 : Fin 2))).toInt = (o1 : Int)) (r : Fin M) (c : Fin N) :
    Host.scatter d (fun _ b => b) x idx upd (ix2 r c)
      = if h : o0 ≤ r.val ∧ r.val < o0 + m' ∧ o1 ≤ c.val ∧ c.val < o1 + n' then
          upd (ix2 ⟨r.val - o0, by omega⟩ ⟨c.val - o1, by omega⟩)
        else x (ix2 r c) := by
  subst hd
  exact Cert.LibScatterBlock.scatter_block_apply wf x idx upd o0 o1 h0 h1 r c

/-- Rows written into a matrix by a scatter whose dimension numbers are the row-block write's. -/
theorem scatter_rowBlock_apply' {α : Type} {M N m' n' w : ℕ} (d : ScatterDims ⟨2, ![M, N]⟩ ⟨1, ![1]⟩ ⟨2, ![m', n']⟩)
    (wf : ScatterDims.WF ⟨2, ![M, N]⟩ ⟨1, ![1]⟩ ⟨2, ![m', n']⟩ [0, 1] [] [0] 0) (hd : d = Cert.LibScatterRowBlock.rowBlockDims M N m' n' wf)
    (x : (⟨2, ![M, N]⟩ : Shape).Idx → α) (idx : IVec ⟨1, ![1]⟩ w) (upd : (⟨2, ![m', n']⟩ : Shape).Idx → α) (o0 : ℕ)
    (h0 : (idx (ix1 (0 : Fin 1))).toInt = (o0 : Int)) (r : Fin M) (c : Fin N) :
    Host.scatter d (fun _ b => b) x idx upd (ix2 r c)
      = if h : o0 ≤ r.val ∧ r.val < o0 + m' ∧ 0 ≤ c.val ∧ c.val < 0 + n' then
          upd (ix2 ⟨r.val - o0, by omega⟩ ⟨c.val - 0, by omega⟩)
        else x (ix2 r c) := by
  subst hd
  exact Cert.LibScatterRowBlock.scatter_rowBlock_apply wf x idx upd o0 0 h0 rfl r c

/-- A vector argument laid out as one row by the host. -/
theorem v21_eq (c : Dev nD) : (W4 m ρ c (Proc.devRef .tc main_call0_v21) : Mat 1 64) = row (m ((c : Thread nD τ).loc main_arg8)) := by
  have e : (W4 m ρ c (Proc.devRef .tc main_call0_v21) : Mat 1 64)
      = shapeCast S1x64 (W3 m ρ c (Proc.devRef .tc main_arg8) : Vct 64) shapeCasts_S64_S1x64 := by
    dsimp only [W4, hostOps2]; after_results; rfl
  rw [e]
  exact (congrArg (fun x : Vct 64 => shapeCast S1x64 x shapeCasts_S64_S1x64) (arg8_at3 m ρ c)).trans (shapeCast_row _ _)

/-- A vector argument laid out as one row by the host. -/
theorem v22_eq (c : Dev nD) : (W4 m ρ c (Proc.devRef .tc main_call0_v22) : Mat 1 128) = row (m ((c : Thread nD τ).loc main_arg10)) := by
  have e : (W4 m ρ c (Proc.devRef .tc main_call0_v22) : Mat 1 128)
      = shapeCast S1x128 (W3 m ρ c (Proc.devRef .tc main_arg10) : Vct 128) shapeCasts_S128_S1x128 := by
    dsimp only [W4, hostOps2]; after_results; rfl
  rw [e]
  exact (congrArg (fun x : Vct 128 => shapeCast S1x128 x shapeCasts_S128_S1x128) (arg10_at3 m ρ c)).trans (shapeCast_row _ _)

/-- A vector argument laid out as one row by the host. -/
theorem v23_eq (c : Dev nD) : (W4 m ρ c (Proc.devRef .tc main_call0_v23) : Mat 1 64) = row (m ((c : Thread nD τ).loc main_arg12)) := by
  have e : (W4 m ρ c (Proc.devRef .tc main_call0_v23) : Mat 1 64)
      = shapeCast S1x64 (W3 m ρ c (Proc.devRef .tc main_arg12) : Vct 64) shapeCasts_S64_S1x64 := by
    dsimp only [W4, hostOps2]; after_results; rfl
  rw [e]
  exact (congrArg (fun x : Vct 64 => shapeCast S1x64 x shapeCasts_S64_S1x64) (arg12_at3 m ρ c)).trans (shapeCast_row _ _)

/-- A vector argument laid out as one row by the host. -/
theorem v25_eq (c : Dev nD) : (W6 m ρ c (Proc.devRef .tc main_call0_v25) : Mat 1 64) = row (m ((c : Thread nD τ).loc main_arg13)) := by
  have e : (W6 m ρ c (Proc.devRef .tc main_call0_v25) : Mat 1 64)
      = shapeCast S1x64 (W5 m ρ c (Proc.devRef .tc main_arg13) : Vct 64) shapeCasts_S64_S1x64 := by
    dsimp only [W6, hostOps3]; after_results; rfl
  rw [e]
  exact (congrArg (fun x : Vct 64 => shapeCast S1x64 x shapeCasts_S64_S1x64) (arg13_at5 m ρ c)).trans (shapeCast_row _ _)

/-- A vector argument laid out as one row by the host. -/
theorem v26_eq (c : Dev nD) : (W6 m ρ c (Proc.devRef .tc main_call0_v26) : Mat 1 64) = row (m ((c : Thread nD τ).loc main_arg14)) := by
  have e : (W6 m ρ c (Proc.devRef .tc main_call0_v26) : Mat 1 64)
      = shapeCast S1x64 (W5 m ρ c (Proc.devRef .tc main_arg14) : Vct 64) shapeCasts_S64_S1x64 := by
    dsimp only [W6, hostOps3]; after_results; rfl
  rw [e]
  exact (congrArg (fun x : Vct 64 => shapeCast S1x64 x shapeCasts_S64_S1x64) (arg14_at5 m ρ c)).trans (shapeCast_row _ _)

/-- A vector argument laid out as one row by the host. -/
theorem v27_eq (c : Dev nD) : (W6 m ρ c (Proc.devRef .tc main_call0_v27) : Mat 1 128) = row (m ((c : Thread nD τ).loc main_arg16)) := by
  have e : (W6 m ρ c (Proc.devRef .tc main_call0_v27) : Mat 1 128)
      = shapeCast S1x128 (W5 m ρ c (Proc.devRef .tc main_arg16) : Vct 128) shapeCasts_S128_S1x128 := by
    dsimp only [W6, hostOps3]; after_results; rfl
  rw [e]
  exact (congrArg (fun x : Vct 128 => shapeCast S1x128 x shapeCasts_S128_S1x128) (arg16_at5 m ρ c)).trans (shapeCast_row _ _)

/-- A vector argument laid out as one row by the host. -/
theorem v28_eq (c : Dev nD) : (W6 m ρ c (Proc.devRef .tc main_call0_v28) : Mat 1 128) = row (m ((c : Thread nD τ).loc main_arg18)) := by
  have e : (W6 m ρ c (Proc.devRef .tc main_call0_v28) : Mat 1 128)
      = shapeCast S1x128 (W5 m ρ c (Proc.devRef .tc main_arg18) : Vct 128) shapeCasts_S128_S1x128 := by
    dsimp only [W6, hostOps3]; after_results; rfl
  rw [e]
  exact (congrArg (fun x : Vct 128 => shapeCast S1x128 x shapeCasts_S128_S1x128) (arg18_at5 m ρ c)).trans (shapeCast_row _ _)

/-- A vector argument laid out as one row by the host. -/
theorem v29_eq (c : Dev nD) : (W6 m ρ c (Proc.devRef .tc main_call0_v29) : Mat 1 128) = row (m ((c : Thread nD τ).loc main_arg20)) := by
  have e : (W6 m ρ c (Proc.devRef .tc main_call0_v29) : Mat 1 128)
      = shapeCast S1x128 (W5 m ρ c (Proc.devRef .tc main_arg20) : Vct 128) shapeCasts_S128_S1x128 := by
    dsimp only [W6, hostOps3]; after_results; rfl
  rw [e]
  exact (congrArg (fun x : Vct 128 => shapeCast S1x128 x shapeCasts_S128_S1x128) (arg20_at5 m ρ c)).trans (shapeCast_row _ _)

end Cert.KernelIdeal.KValue

end
-- ==== Proof.Region0.lean ====
import proofs.«178206_g36112085024797_cont_8to1_b_1395_2_alg».proof.Proof.Spec
import proofs.«178206_g36112085024797_cont_8to1_b_1395_2_alg».proof.Proof.Gen.KernelIdeal.Frame
import Idealize.ShloMosaic.PureOps.Ideal
import Idealize.ShloMosaic.PureOps.Ideal.Laws
import Idealize.ShloMosaic.Lib.Pipeline.Value
import Idealize.ShloMosaic.Lib.ValueLayout

set_option maxRecDepth 16384
noncomputable section

namespace Cert.KernelIdeal.RegionValue
open Idealize.ShloMosaic Idealize.ShloMosaic.TcCoe Idealize.SL.Sem Cert.KernelIdeal Cert.KernelIdeal.Gen
open Idealize.ShloMosaic.ValueIdx
open Cert.MatProduct (prod rowOf colOf)
open Cert.RowBias (addRow addRowMax)

variable (V : (c : Dev nD) → (b : Ref sig .tc) → Buf (Elt Ideal) ((c : Thread nD τ).loc b))

/-- The zero offsets of a rank-2 rectangle, as the constant function. -/
theorem off_zero_r0 : (![0, 0] : Fin 2 → Nat) = fun _ => 0 := funext fun a => by fin_cases a <;> rfl

/-! ## The stored value as one function of the three blocks -/

/-- The matrix unit on a [10000,128] and a [128,64] operand, accumulating into zero, is the product. -/
theorem mm_supports (x : Vec Ideal S10000x128 .f32) (w1 : Vec Ideal S128x64 .f32) :
    matmul (φ₁ := .f32) (φ₂ := .f32) dot_S10000x128_S128x64_S10000x64_1_0_0_1_n_n none x w1 (constant (F := Ideal) S10000x64 .f32 0x00000000#32)
      = prod x w1 :=
  Cert.MatProduct.matmul_zero_eq_prod none x w1

/-- Two [10000,64] arrays joined along the columns read, at a column below 64, the first array, and from 64 on
    the second array 64 columns to the left. -/
theorem concat_cols (a b : Vec Ideal S10000x64 .f32) :
    concatenate S10000x128 1 [⟨S10000x64, a⟩, ⟨S10000x64, b⟩] concatenates_S10000x64_S10000x64_S10000x128_d1
      = Cert.Spec.joinCols (by norm_num) a b := by
  funext y
  unfold Cert.Spec.joinCols
  by_cases hc : (colOf y).val < 64
  · rw [dif_pos hc]
    refine concatenate_pair_apply_left (1 : Fin 2) a b _ y rfl (ix2 (rowOf y) ⟨(colOf y).val, hc⟩) fun b => ?_
    match b with
    | ⟨0, _⟩ => rfl
    | ⟨1, _⟩ => rfl
  · rw [dif_neg hc]
    have hlt : (colOf y).val < 128 := (colOf y).isLt
    refine concatenate_pair_apply_right (1 : Fin 2) a b _ y rfl rfl
      (ix2 (rowOf y) ⟨(colOf y).val - 64, by omega⟩) (fun b hb => ?_) ?_
    · match b with
      | ⟨0, _⟩ => rfl
      | ⟨1, _⟩ => exact absurd rfl hb
    · show (colOf y).val - 64 + 64 = (colOf y).val
      omega

/-- What the body stores, from its three loaded blocks: both products side by side. -/
theorem pay0_eq (w1 : Vec Ideal S128x64 .f32) (x xb : Vec Ideal S10000x128 .f32) :
    k0_pay1 w1 x xb = Cert.Spec.supports x xb w1 := by
  show concatenate S10000x128 1
      [⟨S10000x64, matmul (φ₁ := .f32) (φ₂ := .f32) dot_S10000x128_S128x64_S10000x64_1_0_0_1_n_n none x w1 (constant (F := Ideal) S10000x64 .f32 0x00000000#32)⟩,
       ⟨S10000x64, matmul (φ₁ := .f32) (φ₂ := .f32) dot_S10000x128_S128x64_S10000x64_1_0_0_1_n_n none xb w1 (constant (F := Ideal) S10000x64 .f32 0x00000000#32)⟩]
      concatenates_S10000x64_S10000x64_S10000x128_d1 = _
  rw [mm_supports, mm_supports, concat_cols]
  rfl

/-! ## From the one point's blocks to the array -/

/-- Every window of this region is its whole array: the block read at the one point is the array. -/
theorem blk0_0 (c : Dev nD) (t : Fin cfg0.N) : iblk0 V c 0 t = V c (Pipeline.arrRef spec0 0) := by
  unfold iblk0
  funext j
  show V c (Pipeline.arrRef spec0 0) (((cfg0.win 0).blk t).view.emb j) = V c (Pipeline.arrRef spec0 0) j
  refine congrArg _ (funext fun a => Fin.ext ?_)
  match a with
  | ⟨0, _⟩ => show 0 * 10000 + 1 * (j 0).val = (j 0).val; omega
  | ⟨1, _⟩ => show 0 * 128 + 1 * (j 1).val = (j 1).val; omega

theorem blk0_1 (c : Dev nD) (t : Fin cfg0.N) : iblk0 V c 1 t = V c (Pipeline.arrRef spec0 1) := by
  unfold iblk0
  funext j
  show V c (Pipeline.arrRef spec0 1) (((cfg0.win 1).blk t).view.emb j) = V c (Pipeline.arrRef spec0 1) j
  refine congrArg _ (funext fun a => Fin.ext ?_)
  match a with
  | ⟨0, _⟩ => show 0 * 10000 + 1 * (j 0).val = (j 0).val; omega
  | ⟨1, _⟩ => show 0 * 128 + 1 * (j 1).val = (j 1).val; omega

theorem blk0_2 (c : Dev nD) (t : Fin cfg0.N) : iblk0 V c 2 t = V c (Pipeline.arrRef spec0 2) := by
  unfold iblk0
  funext j
  show V c (Pipeline.arrRef spec0 2) (((cfg0.win 2).blk t).view.emb j) = V c (Pipeline.arrRef spec0 2) j
  refine congrArg _ (funext fun a => Fin.ext ?_)
  match a with
  | ⟨0, _⟩ => show 0 * 128 + 1 * (j 0).val = (j 0).val; omega
  | ⟨1, _⟩ => show 0 * 64 + 1 * (j 1).val = (j 1).val; omega

/-- A whole-array function, read through the output window's one block, is the function. -/
theorem cut_read0_3 (t : Fin cfg0.N) (X : Vec Ideal S10000x128 .f32) :
    (cfg0.win 3).cut (grid0.coords t) X = ((cfg0.win 3).blk t).view.read (Elt Ideal) X := by
  funext j
  show X _ = X (((cfg0.win 3).blk t).view.emb j)
  refine congrArg _ (funext fun a => Fin.ext ?_)
  match a with
  | ⟨0, _⟩ => show (j 0).val = 0 * 10000 + 1 * (j 0).val; omega
  | ⟨1, _⟩ => show (j 1).val = 0 * 128 + 1 * (j 1).val; omega

/-- The one point's block is the whole output array. -/
theorem mem_blk0_3 (i : S10000x128.Idx) : i ∈ ((cfg0.win 3).blk t0_0).view.set := by
  show i ∈ ((View.whole main_call0_v19).slice (win0_3.rect t0_0)).set
  rw [View.set_slice_whole, Rect.mem_set_unit]
  intro a
  match a with
  | ⟨0, _⟩ => show 0 * 10000 ≤ (i 0).val ∧ (i 0).val < 0 * 10000 + 10000; have hi : (i 0).val < 10000 := (i 0).isLt; omega
  | ⟨1, _⟩ => show 0 * 128 ≤ (i 1).val ∧ (i 1).val < 0 * 128 + 128; have hi : (i 1).val < 128 := (i 1).isLt; omega

/-- What the one point writes back is the block of both products side by side. -/
theorem flushed0_3_eq (c : Dev nD) (t : Fin cfg0.N) :
    (dat0 (F := Ideal) V c).flushed 3 t = ((cfg0.win 3).blk t).view.read (Elt Ideal)
      (Cert.Spec.supports (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero off_zero_r0]
  simp only [View.ld_unit_zero (S := S10000x128) off_zero_r0, View.ld_unit_zero (S := S128x64) off_zero_r0]
  rw [blk0_0, blk0_1, blk0_2, pay0_eq]
  exact cut_read0_3 t _

theorem arr0_3 (c : Dev nD) : (dat0 (F := Ideal) V c).arrAt 3 cfg0.N
    = Cert.Spec.supports (V c (Pipeline.arrRef spec0 0)) (V c (Pipeline.arrRef spec0 1)) (V c (Pipeline.arrRef spec0 2)) :=
  (dat0 (F := Ideal) V c).arrAt_eq_of_cover 3 _ (fun t _ => flushed0_3_eq V c t)
    (fun i => ⟨t0_0, flush0_3 t0_0, mem_blk0_3 i⟩)

end Cert.KernelIdeal.RegionValue
end
-- ==== Proof.LibRowBlocks.lean ====
/-
  Rows of a block and rows of the whole array.

  The kernel works on blocks of consecutive rows; the reference works on the whole array. Every step of the
  dense stack acts on each row by itself: a product with a fixed matrix on the right, the addition of a fixed
  bias row, a function applied entry by entry, the sum of two arrays. So if a block holds the rows
  o, o + 1, … of a taller array before such a step, it holds the same rows of the taller result after it.
  This file states that relation (`RowsAt`) and proves that each kind of step keeps it.
-/
import Idealize.ShloMosaic.Lib.ValueIdx
import Idealize.ShloMosaic.PureOps.Ideal.Laws
import proofs.«178206_g36112085024797_cont_8to1_b_1395_2_alg».proof.Proof.LibMatProduct

noncomputable section

namespace Cert.Bridge

open Idealize.ShloMosaic Idealize.ShloMosaic.ValueIdx

/-- The array `hk` of `M` rows is the stretch of `hr` that starts at row `o`: row `p` of `hk` is row `o + p` of `hr`. -/
def RowsAt {α : Type} {M R N : ℕ} (o : ℕ) (hk : (⟨2, ![M, N]⟩ : Shape).Idx → α) (hr : (⟨2, ![R, N]⟩ : Shape).Idx → α) : Prop :=
  ∀ (p : Fin M) (r : Fin R) (j : Fin N), r.val = o + p.val → hk (ix2 p j) = hr (ix2 r j)

variable {α β γ δ : Type} {M R N : ℕ} {o : ℕ}

/-- A function applied entry by entry keeps the relation. -/
theorem RowsAt.map (f : α → β) {a : (⟨2, ![M, N]⟩ : Shape).Idx → α} {a' : (⟨2, ![R, N]⟩ : Shape).Idx → α}
    (h : RowsAt o a a') : RowsAt o (fun i => f (a i)) (fun i => f (a' i)) :=
  fun p r j e => congrArg f (h p r j e)

/-- A function of two arrays applied entry by entry keeps the relation. -/
theorem RowsAt.map₂ (f : α → β → γ) {a : (⟨2, ![M, N]⟩ : Shape).Idx → α} {a' : (⟨2, ![R, N]⟩ : Shape).Idx → α}
    {b : (⟨2, ![M, N]⟩ : Shape).Idx → β} {b' : (⟨2, ![R, N]⟩ : Shape).Idx → β}
    (ha : RowsAt o a a') (hb : RowsAt o b b') : RowsAt o (fun i => f (a i) (b i)) (fun i => f (a' i) (b' i)) :=
  fun p r j e => by
    show f (a (ix2 p j)) (b (ix2 p j)) = f (a' (ix2 r j)) (b' (ix2 r j))
    rw [ha p r j e, hb p r j e]

/-- A function of three arrays applied entry by entry keeps the relation. -/
theorem RowsAt.map₃ (f : α → β → γ → δ) {a : (⟨2, ![M, N]⟩ : Shape).Idx → α} {a' : (⟨2, ![R, N]⟩ : Shape).Idx → α}
    {b : (⟨2, ![M, N]⟩ : Shape).Idx → β} {b' : (⟨2, ![R, N]⟩ : Shape).Idx → β}
    {c : (⟨2, ![M, N]⟩ : Shape).Idx → γ} {c' : (⟨2, ![R, N]⟩ : Shape).Idx → γ}
    (ha : RowsAt o a a') (hb : RowsAt o b b') (hc : RowsAt o c c') :
    RowsAt o (fun i => f (a i) (b i) (c i)) (fun i => f (a' i) (b' i) (c' i)) :=
  fun p r j e => by
    show f (a (ix2 p j)) (b (ix2 p j)) (c (ix2 p j)) = f (a' (ix2 r j)) (b' (ix2 r j)) (c' (ix2 r j))
    rw [ha p r j e, hb p r j e, hc p r j e]

/-- Two arrays that hold one value everywhere are related. -/
theorem RowsAt.const (v : α) : RowsAt (M := M) (R := R) (N := N) o (fun _ => v) (fun _ => v) :=
  fun _ _ _ _ => rfl

/-- Two arrays whose entries depend on the column only, through one function, are related. -/
theorem RowsAt.ofCols (g : Fin N → α) {a : (⟨2, ![M, N]⟩ : Shape).Idx → α} {a' : (⟨2, ![R, N]⟩ : Shape).Idx → α}
    (ha : ∀ p j, a (ix2 p j) = g j) (ha' : ∀ r j, a' (ix2 r j) = g j) : RowsAt o a a' :=
  fun p r j _ => (ha p j).trans (ha' r j).symm

/-- The product with a fixed matrix on the right keeps the relation: row `p` of the product only reads row `p`
    of the left factor. -/
theorem RowsAt.prod {K : ℕ} {x : (⟨2, ![M, K]⟩ : Shape).Idx → EReal} {x' : (⟨2, ![R, K]⟩ : Shape).Idx → EReal}
    (h : RowsAt o x x') (w : (⟨2, ![K, N]⟩ : Shape).Idx → EReal) :
    RowsAt o (Cert.MatProduct.prod x w) (Cert.MatProduct.prod x' w) :=
  fun p r j e => by
    show (∑ k : Fin K, x (ix2 p k) * w (ix2 k j)) = ∑ k : Fin K, x' (ix2 r k) * w (ix2 k j)
    exact Finset.sum_congr rfl fun k _ => by rw [h p r k e]

/-- Related arrays are equal where the taller one is read at the related row. -/
theorem RowsAt.apply {a : (⟨2, ![M, N]⟩ : Shape).Idx → α} {a' : (⟨2, ![R, N]⟩ : Shape).Idx → α}
    (h : RowsAt o a a') (p : Fin M) (r : Fin R) (j : Fin N) (e : r.val = o + p.val) : a (ix2 p j) = a' (ix2 r j) :=
  h p r j e

end Cert.Bridge

end
-- ==== Proof.Region1.lean ====
/-
  The first pass over the adjacency, block of rows by block of rows.

  The pass is the function  max (A · s + b, 0) · w  of the adjacency A, the supports s, the bias row b and the
  weights w. It is computed for 400 rows of A at a time: point t of 25 holds rows 400·t, …, 400·t + 399 of A and
  the whole of s, b and w, and leaves rows 400·t, … of the result. A change of float format and a reshape to the
  same shape are the identity on the extended reals, so what a point computes is the same expression of its block
  of A. Every step of the expression acts on each row by itself (a product with a fixed right factor, a fixed bias
  row added, a floor entry by entry), so the rows a point leaves are the same rows of the pass applied to the whole
  of A; and row r of the result lies in the block of point r / 400, so the 25 blocks fill the result.
-/
import proofs.«178206_g36112085024797_cont_8to1_b_1395_2_alg».proof.Proof.Spec
import proofs.«178206_g36112085024797_cont_8to1_b_1395_2_alg».proof.Proof.LibRowBlocks
import proofs.«178206_g36112085024797_cont_8to1_b_1395_2_alg».proof.Proof.Gen.KernelIdeal.Frame
import Idealize.ShloMosaic.PureOps.Ideal
import Idealize.ShloMosaic.Lib.Pipeline.Value

set_option maxRecDepth 16384
noncomputable section

namespace Cert.KernelIdeal.RegionValue
open Idealize.ShloMosaic Idealize.ShloMosaic.TcCoe Idealize.SL.Sem Cert.KernelIdeal Cert.KernelIdeal.Gen
open Idealize.ShloMosaic.ValueIdx
open Cert.MatProduct (prod rowOf colOf)
open Cert.RowBias (addRow addRowMax)
open Cert.Bridge (RowsAt)

/-! ## Rows of a block: the bias steps keep the relation -/

/-- Adding a fixed bias row keeps "the block is the stretch of the tall array starting at row o". -/
theorem rowsAt_addRow {M R N o : ℕ} {x : (⟨2, ![M, N]⟩ : Shape).Idx → EReal} {x' : (⟨2, ![R, N]⟩ : Shape).Idx → EReal}
    (h : RowsAt o x x') (b : (⟨2, ![1, N]⟩ : Shape).Idx → EReal) : RowsAt o (addRow x b) (addRow x' b) :=
  fun p r j e => by
    show x (ix2 p j) + b (ix2 0 j) = x' (ix2 r j) + b (ix2 0 j)
    rw [h p r j e]

/-- The same with a floor. -/
theorem rowsAt_addRowMax {M R N o : ℕ} {x : (⟨2, ![M, N]⟩ : Shape).Idx → EReal} {x' : (⟨2, ![R, N]⟩ : Shape).Idx → EReal}
    (h : RowsAt o x x') (b : (⟨2, ![1, N]⟩ : Shape).Idx → EReal) (z : EReal) : RowsAt o (addRowMax x b z) (addRowMax x' b z) :=
  fun p r j e => by
    show max (x (ix2 p j) + b (ix2 0 j)) z = max (x' (ix2 r j) + b (ix2 0 j)) z
    rw [h p r j e]

/-! ## Region 1: the payload, and a block of it as rows of the whole -/

/-- What a point computes from its blocks: the product, the bias row and the floor, the second product. -/
theorem pay1_eq (v0 : Vec Ideal S400x10000 .f32) (v2 : Vec Ideal S10000x128 .f32) (v6 : Vec Ideal S1x128 .f32) (v12 : Vec Ideal S128x64 .f32) :
    k1_pay1 (F := Ideal) v0 v2 v6 v12 = prod (addRowMax (prod v0 v2) v6 0) v12 := by
  have e : matmul dot_S400x10000_S10000x128_S400x128_1_0_0_1_n_n none (truncf FTy.bf16 v0 bitsLt_bf16_f32)
      (truncf FTy.bf16 v2 bitsLt_bf16_f32) (constant (F := Ideal) S400x128 FTy.f32 0x00000000#32) = prod v0 v2 :=
    Cert.MatProduct.matmul_zero_eq_prod none v0 v2
  unfold k1_pay1
  dsimp only
  rw [shapeCast_self, shapeCast_self, shapeCast_self]
  refine (Cert.MatProduct.matmul_zero_eq_prod none _ _).trans ?_
  congr 1
  funext y
  rw [maximumf_apply, addf_apply, broadcast_apply, Cert.RowBias.spreadRow_apply]
  show max (_ + v6 (ix2 0 (colOf y))) (Ideal.ofBits .f32 0x00000000#32) = max (prod v0 v2 y + v6 (ix2 0 (colOf y))) 0
  rw [Ideal.ofBits_zero_f32]
  exact congrArg (fun x => max (x + v6 (ix2 0 (colOf y))) 0) (congrFun e y)

/-- If a block holds the rows of A starting at row o, the pass of the block holds the same rows of the pass of A. -/
theorem block1 {o : ℕ} (A : Cert.Spec.Mat 10000 10000) (s : Cert.Spec.Mat 10000 128) (b : Cert.Spec.Mat 1 128) (w : Cert.Spec.Mat 128 64)
    (a : Cert.Spec.Mat 400 10000) (ha : RowsAt o a A) :
    RowsAt o (prod (addRowMax (prod a s) b 0) w) (Cert.Spec.pass1 A s b w) :=
  (rowsAt_addRowMax (ha.prod s) b 0).prod w

variable (V : (c : Dev nD) → (b : Ref sig .tc) → Buf (Elt Ideal) ((c : Thread nD τ).loc b))

/-- The zero offsets of a rank-2 array, spelt as a constant function. -/
theorem hz : (![0, 0] : Fin 2 → Nat) = fun _ => 0 := funext fun a => by fin_cases a <;> rfl

/-- The block indices at point t: the adjacency and the result move down one block of rows per point; the other
    three arrays stay whole. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The adjacency's block at point t is its rows 400·t, …, 400·t + 399. -/
theorem iblk1_0_rows (c : Dev nD) (t : Fin cfg1.N) :
    RowsAt (400 * t.val) (iblk1 (F := Ideal) V c 0 t : Vec Ideal S400x10000 .f32) (V c (Pipeline.arrRef spec1 0) : Vec Ideal S10000x10000 .f32) := by
  intro p r j e
  obtain ⟨e0, e1, -⟩ := idx1 t
  unfold iblk1
  show V c (Pipeline.arrRef spec1 0) (((cfg1.win 0).blk t).view.emb (ix2 p j)) = V c (Pipeline.arrRef spec1 0) (ix2 r j)
  refine congrArg _ ?_
  funext a
  apply Fin.ext
  match a with
  | ⟨0, _⟩ => show win1_0.index t (0 : Fin 2) * 400 + 1 * p.val = r.val; rw [e0, e]; omega
  | ⟨1, _⟩ => show win1_0.index t (1 : Fin 2) * 10000 + 1 * j.val = j.val; rw [e1]; omega

/-- The supports' block at every point is the whole array. -/
theorem iblk1_1_eq (c : Dev nD) (t : Fin cfg1.N) :
    (iblk1 (F := Ideal) V c 1 t : Vec Ideal S10000x128 .f32) = V c (Pipeline.arrRef spec1 1) := by
  obtain ⟨-, -, e0, e1, -⟩ := idx1 t
  funext y
  unfold iblk1
  show V c (Pipeline.arrRef spec1 1) (((cfg1.win 1).blk t).view.emb y) = V c (Pipeline.arrRef spec1 1) y
  refine congrArg _ ?_
  funext a
  apply Fin.ext
  match a with
  | ⟨0, _⟩ => show win1_1.index t (0 : Fin 2) * 10000 + 1 * (y 0).val = (y 0).val; rw [e0]; omega
  | ⟨1, _⟩ => show win1_1.index t (1 : Fin 2) * 128 + 1 * (y 1).val = (y 1).val; rw [e1]; omega

/-- The bias row's block at every point is the whole array. -/
theorem iblk1_2_eq (c : Dev nD) (t : Fin cfg1.N) :
    (iblk1 (F := Ideal) V c 2 t : Vec Ideal S1x128 .f32) = V c (Pipeline.arrRef spec1 2) := by
  have h := idx1 t
  funext y
  unfold iblk1
  show V c (Pipeline.arrRef spec1 2) (((cfg1.win 2).blk t).view.emb y) = V c (Pipeline.arrRef spec1 2) y
  refine congrArg _ ?_
  funext a
  apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The weights' block at every point is the whole array. -/
theorem iblk1_3_eq (c : Dev nD) (t : Fin cfg1.N) :
    (iblk1 (F := Ideal) V c 3 t : Vec Ideal S128x64 .f32) = V c (Pipeline.arrRef spec1 3) := by
  have h := idx1 t
  funext y
  unfold iblk1
  show V c (Pipeline.arrRef spec1 3) (((cfg1.win 3).blk t).view.emb y) = V c (Pipeline.arrRef spec1 3) y
  refine congrArg _ ?_
  funext a
  apply Fin.ext
  match a with
  | ⟨0, _⟩ => show win1_3.index t (0 : Fin 2) * 128 + 1 * (y 0).val = (y 0).val; omega
  | ⟨1, _⟩ => show win1_3.index t (1 : Fin 2) * 64 + 1 * (y 1).val = (y 1).val; omega

/-- What point t writes back is block t of pass1 of the whole arrays. -/
theorem flushed1_4 (c : Dev nD) (t : Fin cfg1.N) :
    (dat1 (F := Ideal) V c).flushed 4 t = ((cfg1.win 4).blk t).view.read (Elt Ideal)
      (Cert.Spec.pass1 (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x128) hz, View.ld_unit_zero (S := S1x128) hz, View.ld_unit_zero (S := S128x64) hz]
  rw [pay1_eq, iblk1_1_eq, iblk1_2_eq, iblk1_3_eq]
  have h := idx1 t
  have ht : t.val < 25 := lt_of_lt_of_eq t.isLt N_1
  funext y
  obtain ⟨p, q, rfl⟩ : ∃ (p : Fin 400) (q : Fin 64), y = ix2 p q := ⟨rowOf y, colOf y, eq_ix2 y⟩
  refine (block1 _ _ _ _ _ (iblk1_0_rows V c t) p ⟨400 * t.val + p.val, by have := p.isLt; omega⟩ q rfl).trans ?_
  show Cert.Spec.pass1 _ _ _ _ _ = Cert.Spec.pass1 _ _ _ _ (((cfg1.win 4).blk t).view.emb (ix2 p q))
  refine congrArg _ ?_
  funext a
  apply Fin.ext
  match a with
  | ⟨0, _⟩ => show 400 * t.val + p.val = win1_4.index t (0 : Fin 2) * 400 + 1 * p.val; omega
  | ⟨1, _⟩ => show q.val = win1_4.index t (1 : Fin 2) * 64 + 1 * q.val; omega

/-- An entry of the result is in point t's block iff each coordinate is in the block's range on its axis. -/
theorem mem_blk1_4 (t : Fin cfg1.N) (i : S10000x64.Idx) :
    i ∈ ((cfg1.win 4).blk t).view.set ↔ ∀ a : Fin 2, win1_4.index t a * S400x64.size a ≤ (i a).val ∧ (i a).val < win1_4.index t a * S400x64.size a + S400x64.size a := by
  show i ∈ ((View.whole main_call0_v20).slice (win1_4.rect t)).set ↔ _
  rw [View.set_slice_whole, Rect.mem_set_unit]
  exact Iff.rfl

/-- Row r of the result lies in the block of point r / 400. -/
theorem covered1_4 (i : S10000x64.Idx) : ∃ t : Fin cfg1.N, (cfg1.win 4).flush t = true ∧ i ∈ ((cfg1.win 4).blk t).view.set := by
  have hi0 : (i 0).val < 10000 := (i 0).isLt
  have hi1 : (i 1).val < 64 := (i 1).isLt
  have hN : (i 0).val / 400 < cfg1.N := lt_of_lt_of_eq (by omega : (i 0).val / 400 < 25) N_1.symm
  obtain ⟨-, -, -, -, -, -, -, -, e0, e1⟩ := idx1 ⟨(i 0).val / 400, hN⟩
  have e0' : win1_4.index ⟨(i 0).val / 400, hN⟩ (0 : Fin 2) = (i 0).val / 400 := e0
  refine ⟨⟨(i 0).val / 400, hN⟩, flush1_4 _, ?_⟩
  rw [mem_blk1_4]
  intro a
  match a with
  | ⟨0, _⟩ => show win1_4.index ⟨(i 0).val / 400, hN⟩ (0 : Fin 2) * 400 ≤ (i 0).val ∧ (i 0).val < win1_4.index ⟨(i 0).val / 400, hN⟩ (0 : Fin 2) * 400 + 400; omega
  | ⟨1, _⟩ => show win1_4.index ⟨(i 0).val / 400, hN⟩ (1 : Fin 2) * 64 ≤ (i 1).val ∧ (i 1).val < win1_4.index ⟨(i 0).val / 400, hN⟩ (1 : Fin 2) * 64 + 64; omega

/-- After the 25 points the result array is the pass of the whole arrays. -/
theorem arr1_4 (c : Dev nD) : (dat1 (F := Ideal) V c).arrAt 4 cfg1.N
    = Cert.Spec.pass1 (V c (Pipeline.arrRef spec1 0)) (V c (Pipeline.arrRef spec1 1)) (V c (Pipeline.arrRef spec1 2)) (V c (Pipeline.arrRef spec1 3)) :=
  (dat1 V c).arrAt_eq_of_cover 4 _ (fun t _ => flushed1_4 V c t) covered1_4

end Cert.KernelIdeal.RegionValue
end
-- ==== Proof.LibHostColSum.lean ====
/-
  A host sum down the columns of a matrix, read at a column.

  For any extents: the host reduction of an `[n, d]` array along its first axis with addition as its body is, at column
  `c` and at the exact values, the initial value plus the sum of the column's `n` entries.
-/
import Idealize.ShloMosaic.PureOps.Ideal.Laws
import Idealize.ShloMosaic.Lib.ValueIdx

noncomputable section

namespace Cert.LibHostColSum

open Idealize.ShloMosaic Idealize.ShloMosaic.ValueIdx

/-- Column `c` with the row coordinate `r` inserted is the entry `(r, c)`. -/
theorem lift_col {n d : ℕ} (hR : (⟨2, ![n, d]⟩ : Shape).Reduces [0] ⟨1, ![d]⟩) (c : Fin d) (r : Fin n) :
    hR.lift (ix1 c) r = ix2 r c := by
  funext a
  match a with
  | ⟨0, _⟩ => rfl
  | ⟨1, _⟩ => rfl

/-- The host's column sum at column `c`: the initial value plus the sum down the column. -/
theorem reduceAdd_col {n d : ℕ} {u : Shape} (A : (⟨2, ![n, d]⟩ : Shape).Idx → EReal) (init : u.Idx → EReal)
    (h' : (⟨2, ![n, d]⟩ : Shape).ReducesTo [0] ⟨1, ![d]⟩) (hR : (⟨2, ![n, d]⟩ : Shape).Reduces [0] ⟨1, ![d]⟩)
    (hu : 0 < u.numel) (c : Fin d) :
    Host.reduceAdd (F := Ideal) (φ := .f32) A init h' hu (ix1 c)
      = init (Shape.Idx.first hu) + ∑ r : Fin n, A (ix2 r c) := by
  unfold Host.reduceAdd
  rw [Ideal.hostReduceAdd_def, Ideal.hostReduceAdd_single h' hR]
  refine congrArg (init (Shape.Idx.first hu) + ·) (Finset.sum_congr rfl fun r _ => ?_)
  exact congrArg A (lift_col hR c r)

end Cert.LibHostColSum

end
-- ==== Proof.Region3.lean ====
import proofs.«178206_g36112085024797_cont_8to1_b_1395_2_alg».proof.Proof.Spec
import proofs.«178206_g36112085024797_cont_8to1_b_1395_2_alg».proof.Proof.Gen.KernelIdeal.Frame
import Idealize.ShloMosaic.PureOps.Ideal
import Idealize.ShloMosaic.PureOps.Ideal.Laws
import Idealize.ShloMosaic.Lib.Pipeline.Value
import Idealize.ShloMosaic.Lib.ValueLayout
import proofs.«178206_g36112085024797_cont_8to1_b_1395_2_alg».proof.Proof.LibHostColSum

set_option maxRecDepth 16384
noncomputable section

namespace Cert.KernelIdeal.RegionValue
open Idealize.ShloMosaic Idealize.ShloMosaic.TcCoe Idealize.SL.Sem Cert.KernelIdeal Cert.KernelIdeal.Gen
open Idealize.ShloMosaic.ValueIdx
open Cert.MatProduct (prod rowOf colOf)
open Cert.RowBias (addRow addRowMax)

variable (V : (c : Dev nD) → (b : Ref sig .tc) → Buf (Elt Ideal) ((c : Thread nD τ).loc b))

/-- The zero offsets of a rank-2 rectangle, as the constant function. -/
theorem off_zero_r3 : (![0, 0] : Fin 2 → Nat) = fun _ => 0 := funext fun a => by fin_cases a <;> rfl

/-! ## The normalisation over the rows -/

/-- The column sums of a [10000,64] array divided by the word of 10000, as a one-row array. -/
def bnMeanRow (x : Vec Ideal S10000x64 .f32) : FVec Ideal S1x64 .f32 :=
  divf (shapeCast S1x64 (multiReduction (F := Ideal) .add [0] S64 x 0x00000000#32 reduces_S10000x64_S64 (.inl rfl) rfl) shapeCasts_S64_S1x64)
    (broadcast S1x64 (Scalar.ofBits (F := Ideal) .f32 0x461C4000#32))

/-- It holds, at column c, the mean of column c. -/
theorem bnMeanRow_apply (x : Vec Ideal S10000x64 .f32) (q : Fin 64) :
    bnMeanRow x (ix2 (0 : Fin 1) q) = Cert.Spec.colMean x q := by
  show Ideal.div (shapeCast S1x64 (multiReduction (F := Ideal) .add [0] S64 x 0x00000000#32 reduces_S10000x64_S64 (.inl rfl) rfl) shapeCasts_S64_S1x64 (ix2 (0 : Fin 1) q))
      (Ideal.ofBits .f32 0x461C4000#32) = Ideal.div (∑ r : Fin 10000, x (ix2 r q)) (Ideal.ofBits .f32 0x461C4000#32)
  refine congrArg (fun s => Ideal.div s (Ideal.ofBits .f32 0x461C4000#32)) ?_
  refine (Cert.RowBias.vecRow_apply _ shapeCasts_S64_S1x64 q).trans ?_
  refine (Ideal.multiReduction_add_single x 0x00000000#32 reduces_S10000x64_S64 (.inl rfl) rfl (ix1 q)).trans ?_
  exact Finset.sum_congr rfl fun r _ => congrArg x (Cert.LibHostColSum.lift_col reduces_S10000x64_S64 q r)

/-- The array less its column means. -/
def bnDev (x : Vec Ideal S10000x64 .f32) : FVec Ideal S10000x64 .f32 :=
  subf x (broadcastTo S10000x64 (bnMeanRow x) broadcasts_S1x64_S10000x64)

theorem bnDev_apply (x : Vec Ideal S10000x64 .f32) (y : S10000x64.Idx) :
    bnDev x y = x y - Cert.Spec.colMean x (colOf y) := by
  show x y - broadcastTo S10000x64 (bnMeanRow x) broadcasts_S1x64_S10000x64 y = _
  refine congrArg (fun s => x y - s) ?_
  exact (Cert.RowBias.spreadRow_apply _ broadcasts_S1x64_S10000x64 y).trans (bnMeanRow_apply x (colOf y))

/-- The column means of the squared deviations, as a one-row array: at column c, the biased variance of column c. -/
theorem bnVarRow_apply (x : Vec Ideal S10000x64 .f32) (q : Fin 64) :
    bnMeanRow (mulf (bnDev x) (bnDev x)) (ix2 (0 : Fin 1) q) = Cert.Spec.colVar x q := by
  refine (bnMeanRow_apply _ q).trans ?_
  show Ideal.div (∑ r : Fin 10000, bnDev x (ix2 r q) * bnDev x (ix2 r q)) (Ideal.ofBits .f32 0x461C4000#32) = _
  refine congrArg (fun s => Ideal.div s (Ideal.ofBits .f32 0x461C4000#32)) ?_
  exact Finset.sum_congr rfl fun r _ => by rw [bnDev_apply]; rfl

/-- The normalised, scaled, shifted and rectified block, from the block and the two one-row parameters. -/
theorem pay3_bn (z : Vec Ideal S10000x64 .f32) (g bt : Vec Ideal S1x64 .f32) :
    k3_pay3 z g bt = Cert.Spec.bnRelu z g bt := by
  have e : k3_pay3 z g bt
      = maximumf (addf (mulf (divf (bnDev (shapeCast S10000x64 z shapeCasts_S10000x64_S10000x64))
            (broadcastTo S10000x64 (sqrt (addf (bnMeanRow (mulf (bnDev (shapeCast S10000x64 z shapeCasts_S10000x64_S10000x64)) (bnDev (shapeCast S10000x64 z shapeCasts_S10000x64_S10000x64))))
                (broadcast S1x64 (Scalar.ofBits (F := Ideal) .f32 0x3727C5AC#32)))) broadcasts_S1x64_S10000x64))
          (broadcastTo S10000x64 (shapeCast S1x64 g shapeCasts_S1x64_S1x64) broadcasts_S1x64_S10000x64))
        (broadcastTo S10000x64 (shapeCast S1x64 bt shapeCasts_S1x64_S1x64) broadcasts_S1x64_S10000x64))
        (broadcast S10000x64 (Scalar.ofBits (F := Ideal) .f32 0x00000000#32)) := rfl
  rw [e, shapeCast_self, shapeCast_self, shapeCast_self]
  funext y
  show max (Ideal.div (bnDev z y) (broadcastTo S10000x64 (sqrt (addf (bnMeanRow (mulf (bnDev z) (bnDev z)))
          (broadcast S1x64 (Scalar.ofBits (F := Ideal) .f32 0x3727C5AC#32)))) broadcasts_S1x64_S10000x64 y)
        * broadcastTo S10000x64 g broadcasts_S1x64_S10000x64 y + broadcastTo S10000x64 bt broadcasts_S1x64_S10000x64 y)
      (Ideal.ofBits .f32 0x00000000#32) = _
  rw [Cert.RowBias.spreadRow_apply, Cert.RowBias.spreadRow_apply, Cert.RowBias.spreadRow_apply, bnDev_apply, Ideal.ofBits_zero_f32]
  show max (Ideal.div (z y - Cert.Spec.colMean z (colOf y))
        (Ideal.sqrt (bnMeanRow (mulf (bnDev z) (bnDev z)) (ix2 (0 : Fin 1) (colOf y)) + Ideal.ofBits .f32 0x3727C5AC#32))
        * g (ix2 0 (colOf y)) + bt (ix2 0 (colOf y))) 0 = _
  rw [bnVarRow_apply]
  rfl

/-! ## The three heads -/

/-- The matrix unit on a [10000,64] and a [64,128] operand, accumulating into zero, is the product. -/
theorem mm_head (zr : FVec Ideal S10000x64 .f32) (W : Vec Ideal S64x128 .f32) :
    matmul (φ₁ := .f32) (φ₂ := .f32) dot_S10000x64_S64x128_S10000x128_1_0_0_1_n_n none zr W (constant (F := Ideal) S10000x128 .f32 0x00000000#32)
      = prod zr W :=
  Cert.MatProduct.matmul_zero_eq_prod none zr W

/-- A head's linear part: the product plus the one-row bias spread down the rows. -/
theorem head_lin (zr : FVec Ideal S10000x64 .f32) (W : Vec Ideal S64x128 .f32) (b : Vec Ideal S1x128 .f32) :
    addf (matmul (φ₁ := .f32) (φ₂ := .f32) dot_S10000x64_S64x128_S10000x128_1_0_0_1_n_n none zr W (constant (F := Ideal) S10000x128 .f32 0x00000000#32))
        (broadcastTo S10000x128 (shapeCast S1x128 b shapeCasts_S1x128_S1x128) broadcasts_S1x128_S10000x128)
      = addRow (prod zr W) b := by
  rw [mm_head, shapeCast_self]
  funext y
  show prod zr W y + broadcastTo S10000x128 b broadcasts_S1x128_S10000x128 y = _
  rw [Cert.RowBias.spreadRow_apply]
  rfl

/-- The logistic head's stored value. -/
theorem pay3_pi (z : Vec Ideal S10000x64 .f32) (g bt : Vec Ideal S1x64 .f32) (W : Vec Ideal S64x128 .f32) (b : Vec Ideal S1x128 .f32) :
    k3_pay4 z g bt W b = Cert.Spec.piHead (Cert.Spec.bnRelu z g bt) W b := by
  have e : k3_pay4 z g bt W b = logistic (addf (matmul (φ₁ := .f32) (φ₂ := .f32) dot_S10000x64_S64x128_S10000x128_1_0_0_1_n_n none (k3_pay3 z g bt) W (constant (F := Ideal) S10000x128 .f32 0x00000000#32))
        (broadcastTo S10000x128 (shapeCast S1x128 b shapeCasts_S1x128_S1x128) broadcasts_S1x128_S10000x128)) := rfl
  rw [e, head_lin, pay3_bn]
  rfl

/-- The clipped softplus head's stored value. -/
theorem pay3_disp (zr : FVec Ideal S10000x64 .f32) (W : Vec Ideal S64x128 .f32) (b : Vec Ideal S1x128 .f32) :
    k3_pay1 zr W b = Cert.Spec.dispHead zr W b := by
  have e : k3_pay1 zr W b = (fun (t : FVec Ideal S10000x128 .f32) =>
      minimumf (broadcast S10000x128 (Scalar.ofBits (F := Ideal) .f32 0x461C4000#32))
        (maximumf (broadcast S10000x128 (Scalar.ofBits (F := Ideal) .f32 0x38D1B717#32))
          (addf (maximumf t (broadcast S10000x128 (Scalar.ofBits (F := Ideal) .f32 0x00000000#32)))
            (log1p (exp (subf (broadcast S10000x128 (Scalar.ofBits (F := Ideal) .f32 0x00000000#32)) (absf t)))))))
      (addf (matmul (φ₁ := .f32) (φ₂ := .f32) dot_S10000x64_S64x128_S10000x128_1_0_0_1_n_n none zr W (constant (F := Ideal) S10000x128 .f32 0x00000000#32))
        (broadcastTo S10000x128 (shapeCast S1x128 b shapeCasts_S1x128_S1x128) broadcasts_S1x128_S10000x128)) := rfl
  rw [e, head_lin]
  funext y
  show min (Ideal.ofBits .f32 0x461C4000#32) (max (Ideal.ofBits .f32 0x38D1B717#32)
      (max (addRow (prod zr W) b y) (Ideal.ofBits .f32 0x00000000#32)
        + Ideal.log1p (Ideal.exp (Ideal.ofBits .f32 0x00000000#32 - max (addRow (prod zr W) b y) (-(addRow (prod zr W) b y)))))) = _
  rw [Ideal.ofBits_zero_f32, zero_sub]
  rfl

/-- The clipped exponential head's stored value. -/
theorem pay3_mean (zr : FVec Ideal S10000x64 .f32) (W : Vec Ideal S64x128 .f32) (b : Vec Ideal S1x128 .f32) :
    k3_pay2 zr W b = Cert.Spec.meanHead zr W b := by
  have e : k3_pay2 zr W b = (fun (t : FVec Ideal S10000x128 .f32) =>
      minimumf (broadcast S10000x128 (Scalar.ofBits (F := Ideal) .f32 0x49742400#32))
        (maximumf (broadcast S10000x128 (Scalar.ofBits (F := Ideal) .f32 0x3727C5AC#32)) (exp t)))
      (addf (matmul (φ₁ := .f32) (φ₂ := .f32) dot_S10000x64_S64x128_S10000x128_1_0_0_1_n_n none zr W (constant (F := Ideal) S10000x128 .f32 0x00000000#32))
        (broadcastTo S10000x128 (shapeCast S1x128 b shapeCasts_S1x128_S1x128) broadcasts_S1x128_S10000x128)) := rfl
  rw [e, head_lin]
  rfl

/-! ## From the one point's blocks to the arrays -/

/-- Every window of this region is its whole array: the block read at the one point is the array. -/
theorem blk3_0 (c : Dev nD) (t : Fin cfg3.N) : iblk3 V c 0 t = V c (Pipeline.arrRef spec3 0) := by
  unfold iblk3
  funext j
  show V c (Pipeline.arrRef spec3 0) (((cfg3.win 0).blk t).view.emb j) = V c (Pipeline.arrRef spec3 0) j
  refine congrArg _ (funext fun a => Fin.ext ?_)
  match a with
  | ⟨0, _⟩ => show 0 * 10000 + 1 * (j 0).val = (j 0).val; omega
  | ⟨1, _⟩ => show 0 * 64 + 1 * (j 1).val = (j 1).val; omega

theorem blk3_1 (c : Dev nD) (t : Fin cfg3.N) : iblk3 V c 1 t = V c (Pipeline.arrRef spec3 1) := by
  unfold iblk3
  funext j
  show V c (Pipeline.arrRef spec3 1) (((cfg3.win 1).blk t).view.emb j) = V c (Pipeline.arrRef spec3 1) j
  refine congrArg _ (funext fun a => Fin.ext ?_)
  match a with
  | ⟨0, _⟩ => show 0 * 1 + 1 * (j 0).val = (j 0).val; omega
  | ⟨1, _⟩ => show 0 * 64 + 1 * (j 1).val = (j 1).val; omega

theorem blk3_2 (c : Dev nD) (t : Fin cfg3.N) : iblk3 V c 2 t = V c (Pipeline.arrRef spec3 2) := by
  unfold iblk3
  funext j
  show V c (Pipeline.arrRef spec3 2) (((cfg3.win 2).blk t).view.emb j) = V c (Pipeline.arrRef spec3 2) j
  refine congrArg _ (funext fun a => Fin.ext ?_)
  match a with
  | ⟨0, _⟩ => show 0 * 1 + 1 * (j 0).val = (j 0).val; omega
  | ⟨1, _⟩ => show 0 * 64 + 1 * (j 1).val = (j 1).val; omega

theorem blk3_3 (c : Dev nD) (t : Fin cfg3.N) : iblk3 V c 3 t = V c (Pipeline.arrRef spec3 3) := by
  unfold iblk3
  funext j
  show V c (Pipeline.arrRef spec3 3) (((cfg3.win 3).blk t).view.emb j) = V c (Pipeline.arrRef spec3 3) j
  refine congrArg _ (funext fun a => Fin.ext ?_)
  match a with
  | ⟨0, _⟩ => show 0 * 64 + 1 * (j 0).val = (j 0).val; omega
  | ⟨1, _⟩ => show 0 * 128 + 1 * (j 1).val = (j 1).val; omega

theorem blk3_4 (c : Dev nD) (t : Fin cfg3.N) : iblk3 V c 4 t = V c (Pipeline.arrRef spec3 4) := by
  unfold iblk3
  funext j
  show V c (Pipeline.arrRef spec3 4) (((cfg3.win 4).blk t).view.emb j) = V c (Pipeline.arrRef spec3 4) j
  refine congrArg _ (funext fun a => Fin.ext ?_)
  match a with
  | ⟨0, _⟩ => show 0 * 1 + 1 * (j 0).val = (j 0).val; omega
  | ⟨1, _⟩ => show 0 * 128 + 1 * (j 1).val = (j 1).val; omega

theorem blk3_5 (c : Dev nD) (t : Fin cfg3.N) : iblk3 V c 5 t = V c (Pipeline.arrRef spec3 5) := by
  unfold iblk3
  funext j
  show V c (Pipeline.arrRef spec3 5) (((cfg3.win 5).blk t).view.emb j) = V c (Pipeline.arrRef spec3 5) j
  refine congrArg _ (funext fun a => Fin.ext ?_)
  match a with
  | ⟨0, _⟩ => show 0 * 64 + 1 * (j 0).val = (j 0).val; omega
  | ⟨1, _⟩ => show 0 * 128 + 1 * (j 1).val = (j 1).val; omega

theorem blk3_6 (c : Dev nD) (t : Fin cfg3.N) : iblk3 V c 6 t = V c (Pipeline.arrRef spec3 6) := by
  unfold iblk3
  funext j
  show V c (Pipeline.arrRef spec3 6) (((cfg3.win 6).blk t).view.emb j) = V c (Pipeline.arrRef spec3 6) j
  refine congrArg _ (funext fun a => Fin.ext ?_)
  match a with
  | ⟨0, _⟩ => show 0 * 1 + 1 * (j 0).val = (j 0).val; omega
  | ⟨1, _⟩ => show 0 * 128 + 1 * (j 1).val = (j 1).val; omega

theorem blk3_7 (c : Dev nD) (t : Fin cfg3.N) : iblk3 V c 7 t = V c (Pipeline.arrRef spec3 7) := by
  unfold iblk3
  funext j
  show V c (Pipeline.arrRef spec3 7) (((cfg3.win 7).blk t).view.emb j) = V c (Pipeline.arrRef spec3 7) j
  refine congrArg _ (funext fun a => Fin.ext ?_)
  match a with
  | ⟨0, _⟩ => show 0 * 64 + 1 * (j 0).val = (j 0).val; omega
  | ⟨1, _⟩ => show 0 * 128 + 1 * (j 1).val = (j 1).val; omega

theorem blk3_8 (c : Dev nD) (t : Fin cfg3.N) : iblk3 V c 8 t = V c (Pipeline.arrRef spec3 8) := by
  unfold iblk3
  funext j
  show V c (Pipeline.arrRef spec3 8) (((cfg3.win 8).blk t).view.emb j) = V c (Pipeline.arrRef spec3 8) j
  refine congrArg _ (funext fun a => Fin.ext ?_)
  match a with
  | ⟨0, _⟩ => show 0 * 1 + 1 * (j 0).val = (j 0).val; omega
  | ⟨1, _⟩ => show 0 * 128 + 1 * (j 1).val = (j 1).val; omega

/-- A whole-array function, read through output window 9's one block, is the function. -/
theorem cut_read3_9 (t : Fin cfg3.N) (X : Vec Ideal S10000x128 .f32) :
    (cfg3.win 9).cut (grid3.coords t) X = ((cfg3.win 9).blk t).view.read (Elt Ideal) X := by
  funext j
  show X _ = X (((cfg3.win 9).blk t).view.emb j)
  refine congrArg _ (funext fun a => Fin.ext ?_)
  match a with
  | ⟨0, _⟩ => show (j 0).val = 0 * 10000 + 1 * (j 0).val; omega
  | ⟨1, _⟩ => show (j 1).val = 0 * 128 + 1 * (j 1).val; omega

/-- The one point's block is the whole of output array 9. -/
theorem mem_blk3_9 (i : S10000x128.Idx) : i ∈ ((cfg3.win 9).blk t3_0).view.set := by
  show i ∈ ((View.whole main_v0_3).slice (win3_9.rect t3_0)).set
  rw [View.set_slice_whole, Rect.mem_set_unit]
  intro a
  match a with
  | ⟨0, _⟩ => show 0 * 10000 ≤ (i 0).val ∧ (i 0).val < 0 * 10000 + 10000; have hi : (i 0).val < 10000 := (i 0).isLt; omega
  | ⟨1, _⟩ => show 0 * 128 ≤ (i 1).val ∧ (i 1).val < 0 * 128 + 128; have hi : (i 1).val < 128 := (i 1).isLt; omega

/-- A whole-array function, read through output window 10's one block, is the function. -/
theorem cut_read3_10 (t : Fin cfg3.N) (X : Vec Ideal S10000x128 .f32) :
    (cfg3.win 10).cut (grid3.coords t) X = ((cfg3.win 10).blk t).view.read (Elt Ideal) X := by
  funext j
  show X _ = X (((cfg3.win 10).blk t).view.emb j)
  refine congrArg _ (funext fun a => Fin.ext ?_)
  match a with
  | ⟨0, _⟩ => show (j 0).val = 0 * 10000 + 1 * (j 0).val; omega
  | ⟨1, _⟩ => show (j 1).val = 0 * 128 + 1 * (j 1).val; omega

/-- The one point's block is the whole of output array 10. -/
theorem mem_blk3_10 (i : S10000x128.Idx) : i ∈ ((cfg3.win 10).blk t3_0).view.set := by
  show i ∈ ((View.whole main_v0_4).slice (win3_10.rect t3_0)).set
  rw [View.set_slice_whole, Rect.mem_set_unit]
  intro a
  match a with
  | ⟨0, _⟩ => show 0 * 10000 ≤ (i 0).val ∧ (i 0).val < 0 * 10000 + 10000; have hi : (i 0).val < 10000 := (i 0).isLt; omega
  | ⟨1, _⟩ => show 0 * 128 ≤ (i 1).val ∧ (i 1).val < 0 * 128 + 128; have hi : (i 1).val < 128 := (i 1).isLt; omega

/-- A whole-array function, read through output window 11's one block, is the function. -/
theorem cut_read3_11 (t : Fin cfg3.N) (X : Vec Ideal S10000x128 .f32) :
    (cfg3.win 11).cut (grid3.coords t) X = ((cfg3.win 11).blk t).view.read (Elt Ideal) X := by
  funext j
  show X _ = X (((cfg3.win 11).blk t).view.emb j)
  refine congrArg _ (funext fun a => Fin.ext ?_)
  match a with
  | ⟨0, _⟩ => show (j 0).val = 0 * 10000 + 1 * (j 0).val; omega
  | ⟨1, _⟩ => show (j 1).val = 0 * 128 + 1 * (j 1).val; omega

/-- The one point's block is the whole of output array 11. -/
theorem mem_blk3_11 (i : S10000x128.Idx) : i ∈ ((cfg3.win 11).blk t3_0).view.set := by
  show i ∈ ((View.whole main_v0_5).slice (win3_11.rect t3_0)).set
  rw [View.set_slice_whole, Rect.mem_set_unit]
  intro a
  match a with
  | ⟨0, _⟩ => show 0 * 10000 ≤ (i 0).val ∧ (i 0).val < 0 * 10000 + 10000; have hi : (i 0).val < 10000 := (i 0).isLt; omega
  | ⟨1, _⟩ => show 0 * 128 ≤ (i 1).val ∧ (i 1).val < 0 * 128 + 128; have hi : (i 1).val < 128 := (i 1).isLt; omega

abbrev zr3 (c : Dev nD) : Cert.Spec.Mat 10000 64 :=
  Cert.Spec.bnRelu (V c (Pipeline.arrRef spec3 0)) (V c (Pipeline.arrRef spec3 1)) (V c (Pipeline.arrRef spec3 2))

/-- What the one point writes back to the logistic head's array. -/
theorem flushed3_9_eq (c : Dev nD) (t : Fin cfg3.N) :
    (dat3 (F := Ideal) V c).flushed 9 t = ((cfg3.win 9).blk t).view.read (Elt Ideal)
      (Cert.Spec.piHead (zr3 V c) (V c (Pipeline.arrRef spec3 3)) (V c (Pipeline.arrRef spec3 4))) := by
  show (cfg3.win 9).cut (grid3.coords t) ((dat3 V c).after 9 t) = _
  rw [after3_9]
  unfold out3_9
  rw [View.canon_unit_zero off_zero_r3]
  simp only [View.ld_unit_zero (S := S10000x64) off_zero_r3, View.ld_unit_zero (S := S1x64) off_zero_r3, View.ld_unit_zero (S := S64x128) off_zero_r3, View.ld_unit_zero (S := S1x128) off_zero_r3]
  rw [blk3_0, blk3_1, blk3_2, blk3_3, blk3_4, pay3_pi]
  exact cut_read3_9 t _

/-- What the one point writes back to the clipped softplus head's array. -/
theorem flushed3_10_eq (c : Dev nD) (t : Fin cfg3.N) :
    (dat3 (F := Ideal) V c).flushed 10 t = ((cfg3.win 10).blk t).view.read (Elt Ideal)
      (Cert.Spec.dispHead (zr3 V c) (V c (Pipeline.arrRef spec3 5)) (V c (Pipeline.arrRef spec3 6))) := by
  show (cfg3.win 10).cut (grid3.coords t) ((dat3 V c).after 10 t) = _
  rw [after3_10]
  unfold out3_10
  rw [View.canon_unit_zero off_zero_r3]
  simp only [View.ld_unit_zero (S := S10000x64) off_zero_r3, View.ld_unit_zero (S := S1x64) off_zero_r3, View.ld_unit_zero (S := S64x128) off_zero_r3, View.ld_unit_zero (S := S1x128) off_zero_r3]
  rw [blk3_0, blk3_1, blk3_2, blk3_5, blk3_6, pay3_bn, pay3_disp]
  exact cut_read3_10 t _

/-- What the one point writes back to the clipped exponential head's array. -/
theorem flushed3_11_eq (c : Dev nD) (t : Fin cfg3.N) :
    (dat3 (F := Ideal) V c).flushed 11 t = ((cfg3.win 11).blk t).view.read (Elt Ideal)
      (Cert.Spec.meanHead (zr3 V c) (V c (Pipeline.arrRef spec3 7)) (V c (Pipeline.arrRef spec3 8))) := by
  show (cfg3.win 11).cut (grid3.coords t) ((dat3 V c).after 11 t) = _
  rw [after3_11]
  unfold out3_11
  rw [View.canon_unit_zero off_zero_r3]
  simp only [View.ld_unit_zero (S := S10000x64) off_zero_r3, View.ld_unit_zero (S := S1x64) off_zero_r3, View.ld_unit_zero (S := S64x128) off_zero_r3, View.ld_unit_zero (S := S1x128) off_zero_r3]
  rw [blk3_0, blk3_1, blk3_2, blk3_7, blk3_8, pay3_bn, pay3_mean]
  exact cut_read3_11 t _

theorem arr3_9 (c : Dev nD) : (dat3 (F := Ideal) V c).arrAt 9 cfg3.N = Cert.Spec.piHead (zr3 V c) (V c (Pipeline.arrRef spec3 3)) (V c (Pipeline.arrRef spec3 4)) :=
  (dat3 (F := Ideal) V c).arrAt_eq_of_cover 9 _ (fun t _ => flushed3_9_eq V c t)
    (fun i => ⟨t3_0, flush3_9 t3_0, mem_blk3_9 i⟩)
theorem arr3_10 (c : Dev nD) : (dat3 (F := Ideal) V c).arrAt 10 cfg3.N = Cert.Spec.dispHead (zr3 V c) (V c (Pipeline.arrRef spec3 5)) (V c (Pipeline.arrRef spec3 6)) :=
  (dat3 (F := Ideal) V c).arrAt_eq_of_cover 10 _ (fun t _ => flushed3_10_eq V c t)
    (fun i => ⟨t3_0, flush3_10 t3_0, mem_blk3_10 i⟩)
theorem arr3_11 (c : Dev nD) : (dat3 (F := Ideal) V c).arrAt 11 cfg3.N = Cert.Spec.meanHead (zr3 V c) (V c (Pipeline.arrRef spec3 7)) (V c (Pipeline.arrRef spec3 8)) :=
  (dat3 (F := Ideal) V c).arrAt_eq_of_cover 11 _ (fun t _ => flushed3_11_eq V c t)
    (fun i => ⟨t3_0, flush3_11 t3_0, mem_blk3_11 i⟩)

end Cert.KernelIdeal.RegionValue
end
-- ==== Proof.KernelRun.lean ====
/-
  The idealized kernel's run with every unscoped buffer NAMED: each weakly fair execution of @main terminates, and
  at the end every buffer that outlives the four kernel regions holds the contents the last segment boundary gives it
  (the fold of the host stretches and of the regions' write-backs through @main).  The frame claim keeps only the
  argument arrays of this; the value claim needs the six result buffers as well.
-/
import proofs.«178206_g36112085024797_cont_8to1_b_1395_2_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every buffer outside the regions' scopes
    ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.KernelIdeal.Gen

end
-- ==== Proof.Region2Blocks.lean ====
/-
  The second pass over the adjacency: what a point computes, and its blocks as rows of the whole arrays.

  The pass is  e = A · h + b ; from e the point takes two ranges of 32 columns, a two-layer decoder
  max (e · D₁ + d₁, 0) · D₂ + d₂  and a linear map  e · Z + z. Point t of 25 holds rows 400·t, …, 400·t + 399 of A
  and the whole of every other array. A change of float format and a reshape to the same shape are the identity on
  the extended reals. Every step acts on each row by itself, so what a point computes from its block of A is the
  same rows of the step applied to the whole of A.
-/
import proofs.«178206_g36112085024797_cont_8to1_b_1395_2_alg».proof.Proof.Spec
import proofs.«178206_g36112085024797_cont_8to1_b_1395_2_alg».proof.Proof.LibRowBlocks
import proofs.«178206_g36112085024797_cont_8to1_b_1395_2_alg».proof.Proof.Gen.KernelIdeal.Frame
import proofs.«178206_g36112085024797_cont_8to1_b_1395_2_alg».proof.Proof.Region1
import Idealize.ShloMosaic.PureOps.Ideal
import Idealize.ShloMosaic.Lib.Pipeline.Value

set_option maxRecDepth 16384
noncomputable section

namespace Cert.KernelIdeal.RegionValue
open Idealize.ShloMosaic Idealize.ShloMosaic.TcCoe Idealize.SL.Sem Cert.KernelIdeal Cert.KernelIdeal.Gen
open Idealize.ShloMosaic.ValueIdx
open Cert.MatProduct (prod rowOf colOf)
open Cert.RowBias (addRow addRowMax)
open Cert.Bridge (RowsAt)

/-! ## The vector unit's bias steps, as whole-array functions -/

/-- A block plus a one-row array spread down its rows is the bias row added to every row. -/
theorem vecAddRow {R N : ℕ} (x : FVec Ideal ⟨2, ![R, N]⟩ .f32) (b : FVec Ideal ⟨2, ![1, N]⟩ .f32)
    (hb : (⟨2, ![1, N]⟩ : Shape).Broadcasts ⟨2, ![R, N]⟩) :
    addf x (broadcastTo ⟨2, ![R, N]⟩ b hb) = addRow x b := by
  funext y
  rw [addf_apply, Cert.RowBias.spreadRow_apply]
  rfl

/-- The same floored at the splat of the zero word, which denotes 0. -/
theorem vecAddRowMax {R N : ℕ} (x : FVec Ideal ⟨2, ![R, N]⟩ .f32) (b : FVec Ideal ⟨2, ![1, N]⟩ .f32)
    (hb : (⟨2, ![1, N]⟩ : Shape).Broadcasts ⟨2, ![R, N]⟩) :
    maximumf (addf x (broadcastTo ⟨2, ![R, N]⟩ b hb)) (broadcast ⟨2, ![R, N]⟩ (FloatOps.ofBits (F := Ideal) .f32 0x00000000#32))
      = addRowMax x b 0 := by
  funext y
  rw [maximumf_apply, addf_apply, broadcast_apply, Cert.RowBias.spreadRow_apply]
  show max _ (Ideal.ofBits .f32 0x00000000#32) = max _ 0
  rw [Ideal.ofBits_zero_f32]

/-! ## Region 2: the payloads -/

/-- The shared intermediate of a point: its block of the adjacency times h, plus the bias row. -/
theorem pay2_e (v0 : Vec Ideal S400x10000 .f32) (v2 : Vec Ideal S10000x64 .f32) (v6 : Vec Ideal S1x64 .f32) :
    k2_pay2 (F := Ideal) v0 v2 v6 = addRow (prod v0 v2) v6 := by
  unfold k2_pay2
  dsimp only
  rw [shapeCast_self, shapeCast_self]
  refine (vecAddRow _ _ _).trans ?_
  exact congrArg (fun x => addRow x v6) (Cert.MatProduct.matmul_zero_eq_prod none v0 v2)

/-- The slice of 32 columns from column 0 is the columns 0, …, 31. -/
theorem slice_cols0 (x : Cert.Spec.Mat 400 64) (h : S400x64.Slices ![0, 0] S400x32) :
    extractStridedSlice S400x32 ![0, 0] x h = Cert.Spec.cols 0 32 (by norm_num) x := by
  funext y
  refine extractStridedSlice_apply _ x h y (ix2 (rowOf y) ⟨0 + (colOf y).val, by have := (colOf y).isLt; omega⟩) fun a => ?_
  match a with
  | ⟨0, _⟩ => show (y 0).val = 0 + (y 0).val; omega
  | ⟨1, _⟩ => show 0 + (y 1).val = 0 + (y 1).val; rfl

/-- The slice of 32 columns from column 32 is the columns 32, …, 63. -/
theorem slice_cols32 (x : Cert.Spec.Mat 400 64) (h : S400x64.Slices ![0, 32] S400x32) :
    extractStridedSlice S400x32 ![0, 32] x h = Cert.Spec.cols 32 32 (by norm_num) x := by
  funext y
  refine extractStridedSlice_apply _ x h y (ix2 (rowOf y) ⟨32 + (colOf y).val, by have := (colOf y).isLt; omega⟩) fun a => ?_
  match a with
  | ⟨0, _⟩ => show (y 0).val = 0 + (y 0).val; omega
  | ⟨1, _⟩ => show 32 + (y 1).val = 32 + (y 1).val; rfl

theorem pay2_3 (v0 : Vec Ideal S400x10000 .f32) (v2 : Vec Ideal S10000x64 .f32) (v6 : Vec Ideal S1x64 .f32) :
    k2_pay3 (F := Ideal) v0 v2 v6 = Cert.Spec.cols 0 32 (by norm_num) (addRow (prod v0 v2) v6) := by
  unfold k2_pay3
  dsimp only
  rw [pay2_e]
  exact slice_cols0 _ _

theorem pay2_4 (v0 : Vec Ideal S400x10000 .f32) (v2 : Vec Ideal S10000x64 .f32) (v6 : Vec Ideal S1x64 .f32) :
    k2_pay4 (F := Ideal) v0 v2 v6 = Cert.Spec.cols 32 32 (by norm_num) (addRow (prod v0 v2) v6) := by
  unfold k2_pay4
  dsimp only
  rw [pay2_e]
  exact slice_cols32 _ _

/-- The decoder of the shared intermediate: a product, a bias row and a floor, a product, a bias row. -/
theorem pay2_5 (v0 : Vec Ideal S400x10000 .f32) (v2 : Vec Ideal S10000x64 .f32) (v6 : Vec Ideal S1x64 .f32)
    (v14 : Vec Ideal S64x64 .f32) (v17 : Vec Ideal S1x64 .f32) (v23 : Vec Ideal S64x128 .f32) (v25 : Vec Ideal S1x128 .f32) :
    k2_pay5 (F := Ideal) v0 v2 v6 v14 v17 v23 v25
      = addRow (prod (addRowMax (prod (addRow (prod v0 v2) v6) v14) v17 0) v23) v25 := by
  unfold k2_pay5
  dsimp only
  rw [pay2_e, shapeCast_self, shapeCast_self, shapeCast_self]
  refine (vecAddRow _ _ _).trans ?_
  refine congrArg (fun x => addRow x v25) ?_
  refine (Cert.MatProduct.matmul_zero_eq_prod none _ _).trans ?_
  refine congrArg (fun x => prod x v23) ?_
  refine (vecAddRowMax _ _ _).trans ?_
  exact congrArg (fun x => addRowMax x v17 0) (Cert.MatProduct.matmul_zero_eq_prod none _ v14)

/-- The linear map of the shared intermediate: a product and a bias row. -/
theorem pay2_1 (v9 : FVec Ideal S400x64 .f32) (v30 : Vec Ideal S64x64 .f32) (v33 : Vec Ideal S1x64 .f32) :
    k2_pay1 (F := Ideal) v9 v30 v33 = addRow (prod v9 v30) v33 := by
  unfold k2_pay1
  dsimp only
  rw [shapeCast_self, shapeCast_self]
  refine (vecAddRow _ _ _).trans ?_
  exact congrArg (fun x => addRow x v33) (Cert.MatProduct.matmul_zero_eq_prod none v9 v30)

/-! ## Rows of a block and rows of the whole -/

/-- Taking a range of columns keeps "the block is the stretch of the tall array starting at row o". -/
theorem rowsAt_cols {M R o : ℕ} (o' : ℕ) (h : o' + 32 ≤ 64) {x : Cert.Spec.Mat M 64} {x' : Cert.Spec.Mat R 64}
    (hx : RowsAt o x x') : RowsAt o (Cert.Spec.cols o' 32 h x) (Cert.Spec.cols o' 32 h x') :=
  fun p r j e => hx p r ⟨o' + j.val, by have := j.isLt; omega⟩ e

/-- If a block holds the rows of A starting at row o, the second pass of the block holds the same rows of the
    second pass of A. -/
theorem block2_e {o : ℕ} (A : Cert.Spec.Mat 10000 10000) (h2 : Cert.Spec.Mat 10000 64) (b : Cert.Spec.Mat 1 64)
    (a : Cert.Spec.Mat 400 10000) (ha : RowsAt o a A) :
    RowsAt o (addRow (prod a h2) b) (Cert.Spec.pass2 A h2 b) :=
  rowsAt_addRow (ha.prod h2) b

/-- The decoder of the block's second pass holds the same rows of the decoder of the whole second pass. -/
theorem block2_d {o : ℕ} (A : Cert.Spec.Mat 10000 10000) (h2 : Cert.Spec.Mat 10000 64) (b : Cert.Spec.Mat 1 64)
    (a : Cert.Spec.Mat 400 10000) (ha : RowsAt o a A)
    (dw1 : Cert.Spec.Mat 64 64) (db1 : Cert.Spec.Mat 1 64) (dw2 : Cert.Spec.Mat 64 128) (db2 : Cert.Spec.Mat 1 128) :
    RowsAt o (addRow (prod (addRowMax (prod (addRow (prod a h2) b) dw1) db1 0) dw2) db2)
      (addRow (prod (addRowMax (prod (Cert.Spec.pass2 A h2 b) dw1) db1 0) dw2) db2) :=
  rowsAt_addRow ((rowsAt_addRowMax ((block2_e A h2 b a ha).prod dw1) db1 0).prod dw2) db2

/-- The linear map of the block's second pass holds the same rows of the linear map of the whole second pass. -/
theorem block2_z {o : ℕ} (A : Cert.Spec.Mat 10000 10000) (h2 : Cert.Spec.Mat 10000 64) (b : Cert.Spec.Mat 1 64)
    (a : Cert.Spec.Mat 400 10000) (ha : RowsAt o a A) (zw : Cert.Spec.Mat 64 64) (zb : Cert.Spec.Mat 1 64) :
    RowsAt o (addRow (prod (addRow (prod a h2) b) zw) zb) (addRow (prod (Cert.Spec.pass2 A h2 b) zw) zb) :=
  rowsAt_addRow ((block2_e A h2 b a ha).prod zw) zb

variable (V : (c : Dev nD) → (b : Ref sig .tc) → Buf (Elt Ideal) ((c : Thread nD τ).loc b))

/-- The block indices at point t: the adjacency and the four results move down one block of rows per point; the
    other eight arrays stay whole. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0
    ∧ win2_10.index t (0 : Fin 2) = t.val ∧ win2_10.index t (1 : Fin 2) = 0
    ∧ win2_11.index t (0 : Fin 2) = t.val ∧ win2_11.index t (1 : Fin 2) = 0
    ∧ win2_12.index t (0 : Fin 2) = t.val ∧ win2_12.index t (1 : Fin 2) = 0 :=
  (by decide +kernel : ∀ t : Fin grid2.N, _)

/-- The adjacency's block at point t is its rows 400·t, …, 400·t + 399. -/
theorem iblk2_0_rows (c : Dev nD) (t : Fin cfg2.N) :
    RowsAt (400 * t.val) (iblk2 (F := Ideal) V c 0 t : Vec Ideal S400x10000 .f32) (V c (Pipeline.arrRef spec2 0) : Vec Ideal S10000x10000 .f32) := by
  intro p r j e
  obtain ⟨e0, e1, -⟩ := idx2 t
  unfold iblk2
  show V c (Pipeline.arrRef spec2 0) (((cfg2.win 0).blk t).view.emb (ix2 p j)) = V c (Pipeline.arrRef spec2 0) (ix2 r j)
  refine congrArg _ ?_
  funext a
  apply Fin.ext
  match a with
  | ⟨0, _⟩ => show win2_0.index t (0 : Fin 2) * 400 + 1 * p.val = r.val; rw [e0, e]; omega
  | ⟨1, _⟩ => show win2_0.index t (1 : Fin 2) * 10000 + 1 * j.val = j.val; rw [e1]; omega

/-- Window 1's block at every point is its whole array. -/
theorem iblk2_1_eq (c : Dev nD) (t : Fin cfg2.N) :
    (iblk2 (F := Ideal) V c 1 t : Vec Ideal S10000x64 .f32) = V c (Pipeline.arrRef spec2 1) := by
  have h := idx2 t
  funext y
  unfold iblk2
  show V c (Pipeline.arrRef spec2 1) (((cfg2.win 1).blk t).view.emb y) = V c (Pipeline.arrRef spec2 1) y
  refine congrArg _ ?_
  funext a
  apply Fin.ext
  match a with
  | ⟨0, _⟩ => show win2_1.index t (0 : Fin 2) * 10000 + 1 * (y 0).val = (y 0).val; omega
  | ⟨1, _⟩ => show win2_1.index t (1 : Fin 2) * 64 + 1 * (y 1).val = (y 1).val; omega

/-- Window 2's block at every point is its whole array. -/
theorem iblk2_2_eq (c : Dev nD) (t : Fin cfg2.N) :
    (iblk2 (F := Ideal) V c 2 t : Vec Ideal S1x64 .f32) = V c (Pipeline.arrRef spec2 2) := by
  have h := idx2 t
  funext y
  unfold iblk2
  show V c (Pipeline.arrRef spec2 2) (((cfg2.win 2).blk t).view.emb y) = V c (Pipeline.arrRef spec2 2) y
  refine congrArg _ ?_
  funext a
  apply Fin.ext
  match a with
  | ⟨0, _⟩ => show win2_2.index t (0 : Fin 2) * 1 + 1 * (y 0).val = (y 0).val; omega
  | ⟨1, _⟩ => show win2_2.index t (1 : Fin 2) * 64 + 1 * (y 1).val = (y 1).val; omega

/-- Window 3's block at every point is its whole array. -/
theorem iblk2_3_eq (c : Dev nD) (t : Fin cfg2.N) :
    (iblk2 (F := Ideal) V c 3 t : Vec Ideal S64x64 .f32) = V c (Pipeline.arrRef spec2 3) := by
  have h := idx2 t
  funext y
  unfold iblk2
  show V c (Pipeline.arrRef spec2 3) (((cfg2.win 3).blk t).view.emb y) = V c (Pipeline.arrRef spec2 3) y
  refine congrArg _ ?_
  funext a
  apply Fin.ext
  match a with
  | ⟨0, _⟩ => show win2_3.index t (0 : Fin 2) * 64 + 1 * (y 0).val = (y 0).val; omega
  | ⟨1, _⟩ => show win2_3.index t (1 : Fin 2) * 64 + 1 * (y 1).val = (y 1).val; omega

/-- Window 4's block at every point is its whole array. -/
theorem iblk2_4_eq (c : Dev nD) (t : Fin cfg2.N) :
    (iblk2 (F := Ideal) V c 4 t : Vec Ideal S1x64 .f32) = V c (Pipeline.arrRef spec2 4) := by
  have h := idx2 t
  funext y
  unfold iblk2
  show V c (Pipeline.arrRef spec2 4) (((cfg2.win 4).blk t).view.emb y) = V c (Pipeline.arrRef spec2 4) y
  refine congrArg _ ?_
  funext a
  apply Fin.ext
  match a with
  | ⟨0, _⟩ => show win2_4.index t (0 : Fin 2) * 1 + 1 * (y 0).val = (y 0).val; omega
  | ⟨1, _⟩ => show win2_4.index t (1 : Fin 2) * 64 + 1 * (y 1).val = (y 1).val; omega

/-- Window 5's block at every point is its whole array. -/
theorem iblk2_5_eq (c : Dev nD) (t : Fin cfg2.N) :
    (iblk2 (F := Ideal) V c 5 t : Vec Ideal S64x128 .f32) = V c (Pipeline.arrRef spec2 5) := by
  have h := idx2 t
  funext y
  unfold iblk2
  show V c (Pipeline.arrRef spec2 5) (((cfg2.win 5).blk t).view.emb y) = V c (Pipeline.arrRef spec2 5) y
  refine congrArg _ ?_
  funext a
  apply Fin.ext
  match a with
  | ⟨0, _⟩ => show win2_5.index t (0 : Fin 2) * 64 + 1 * (y 0).val = (y 0).val; omega
  | ⟨1, _⟩ => show win2_5.index t (1 : Fin 2) * 128 + 1 * (y 1).val = (y 1).val; omega

/-- Window 6's block at every point is its whole array. -/
theorem iblk2_6_eq (c : Dev nD) (t : Fin cfg2.N) :
    (iblk2 (F := Ideal) V c 6 t : Vec Ideal S1x128 .f32) = V c (Pipeline.arrRef spec2 6) := by
  have h := idx2 t
  funext y
  unfold iblk2
  show V c (Pipeline.arrRef spec2 6) (((cfg2.win 6).blk t).view.emb y) = V c (Pipeline.arrRef spec2 6) y
  refine congrArg _ ?_
  funext a
  apply Fin.ext
  match a with
  | ⟨0, _⟩ => show win2_6.index t (0 : Fin 2) * 1 + 1 * (y 0).val = (y 0).val; omega
  | ⟨1, _⟩ => show win2_6.index t (1 : Fin 2) * 128 + 1 * (y 1).val = (y 1).val; omega

/-- Window 7's block at every point is its whole array. -/
theorem iblk2_7_eq (c : Dev nD) (t : Fin cfg2.N) :
    (iblk2 (F := Ideal) V c 7 t : Vec Ideal S64x64 .f32) = V c (Pipeline.arrRef spec2 7) := by
  have h := idx2 t
  funext y
  unfold iblk2
  show V c (Pipeline.arrRef spec2 7) (((cfg2.win 7).blk t).view.emb y) = V c (Pipeline.arrRef spec2 7) y
  refine congrArg _ ?_
  funext a
  apply Fin.ext
  match a with
  | ⟨0, _⟩ => show win2_7.index t (0 : Fin 2) * 64 + 1 * (y 0).val = (y 0).val; omega
  | ⟨1, _⟩ => show win2_7.index t (1 : Fin 2) * 64 + 1 * (y 1).val = (y 1).val; omega

/-- Window 8's block at every point is its whole array. -/
theorem iblk2_8_eq (c : Dev nD) (t : Fin cfg2.N) :
    (iblk2 (F := Ideal) V c 8 t : Vec Ideal S1x64 .f32) = V c (Pipeline.arrRef spec2 8) := by
  have h := idx2 t
  funext y
  unfold iblk2
  show V c (Pipeline.arrRef spec2 8) (((cfg2.win 8).blk t).view.emb y) = V c (Pipeline.arrRef spec2 8) y
  refine congrArg _ ?_
  funext a
  apply Fin.ext
  match a with
  | ⟨0, _⟩ => show win2_8.index t (0 : Fin 2) * 1 + 1 * (y 0).val = (y 0).val; omega
  | ⟨1, _⟩ => show win2_8.index t (1 : Fin 2) * 64 + 1 * (y 1).val = (y 1).val; omega

end Cert.KernelIdeal.RegionValue
end
-- ==== Proof.Region2.lean ====
/-
  The second pass over the adjacency, block of rows by block of rows: the four result arrays after all 25 points.

  Point t leaves rows 400·t, …, 400·t + 399 of each result, computed from rows 400·t, … of the adjacency and the
  whole of every other array; those rows are the same rows of the whole-array function (the columns 0–31 and
  32–63 of e = A · h + b, the decoder of e, the linear map of e). Row r of a result lies in the block of point
  r / 400, so the 25 blocks fill each result array.
-/
import proofs.«178206_g36112085024797_cont_8to1_b_1395_2_alg».proof.Proof.Spec
import proofs.«178206_g36112085024797_cont_8to1_b_1395_2_alg».proof.Proof.LibRowBlocks
import proofs.«178206_g36112085024797_cont_8to1_b_1395_2_alg».proof.Proof.Gen.KernelIdeal.Frame
import proofs.«178206_g36112085024797_cont_8to1_b_1395_2_alg».proof.Proof.Region1
import proofs.«178206_g36112085024797_cont_8to1_b_1395_2_alg».proof.Proof.Region2Blocks
import Idealize.ShloMosaic.PureOps.Ideal
import Idealize.ShloMosaic.Lib.Pipeline.Value

set_option maxRecDepth 16384
noncomputable section

namespace Cert.KernelIdeal.RegionValue
open Idealize.ShloMosaic Idealize.ShloMosaic.TcCoe Idealize.SL.Sem Cert.KernelIdeal Cert.KernelIdeal.Gen
open Idealize.ShloMosaic.ValueIdx
open Cert.MatProduct (prod rowOf colOf)
open Cert.RowBias (addRow addRowMax)
open Cert.Bridge (RowsAt)

/-- Window 11 at a point, over any blocks: if the first block holds the rows of A from row o and the others are the whole
    arrays, what the point leaves holds the same rows of the decoder of the whole second pass. -/
theorem point2_11 {o : ℕ} (A : Cert.Spec.Mat 10000 10000) (h2 : Cert.Spec.Mat 10000 64) (b : Cert.Spec.Mat 1 64) (dw1 : Cert.Spec.Mat 64 64) (db1 : Cert.Spec.Mat 1 64) (dw2 : Cert.Spec.Mat 64 128) (db2 : Cert.Spec.Mat 1 128)
    (x0 : Vec Ideal S400x10000 .f32) (x1 : Vec Ideal S10000x64 .f32) (x2 : Vec Ideal S1x64 .f32) (x3 : Vec Ideal S64x64 .f32) (x4 : Vec Ideal S1x64 .f32) (x5 : Vec Ideal S64x128 .f32) (x6 : Vec Ideal S1x128 .f32) (x7 : Vec Ideal S64x64 .f32) (x8 : Vec Ideal S1x64 .f32)
    (h0 : RowsAt o x0 A) (e1 : x1 = h2) (e2 : x2 = b) (e3 : x3 = dw1) (e4 : x4 = db1) (e5 : x5 = dw2) (e6 : x6 = db2) :
    RowsAt o (out2_11 (F := Ideal) x0 x1 x2 x3 x4 x5 x6 x7 x8)
      (addRow (prod (addRowMax (prod (Cert.Spec.pass2 A h2 b) dw1) db1 0) dw2) db2) := by
  subst e1 e2 e3 e4 e5 e6
  unfold out2_11
  rw [View.canon_unit_zero hz]
  simp only [View.ld_unit_zero (S := S400x10000) hz, View.ld_unit_zero (S := S10000x64) hz, View.ld_unit_zero (S := S1x64) hz, View.ld_unit_zero (S := S64x64) hz, View.ld_unit_zero (S := S64x128) hz, View.ld_unit_zero (S := S1x128) hz]
  rw [pay2_5]
  exact block2_d A x1 x2 x0 h0 x3 x4 x5 x6

variable (V : (c : Dev nD) → (b : Ref sig .tc) → Buf (Elt Ideal) ((c : Thread nD τ).loc b))

/-- region 2's shared intermediate -/
abbrev e2 (c : Dev nD) : Cert.Spec.Mat 10000 64 :=
  Cert.Spec.pass2 (V c (Pipeline.arrRef spec2 0)) (V c (Pipeline.arrRef spec2 1)) (V c (Pipeline.arrRef spec2 2))

/-- What point t writes back to window 9's array is block t of the whole-array function. -/
theorem flushed2_9 (c : Dev nD) (t : Fin cfg2.N) :
    (dat2 (F := Ideal) V c).flushed 9 t = ((cfg2.win 9).blk t).view.read (Elt Ideal) (Cert.Spec.cols 0 32 (by norm_num) (e2 V c)) := by
  show (cfg2.win 9).cut (grid2.coords t) ((dat2 V c).after 9 t) = _
  rw [after2_9]
  unfold out2_9
  rw [View.canon_unit_zero hz]
  simp only [View.ld_unit_zero (S := S400x10000) hz, View.ld_unit_zero (S := S10000x64) hz, View.ld_unit_zero (S := S1x64) hz, View.ld_unit_zero (S := S64x64) hz, View.ld_unit_zero (S := S64x128) hz, View.ld_unit_zero (S := S1x128) hz]
  rw [pay2_3, iblk2_1_eq, iblk2_2_eq]
  have h := idx2 t
  have ht : t.val < 25 := lt_of_lt_of_eq t.isLt N_2
  funext y
  obtain ⟨p, q, rfl⟩ : ∃ (p : Fin 400) (q : Fin 32), y = ix2 p q := ⟨rowOf y, colOf y, eq_ix2 y⟩
  refine ((rowsAt_cols 0 (by norm_num) (block2_e _ _ _ _ (iblk2_0_rows V c t))) p ⟨400 * t.val + p.val, by have := p.isLt; omega⟩ q rfl).trans ?_
  show (Cert.Spec.cols 0 32 (by norm_num) (e2 V c)) _ = (Cert.Spec.cols 0 32 (by norm_num) (e2 V c)) (((cfg2.win 9).blk t).view.emb (ix2 p q))
  refine congrArg _ ?_
  funext a
  apply Fin.ext
  match a with
  | ⟨0, _⟩ => show 400 * t.val + p.val = win2_9.index t (0 : Fin 2) * 400 + 1 * p.val; omega
  | ⟨1, _⟩ => show q.val = win2_9.index t (1 : Fin 2) * 32 + 1 * q.val; omega

/-- An entry of window 9's array is in point t's block iff each coordinate is in the block's range on its axis. -/
theorem mem_blk2_9 (t : Fin cfg2.N) (i : S10000x32.Idx) :
    i ∈ ((cfg2.win 9).blk t).view.set ↔ ∀ a : Fin 2, win2_9.index t a * S400x32.size a ≤ (i a).val ∧ (i a).val < win2_9.index t a * S400x32.size a + S400x32.size a := by
  show i ∈ ((View.whole main_v0_0).slice (win2_9.rect t)).set ↔ _
  rw [View.set_slice_whole, Rect.mem_set_unit]
  exact Iff.rfl

/-- Row r of window 9's array lies in the block of point r / 400. -/
theorem covered2_9 (i : S10000x32.Idx) : ∃ t : Fin cfg2.N, (cfg2.win 9).flush t = true ∧ i ∈ ((cfg2.win 9).blk t).view.set := by
  have hi0 : (i 0).val < 10000 := (i 0).isLt
  have hi1 : (i 1).val < 32 := (i 1).isLt
  have hN : (i 0).val / 400 < cfg2.N := lt_of_lt_of_eq (by omega : (i 0).val / 400 < 25) N_2.symm
  have h := idx2 ⟨(i 0).val / 400, hN⟩
  have e0' : win2_9.index ⟨(i 0).val / 400, hN⟩ (0 : Fin 2) = (i 0).val / 400 := by
    obtain ⟨-, -, -, -, -, -, -, -, -, -, -, -, -, -, -, -, -, -, e, -⟩ := h; exact e
  refine ⟨⟨(i 0).val / 400, hN⟩, flush2_9 _, ?_⟩
  rw [mem_blk2_9]
  intro a
  match a with
  | ⟨0, _⟩ => show win2_9.index ⟨(i 0).val / 400, hN⟩ (0 : Fin 2) * 400 ≤ (i 0).val ∧ (i 0).val < win2_9.index ⟨(i 0).val / 400, hN⟩ (0 : Fin 2) * 400 + 400; omega
  | ⟨1, _⟩ => show win2_9.index ⟨(i 0).val / 400, hN⟩ (1 : Fin 2) * 32 ≤ (i 1).val ∧ (i 1).val < win2_9.index ⟨(i 0).val / 400, hN⟩ (1 : Fin 2) * 32 + 32; omega

/-- After the 25 points window 9's array is the whole-array function of the region's input arrays. -/
theorem arr2_9 (c : Dev nD) : (dat2 (F := Ideal) V c).arrAt 9 cfg2.N = Cert.Spec.cols 0 32 (by norm_num) (e2 V c) :=
  (dat2 V c).arrAt_eq_of_cover 9 _ (fun t _ => flushed2_9 V c t) covered2_9

/-- What point t writes back to window 10's array is block t of the whole-array function. -/
theorem flushed2_10 (c : Dev nD) (t : Fin cfg2.N) :
    (dat2 (F := Ideal) V c).flushed 10 t = ((cfg2.win 10).blk t).view.read (Elt Ideal) (Cert.Spec.cols 32 32 (by norm_num) (e2 V c)) := by
  show (cfg2.win 10).cut (grid2.coords t) ((dat2 V c).after 10 t) = _
  rw [after2_10]
  unfold out2_10
  rw [View.canon_unit_zero hz]
  simp only [View.ld_unit_zero (S := S400x10000) hz, View.ld_unit_zero (S := S10000x64) hz, View.ld_unit_zero (S := S1x64) hz, View.ld_unit_zero (S := S64x64) hz, View.ld_unit_zero (S := S64x128) hz, View.ld_unit_zero (S := S1x128) hz]
  rw [pay2_4, iblk2_1_eq, iblk2_2_eq]
  have h := idx2 t
  have ht : t.val < 25 := lt_of_lt_of_eq t.isLt N_2
  funext y
  obtain ⟨p, q, rfl⟩ : ∃ (p : Fin 400) (q : Fin 32), y = ix2 p q := ⟨rowOf y, colOf y, eq_ix2 y⟩
  refine ((rowsAt_cols 32 (by norm_num) (block2_e _ _ _ _ (iblk2_0_rows V c t))) p ⟨400 * t.val + p.val, by have := p.isLt; omega⟩ q rfl).trans ?_
  show (Cert.Spec.cols 32 32 (by norm_num) (e2 V c)) _ = (Cert.Spec.cols 32 32 (by norm_num) (e2 V c)) (((cfg2.win 10).blk t).view.emb (ix2 p q))
  refine congrArg _ ?_
  funext a
  apply Fin.ext
  match a with
  | ⟨0, _⟩ => show 400 * t.val + p.val = win2_10.index t (0 : Fin 2) * 400 + 1 * p.val; omega
  | ⟨1, _⟩ => show q.val = win2_10.index t (1 : Fin 2) * 32 + 1 * q.val; omega

/-- An entry of window 10's array is in point t's block iff each coordinate is in the block's range on its axis. -/
theorem mem_blk2_10 (t : Fin cfg2.N) (i : S10000x32.Idx) :
    i ∈ ((cfg2.win 10).blk t).view.set ↔ ∀ a : Fin 2, win2_10.index t a * S400x32.size a ≤ (i a).val ∧ (i a).val < win2_10.index t a * S400x32.size a + S400x32.size a := by
  show i ∈ ((View.whole main_v0_1).slice (win2_10.rect t)).set ↔ _
  rw [View.set_slice_whole, Rect.mem_set_unit]
  exact Iff.rfl

/-- Row r of window 10's array lies in the block of point r / 400. -/
theorem covered2_10 (i : S10000x32.Idx) : ∃ t : Fin cfg2.N, (cfg2.win 10).flush t = true ∧ i ∈ ((cfg2.win 10).blk t).view.set := by
  have hi0 : (i 0).val < 10000 := (i 0).isLt
  have hi1 : (i 1).val < 32 := (i 1).isLt
  have hN : (i 0).val / 400 < cfg2.N := lt_of_lt_of_eq (by omega : (i 0).val / 400 < 25) N_2.symm
  have h := idx2 ⟨(i 0).val / 400, hN⟩
  have e0' : win2_10.index ⟨(i 0).val / 400, hN⟩ (0 : Fin 2) = (i 0).val / 400 := by
    obtain ⟨-, -, -, -, -, -, -, -, -, -, -, -, -, -, -, -, -, -, -, -, e, -⟩ := h; exact e
  refine ⟨⟨(i 0).val / 400, hN⟩, flush2_10 _, ?_⟩
  rw [mem_blk2_10]
  intro a
  match a with
  | ⟨0, _⟩ => show win2_10.index ⟨(i 0).val / 400, hN⟩ (0 : Fin 2) * 400 ≤ (i 0).val ∧ (i 0).val < win2_10.index ⟨(i 0).val / 400, hN⟩ (0 : Fin 2) * 400 + 400; omega
  | ⟨1, _⟩ => show win2_10.index ⟨(i 0).val / 400, hN⟩ (1 : Fin 2) * 32 ≤ (i 1).val ∧ (i 1).val < win2_10.index ⟨(i 0).val / 400, hN⟩ (1 : Fin 2) * 32 + 32; omega

/-- After the 25 points window 10's array is the whole-array function of the region's input arrays. -/
theorem arr2_10 (c : Dev nD) : (dat2 (F := Ideal) V c).arrAt 10 cfg2.N = Cert.Spec.cols 32 32 (by norm_num) (e2 V c) :=
  (dat2 V c).arrAt_eq_of_cover 10 _ (fun t _ => flushed2_10 V c t) covered2_10

/-- What point t writes back to window 11's array is block t of the whole-array function. -/
theorem flushed2_11 (c : Dev nD) (t : Fin cfg2.N) :
    (dat2 (F := Ideal) V c).flushed 11 t = ((cfg2.win 11).blk t).view.read (Elt Ideal) (addRow (prod (addRowMax (prod (e2 V c) (V c (Pipeline.arrRef spec2 3))) (V c (Pipeline.arrRef spec2 4)) 0) (V c (Pipeline.arrRef spec2 5))) (V c (Pipeline.arrRef spec2 6))) := by
  show (cfg2.win 11).cut (grid2.coords t) ((dat2 V c).after 11 t) = _
  rw [after2_11]
  have h := idx2 t
  have ht : t.val < 25 := lt_of_lt_of_eq t.isLt N_2
  funext y
  obtain ⟨p, q, rfl⟩ : ∃ (p : Fin 400) (q : Fin 128), y = ix2 p q := ⟨rowOf y, colOf y, eq_ix2 y⟩
  refine ((point2_11 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (iblk2 V c 0 t) (iblk2 V c 1 t) (iblk2 V c 2 t) (iblk2 V c 3 t) (iblk2 V c 4 t) (iblk2 V c 5 t) (iblk2 V c 6 t) (iblk2 V c 7 t) (iblk2 V c 8 t)
    (iblk2_0_rows V c t) (iblk2_1_eq V c t) (iblk2_2_eq V c t) (iblk2_3_eq V c t) (iblk2_4_eq V c t) (iblk2_5_eq V c t) (iblk2_6_eq V c t)) p ⟨400 * t.val + p.val, by have := p.isLt; omega⟩ q rfl).trans ?_
  show (addRow (prod (addRowMax (prod (e2 V c) (V c (Pipeline.arrRef spec2 3))) (V c (Pipeline.arrRef spec2 4)) 0) (V c (Pipeline.arrRef spec2 5))) (V c (Pipeline.arrRef spec2 6))) _ = (addRow (prod (addRowMax (prod (e2 V c) (V c (Pipeline.arrRef spec2 3))) (V c (Pipeline.arrRef spec2 4)) 0) (V c (Pipeline.arrRef spec2 5))) (V c (Pipeline.arrRef spec2 6))) (((cfg2.win 11).blk t).view.emb (ix2 p q))
  refine congrArg _ ?_
  funext a
  apply Fin.ext
  match a with
  | ⟨0, _⟩ => show 400 * t.val + p.val = win2_11.index t (0 : Fin 2) * 400 + 1 * p.val; omega
  | ⟨1, _⟩ => show q.val = win2_11.index t (1 : Fin 2) * 128 + 1 * q.val; omega

/-- An entry of window 11's array is in point t's block iff each coordinate is in the block's range on its axis. -/
theorem mem_blk2_11 (t : Fin cfg2.N) (i : S10000x128.Idx) :
    i ∈ ((cfg2.win 11).blk t).view.set ↔ ∀ a : Fin 2, win2_11.index t a * S400x128.size a ≤ (i a).val ∧ (i a).val < win2_11.index t a * S400x128.size a + S400x128.size a := by
  show i ∈ ((View.whole main_v0_2).slice (win2_11.rect t)).set ↔ _
  rw [View.set_slice_whole, Rect.mem_set_unit]
  exact Iff.rfl

/-- Row r of window 11's array lies in the block of point r / 400. -/
theorem covered2_11 (i : S10000x128.Idx) : ∃ t : Fin cfg2.N, (cfg2.win 11).flush t = true ∧ i ∈ ((cfg2.win 11).blk t).view.set := by
  have hi0 : (i 0).val < 10000 := (i 0).isLt
  have hi1 : (i 1).val < 128 := (i 1).isLt
  have hN : (i 0).val / 400 < cfg2.N := lt_of_lt_of_eq (by omega : (i 0).val / 400 < 25) N_2.symm
  have h := idx2 ⟨(i 0).val / 400, hN⟩
  have e0' : win2_11.index ⟨(i 0).val / 400, hN⟩ (0 : Fin 2) = (i 0).val / 400 := by
    obtain ⟨-, -, -, -, -, -, -, -, -, -, -, -, -, -, -, -, -, -, -, -, -, -, e, -⟩ := h; exact e
  refine ⟨⟨(i 0).val / 400, hN⟩, flush2_11 _, ?_⟩
  rw [mem_blk2_11]
  intro a
  match a with
  | ⟨0, _⟩ => show win2_11.index ⟨(i 0).val / 400, hN⟩ (0 : Fin 2) * 400 ≤ (i 0).val ∧ (i 0).val < win2_11.index ⟨(i 0).val / 400, hN⟩ (0 : Fin 2) * 400 + 400; omega
  | ⟨1, _⟩ => show win2_11.index ⟨(i 0).val / 400, hN⟩ (1 : Fin 2) * 128 ≤ (i 1).val ∧ (i 1).val < win2_11.index ⟨(i 0).val / 400, hN⟩ (1 : Fin 2) * 128 + 128; omega

/-- After the 25 points window 11's array is the whole-array function of the region's input arrays. -/
theorem arr2_11 (c : Dev nD) : (dat2 (F := Ideal) V c).arrAt 11 cfg2.N =
    addRow (prod (addRowMax (prod (e2 V c) (V c (Pipeline.arrRef spec2 3))) (V c (Pipeline.arrRef spec2 4)) 0) (V c (Pipeline.arrRef spec2 5))) (V c (Pipeline.arrRef spec2 6)) :=
  (dat2 V c).arrAt_eq_of_cover 11 _ (fun t _ => flushed2_11 V c t) covered2_11

/-- What point t writes back to window 12's array is block t of the whole-array function. -/
theorem flushed2_12 (c : Dev nD) (t : Fin cfg2.N) :
    (dat2 (F := Ideal) V c).flushed 12 t = ((cfg2.win 12).blk t).view.read (Elt Ideal) (addRow (prod (e2 V c) (V c (Pipeline.arrRef spec2 7))) (V c (Pipeline.arrRef spec2 8))) := by
  show (cfg2.win 12).cut (grid2.coords t) ((dat2 V c).after 12 t) = _
  rw [after2_12]
  unfold out2_12
  rw [View.canon_unit_zero hz]
  simp only [View.ld_unit_zero (S := S400x10000) hz, View.ld_unit_zero (S := S10000x64) hz, View.ld_unit_zero (S := S1x64) hz, View.ld_unit_zero (S := S64x64) hz, View.ld_unit_zero (S := S64x128) hz, View.ld_unit_zero (S := S1x128) hz]
  rw [pay2_1, pay2_e, iblk2_1_eq, iblk2_2_eq, iblk2_7_eq, iblk2_8_eq]
  have h := idx2 t
  have ht : t.val < 25 := lt_of_lt_of_eq t.isLt N_2
  funext y
  obtain ⟨p, q, rfl⟩ : ∃ (p : Fin 400) (q : Fin 64), y = ix2 p q := ⟨rowOf y, colOf y, eq_ix2 y⟩
  refine ((block2_z (V c (Pipeline.arrRef spec2 0)) (V c (Pipeline.arrRef spec2 1)) (V c (Pipeline.arrRef spec2 2)) (iblk2 V c 0 t) (iblk2_0_rows V c t) (V c (Pipeline.arrRef spec2 7)) (V c (Pipeline.arrRef spec2 8))) p ⟨400 * t.val + p.val, by have := p.isLt; omega⟩ q rfl).trans ?_
  show (addRow (prod (e2 V c) (V c (Pipeline.arrRef spec2 7))) (V c (Pipeline.arrRef spec2 8))) _ = (addRow (prod (e2 V c) (V c (Pipeline.arrRef spec2 7))) (V c (Pipeline.arrRef spec2 8))) (((cfg2.win 12).blk t).view.emb (ix2 p q))
  refine congrArg _ ?_
  funext a
  apply Fin.ext
  match a with
  | ⟨0, _⟩ => show 400 * t.val + p.val = win2_12.index t (0 : Fin 2) * 400 + 1 * p.val; omega
  | ⟨1, _⟩ => show q.val = win2_12.index t (1 : Fin 2) * 64 + 1 * q.val; omega

/-- An entry of window 12's array is in point t's block iff each coordinate is in the block's range on its axis. -/
theorem mem_blk2_12 (t : Fin cfg2.N) (i : S10000x64.Idx) :
    i ∈ ((cfg2.win 12).blk t).view.set ↔ ∀ a : Fin 2, win2_12.index t a * S400x64.size a ≤ (i a).val ∧ (i a).val < win2_12.index t a * S400x64.size a + S400x64.size a := by
  show i ∈ ((View.whole main_call0_v24_3).slice (win2_12.rect t)).set ↔ _
  rw [View.set_slice_whole, Rect.mem_set_unit]
  exact Iff.rfl

/-- Row r of window 12's array lies in the block of point r / 400. -/
theorem covered2_12 (i : S10000x64.Idx) : ∃ t : Fin cfg2.N, (cfg2.win 12).flush t = true ∧ i ∈ ((cfg2.win 12).blk t).view.set := by
  have hi0 : (i 0).val < 10000 := (i 0).isLt
  have hi1 : (i 1).val < 64 := (i 1).isLt
  have hN : (i 0).val / 400 < cfg2.N := lt_of_lt_of_eq (by omega : (i 0).val / 400 < 25) N_2.symm
  have h := idx2 ⟨(i 0).val / 400, hN⟩
  have e0' : win2_12.index ⟨(i 0).val / 400, hN⟩ (0 : Fin 2) = (i 0).val / 400 := by
    obtain ⟨-, -, -, -, -, -, -, -, -, -, -, -, -, -, -, -, -, -, -, -, -, -, -, -, e, -⟩ := h; exact e
  refine ⟨⟨(i 0).val / 400, hN⟩, flush2_12 _, ?_⟩
  rw [mem_blk2_12]
  intro a
  match a with
  | ⟨0, _⟩ => show win2_12.index ⟨(i 0).val / 400, hN⟩ (0 : Fin 2) * 400 ≤ (i 0).val ∧ (i 0).val < win2_12.index ⟨(i 0).val / 400, hN⟩ (0 : Fin 2) * 400 + 400; omega
  | ⟨1, _⟩ => show win2_12.index ⟨(i 0).val / 400, hN⟩ (1 : Fin 2) * 64 ≤ (i 1).val ∧ (i 1).val < win2_12.index ⟨(i 0).val / 400, hN⟩ (1 : Fin 2) * 64 + 64; omega

/-- After the 25 points window 12's array is the whole-array function of the region's input arrays. -/
theorem arr2_12 (c : Dev nD) : (dat2 (F := Ideal) V c).arrAt 12 cfg2.N = addRow (prod (e2 V c) (V c (Pipeline.arrRef spec2 7))) (V c (Pipeline.arrRef spec2 8)) :=
  (dat2 V c).arrAt_eq_of_cover 12 _ (fun t _ => flushed2_12 V c t) covered2_12

end Cert.KernelIdeal.RegionValue
end
-- ==== Proof.HostScatter.lean ====
import proofs.«178206_g36112085024797_cont_8to1_b_1395_2_alg».proof.Proof.KernelKeep
import proofs.«178206_g36112085024797_cont_8to1_b_1395_2_alg».proof.Proof.Algebra
import proofs.«178206_g36112085024797_cont_8to1_b_1395_2_alg».proof.Proof.LibJoins
import proofs.«178206_g36112085024797_cont_8to1_b_1395_2_alg».proof.Proof.LibScatterRowBlock
import proofs.«178206_g36112085024797_cont_8to1_b_1395_2_alg».proof.Proof.LibTRef
import Idealize.ShloMosaic.Lib.StableHlo.Run
import Idealize.ShloMosaic.PureOps.Ideal.Laws

set_option maxRecDepth 16384

noncomputable section

/-
  Zero matrices with weight matrices written into them by the host, read entry by entry.

  Before the first kernel region the host builds three matrices: a zero [128,64] matrix with the second layer's
  [64,32] weights written at its upper-left and at its lower-right block; a zero [64,64] matrix with a [32,64] weight
  matrix written over its upper rows; and a zero [64,64] matrix with a [32,64] weight matrix written over its lower rows.
  Each write puts update entry (a, b) at (o0 + a, o1 + b) for a start (o0, o1) held as a small integer vector; an entry
  inside the written range is the weight's entry, an entry no write reaches is the zero it started as.
-/
namespace Cert.KernelIdeal.KValue

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg)

/-! ## A write read at an entry, for the dimension records the program prints -/

/-- A block written into a matrix at a two-component start, read at an entry. -/
theorem scatter_block_at {α : Type} {M N m' n' w : ℕ} (d : ScatterDims ⟨2, ![M, N]⟩ ⟨1, ![2]⟩ ⟨2, ![m', n']⟩)
    (wf : ScatterDims.WF ⟨2, ![M, N]⟩ ⟨1, ![2]⟩ ⟨2, ![m', n']⟩ [0, 1] [] [0, 1] 0) (hd : d = Cert.LibScatterBlock.blockDims M N m' n' wf)
    (x : (⟨2, ![M, N]⟩ : Shape).Idx → α) (idx : IVec ⟨1, ![2]⟩ w) (upd : (⟨2, ![m', n']⟩ : Shape).Idx → α) (o0 o1 : ℕ)
    (h0 : (idx (ix1 (0 : Fin 2))).toInt = (o0 : Int)) (h1 : (idx (ix1 (1 : Fin 2))).toInt = (o1 : Int)) (r : Fin M) (c : Fin N) :
    Host.scatter d (fun _ b => b) x idx upd (ix2 r c)
      = if h : o0 ≤ r.val ∧ r.val < o0 + m' ∧ o1 ≤ c.val ∧ c.val < o1 + n' then
          upd (ix2 ⟨r.val - o0, by omega⟩ ⟨c.val - o1, by omega⟩)
        else x (ix2 r c) := by
  subst hd
  exact Cert.LibScatterBlock.scatter_block_apply wf x idx upd o0 o1 h0 h1 r c

/-- Rows written into a matrix at a one-component start (a row), read at an entry. -/
theorem scatter_rows_at {α : Type} {M N m' n' w : ℕ} (d : ScatterDims ⟨2, ![M, N]⟩ ⟨1, ![1]⟩ ⟨2, ![m', n']⟩)
    (wf : ScatterDims.WF ⟨2, ![M, N]⟩ ⟨1, ![1]⟩ ⟨2, ![m', n']⟩ [0, 1] [] [0] 0) (hd : d = Cert.LibScatterRowBlock.rowBlockDims M N m' n' wf)
    (x : (⟨2, ![M, N]⟩ : Shape).Idx → α) (idx : IVec ⟨1, ![1]⟩ w) (upd : (⟨2, ![m', n']⟩ : Shape).Idx → α) (o0 : ℕ)
    (h0 : (idx (ix1 (0 : Fin 1))).toInt = (o0 : Int)) (r : Fin M) (c : Fin N) :
    Host.scatter d (fun _ b => b) x idx upd (ix2 r c)
      = if h : o0 ≤ r.val ∧ r.val < o0 + m' ∧ 0 ≤ c.val ∧ c.val < 0 + n' then
          upd (ix2 ⟨r.val - o0, by omega⟩ ⟨c.val - 0, by omega⟩)
        else x (ix2 r c) := by
  subst hd
  exact Cert.LibScatterRowBlock.scatter_rowBlock_apply wf x idx upd o0 0 h0 rfl r c

/-- Two one-entry integer vectors joined end to end: the first component is the first vector's entry. -/
theorem start_fst (a b : IVec S1 32) :
    concatenate S2 0 [⟨S1, a⟩, ⟨S1, b⟩] concatenates_S1_S1_S2_d0 (ix1 (0 : Fin 2)) = a (ix1 (0 : Fin 1)) :=
  Cert.Joins.join_vec_left (n1 := 1) (n2 := 1) a b concatenates_S1_S1_S2_d0 (0 : Fin 2) (0 : Fin 1) rfl

/-- … and the second component is the second vector's entry. -/
theorem start_snd (a b : IVec S1 32) :
    concatenate S2 0 [⟨S1, a⟩, ⟨S1, b⟩] concatenates_S1_S1_S2_d0 (ix1 (1 : Fin 2)) = b (ix1 (0 : Fin 1)) :=
  Cert.Joins.join_vec_right (n1 := 1) (n2 := 1) a b concatenates_S1_S1_S2_d0 (1 : Fin 2) (0 : Fin 1) rfl

/-! ## The buffers' contents through their typed references -/

theorem toBuf_v10 (y : Mat 128 64) :
    ((StableHlo.TRef.of main_call0_v10 : StableHlo.TRef sig ⟨S128x64, .f32⟩).toBuf (Val := Elt Ideal) y : Mat 128 64) = y := rfl
theorem toBuf_v15 (y : Mat 64 64) :
    ((StableHlo.TRef.of main_call0_v15 : StableHlo.TRef sig ⟨S64x64, .f32⟩).toBuf (Val := Elt Ideal) y : Mat 64 64) = y := rfl
theorem toBuf_v18 (y : Mat 64 64) :
    ((StableHlo.TRef.of main_call0_v18 : StableHlo.TRef sig ⟨S64x64, .f32⟩).toBuf (Val := Elt Ideal) y : Mat 64 64) = y := rfl

theorem ofBuf_arg5 (c : Dev nD) :
    ((StableHlo.TRef.of main_arg5 : StableHlo.TRef sig ⟨S64x32, .f32⟩).ofBuf (W0 m ρ c (Proc.devRef .tc main_arg5)) : Mat 64 32)
      = m ((c : Thread nD τ).loc main_arg5) := rfl
theorem ofBuf_arg7 (c : Dev nD) :
    ((StableHlo.TRef.of main_arg7 : StableHlo.TRef sig ⟨S32x64, .f32⟩).ofBuf (W0 m ρ c (Proc.devRef .tc main_arg7)) : Mat 32 64)
      = m ((c : Thread nD τ).loc main_arg7) := rfl
theorem ofBuf_arg11 (c : Dev nD) :
    ((StableHlo.TRef.of main_arg11 : StableHlo.TRef sig ⟨S32x64, .f32⟩).ofBuf (W0 m ρ c (Proc.devRef .tc main_arg11)) : Mat 32 64)
      = m ((c : Thread nD τ).loc main_arg11) := rfl

/-! ## The three matrices read at an entry -/

/-- The zero [128,64] matrix with the [64,32] weights written at (0,0) and then at (64,32). -/
theorem w2c_read (c : Dev nD) (l : Fin 128) (j : Fin 64) :
    (W1 m ρ c (Proc.devRef .tc main_call0_v10) : Mat 128 64) (ix2 l j)
      = if h : 64 ≤ l.val ∧ l.val < 64 + 64 ∧ 32 ≤ j.val ∧ j.val < 32 + 32 then
          (m ((c : Thread nD τ).loc main_arg5) : Mat 64 32) (ix2 ⟨l.val - 64, by omega⟩ ⟨j.val - 32, by omega⟩)
        else if h' : 0 ≤ l.val ∧ l.val < 0 + 64 ∧ 0 ≤ j.val ∧ j.val < 0 + 32 then
          (m ((c : Thread nD τ).loc main_arg5) : Mat 64 32) (ix2 ⟨l.val - 0, by omega⟩ ⟨j.val - 0, by omega⟩)
        else (0 : EReal) := by
  dsimp only [W1, hostOps0]
  after_results
  simp only [Cert.LibTRef.ofBuf_toBuf]
  rw [toBuf_v10, ofBuf_arg5]
  refine (scatter_block_at _ scatter_S128x64_S2_S64x32_01_n_01_0_wf rfl _ _ _ 64 32 ?_ ?_ l j).trans ?_
  · refine (congrArg BitVec.toInt (start_fst _ _)).trans ?_
    simp only [Cert.LibTRef.ofBuf_toBuf]
    rfl
  · refine (congrArg BitVec.toInt (start_snd _ _)).trans ?_
    simp only [Cert.LibTRef.ofBuf_toBuf]
    rfl
  by_cases hA : 64 ≤ l.val ∧ l.val < 64 + 64 ∧ 32 ≤ j.val ∧ j.val < 32 + 32
  · rw [dif_pos hA, dif_pos hA]
  · rw [dif_neg hA, dif_neg hA]
    refine (scatter_block_at _ scatter_S128x64_S2_S64x32_01_n_01_0_wf rfl _ _ _ 0 0 ?_ ?_ l j).trans ?_
    · refine (congrArg BitVec.toInt (start_fst _ _)).trans ?_
      simp only [Cert.LibTRef.ofBuf_toBuf]
      rfl
    · refine (congrArg BitVec.toInt (start_snd _ _)).trans ?_
      simp only [Cert.LibTRef.ofBuf_toBuf]
      rfl
    by_cases hB : 0 ≤ l.val ∧ l.val < 0 + 64 ∧ 0 ≤ j.val ∧ j.val < 0 + 32
    · rw [dif_pos hB, dif_pos hB]
    · rw [dif_neg hB, dif_neg hB]
      exact Ideal.ofBits_zero_f32

/-- The zero [64,64] matrix with a [32,64] matrix written from row 0. -/
theorem dw1p_read (c : Dev nD) (l j : Fin 64) :
    (W1 m ρ c (Proc.devRef .tc main_call0_v15) : Mat 64 64) (ix2 l j)
      = if h : 0 ≤ l.val ∧ l.val < 0 + 32 ∧ 0 ≤ j.val ∧ j.val < 0 + 64 then
          (m ((c : Thread nD τ).loc main_arg7) : Mat 32 64) (ix2 ⟨l.val - 0, by omega⟩ ⟨j.val - 0, by omega⟩)
        else (0 : EReal) := by
  dsimp only [W1, hostOps0]
  after_results
  simp only [Cert.LibTRef.ofBuf_toBuf]
  rw [toBuf_v15, ofBuf_arg7]
  refine (scatter_rows_at _ scatter_S64x64_S1_S32x64_01_n_0_0_wf rfl _ _ _ 0 ?_ l j).trans ?_
  · rfl
  by_cases hA : 0 ≤ l.val ∧ l.val < 0 + 32 ∧ 0 ≤ j.val ∧ j.val < 0 + 64
  · rw [dif_pos hA, dif_pos hA]
  · rw [dif_neg hA, dif_neg hA]
    exact Ideal.ofBits_zero_f32

/-- The zero [64,64] matrix with a [32,64] matrix written from row 32. -/
theorem zwp_read (c : Dev nD) (l j : Fin 64) :
    (W1 m ρ c (Proc.devRef .tc main_call0_v18) : Mat 64 64) (ix2 l j)
      = if h : 32 ≤ l.val ∧ l.val < 32 + 32 ∧ 0 ≤ j.val ∧ j.val < 0 + 64 then
          (m ((c : Thread nD τ).loc main_arg11) : Mat 32 64) (ix2 ⟨l.val - 32, by omega⟩ ⟨j.val - 0, by omega⟩)
        else (0 : EReal) := by
  dsimp only [W1, hostOps0]
  after_results
  simp only [Cert.LibTRef.ofBuf_toBuf]
  rw [toBuf_v18, ofBuf_arg11]
  refine (scatter_rows_at _ scatter_S64x64_S1_S32x64_01_n_0_0_wf rfl _ _ _ 32 ?_ l j).trans ?_
  · rfl
  by_cases hA : 32 ≤ l.val ∧ l.val < 32 + 32 ∧ 0 ≤ j.val ∧ j.val < 0 + 64
  · rw [dif_pos hA, dif_pos hA]
  · rw [dif_neg hA, dif_neg hA]
    exact Ideal.ofBits_zero_f32

/-! ## The eight entry facts -/

theorem w2c_UL (c : Dev nD) (l : Fin 128) (j : Fin 64) (hl : l.val < 64) (hj : j.val < 32) :
    (W1 m ρ c (Proc.devRef .tc main_call0_v10) : Mat 128 64) (ix2 l j)
      = (m ((c : Thread nD τ).loc main_arg5) : Mat 64 32) (ix2 ⟨l.val, hl⟩ ⟨j.val, hj⟩) := by
  have hlt := l.isLt
  have hjt := j.isLt
  rw [w2c_read, dif_neg (by omega), dif_pos ⟨Nat.zero_le _, by omega, Nat.zero_le _, by omega⟩]
  rfl
theorem w2c_UR (c : Dev nD) (l : Fin 128) (j : Fin 64) (hl : l.val < 64) (hj : ¬ j.val < 32) :
    (W1 m ρ c (Proc.devRef .tc main_call0_v10) : Mat 128 64) (ix2 l j) = (0 : EReal) := by
  have hlt := l.isLt
  have hjt := j.isLt
  rw [w2c_read, dif_neg (by omega), dif_neg (by omega)]
theorem w2c_LL (c : Dev nD) (l : Fin 128) (j : Fin 64) (hl : ¬ l.val < 64) (hj : j.val < 32) :
    (W1 m ρ c (Proc.devRef .tc main_call0_v10) : Mat 128 64) (ix2 l j) = (0 : EReal) := by
  have hlt := l.isLt
  have hjt := j.isLt
  rw [w2c_read, dif_neg (by omega), dif_neg (by omega)]
theorem w2c_LR (c : Dev nD) (l : Fin 128) (j : Fin 64) (hl : ¬ l.val < 64) (hj : ¬ j.val < 32) :
    (W1 m ρ c (Proc.devRef .tc main_call0_v10) : Mat 128 64) (ix2 l j)
      = (m ((c : Thread nD τ).loc main_arg5) : Mat 64 32) (ix2 ⟨l.val - 64, by have := l.isLt; omega⟩ ⟨j.val - 32, by have := j.isLt; omega⟩) := by
  have hlt := l.isLt
  have hjt := j.isLt
  rw [w2c_read, dif_pos ⟨by omega, by omega, by omega, by omega⟩]

theorem dw1p_U (c : Dev nD) (l : Fin 64) (j : Fin 64) (hl : l.val < 32) :
    (W1 m ρ c (Proc.devRef .tc main_call0_v15) : Mat 64 64) (ix2 l j)
      = (m ((c : Thread nD τ).loc main_arg7) : Mat 32 64) (ix2 ⟨l.val, hl⟩ j) := by
  have hjt := j.isLt
  rw [dw1p_read, dif_pos ⟨Nat.zero_le _, by omega, Nat.zero_le _, by omega⟩]
  rfl
theorem dw1p_L (c : Dev nD) (l : Fin 64) (j : Fin 64) (hl : ¬ l.val < 32) :
    (W1 m ρ c (Proc.devRef .tc main_call0_v15) : Mat 64 64) (ix2 l j) = (0 : EReal) := by
  rw [dw1p_read, dif_neg (by omega)]

theorem zwp_U (c : Dev nD) (l : Fin 64) (j : Fin 64) (hl : l.val < 32) :
    (W1 m ρ c (Proc.devRef .tc main_call0_v18) : Mat 64 64) (ix2 l j) = (0 : EReal) := by
  rw [zwp_read, dif_neg (by omega)]
theorem zwp_L (c : Dev nD) (l : Fin 64) (j : Fin 64) (hl : ¬ l.val < 32) :
    (W1 m ρ c (Proc.devRef .tc main_call0_v18) : Mat 64 64) (ix2 l j)
      = (m ((c : Thread nD τ).loc main_arg11) : Mat 32 64) (ix2 ⟨l.val - 32, by have := l.isLt; omega⟩ j) := by
  have hlt := l.isLt
  have hjt := j.isLt
  rw [zwp_read, dif_pos ⟨by omega, by omega, Nat.zero_le _, by omega⟩]
  rfl

end Cert.KernelIdeal.KValue

end
-- ==== Proof.KernelValue.lean ====
/-
  The idealized kernel's six results as the specification's functions of the arguments.

  @main is seven segments: a host stretch that lays the biases out as joined rows and pads or block-places the small
  weight matrices, the region computing both first-layer supports side by side, the first pass over the adjacency,
  a host stretch of row layouts, the second pass over the adjacency (both embeddings side by side, the decoder of
  the first, the linear map of the second), another stretch of row layouts, and the region of the normalisation and
  the three heads.  Each region's output arrays are whole-array functions of its input arrays; reading each input
  back through the segments to the arguments and separating the side-by-side joins gives the specification.
-/
import proofs.«178206_g36112085024797_cont_8to1_b_1395_2_alg».proof.Proof.HostFacts
import proofs.«178206_g36112085024797_cont_8to1_b_1395_2_alg».proof.Proof.Region0
import proofs.«178206_g36112085024797_cont_8to1_b_1395_2_alg».proof.Proof.Region1
import proofs.«178206_g36112085024797_cont_8to1_b_1395_2_alg».proof.Proof.Region3
import proofs.«178206_g36112085024797_cont_8to1_b_1395_2_alg».proof.Proof.KernelRun
import proofs.«178206_g36112085024797_cont_8to1_b_1395_2_alg».proof.Proof.Region2
import proofs.«178206_g36112085024797_cont_8to1_b_1395_2_alg».proof.Proof.HostScatter

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.Spec
open Cert.MatProduct (rowOf colOf prod)
open Cert.RowBias (addRow addRowMax)

variable (m : (ℓ : Loc nD τ sig) → Buf (Elt Ideal) ℓ) (ρ : Dev nD → PrngReg)

/-! ## Region 0: both first-layer supports side by side -/

theorem s1_eq (c : Dev nD) : (W2 m ρ c (Proc.devRef .tc main_call0_v19) : Mat 10000 128) = supports (m ((c : Thread nD τ).loc main_arg0)) (m ((c : Thread nD τ).loc main_arg1)) (m ((c : Thread nD τ).loc main_arg3)) := by
  have h0 : (V1 m ρ c (Pipeline.arrRef spec0 0) : Mat 10000 128) = (m ((c : Thread nD τ).loc main_arg0)) := arg0_at1 m ρ c
  have h1 : (V1 m ρ c (Pipeline.arrRef spec0 1) : Mat 10000 128) = (m ((c : Thread nD τ).loc main_arg1)) := arg1_at1 m ρ c
  have h2 : (V1 m ρ c (Pipeline.arrRef spec0 2) : Mat 128 64) = (m ((c : Thread nD τ).loc main_arg3)) := arg3_at1 m ρ c
  calc (W2 m ρ c (Proc.devRef .tc main_call0_v19) : Mat 10000 128)
      = (dat0 (F := Ideal) (V1 m ρ) c).arrAt 3 cfg0.N := W2_arr m ρ c 3
    _ = supports (V1 m ρ c (Pipeline.arrRef spec0 0)) (V1 m ρ c (Pipeline.arrRef spec0 1)) (V1 m ρ c (Pipeline.arrRef spec0 2)) := RegionValue.arr0_3 (V1 m ρ) c
    _ = supports (m ((c : Thread nD τ).loc main_arg0)) (m ((c : Thread nD τ).loc main_arg1)) (m ((c : Thread nD τ).loc main_arg3)) := by rw [h0, h1, h2]

/-! ## Region 1: the hidden layers, rectified, through the block-diagonal second-layer weights -/

theorem h2_eq (c : Dev nD) : (W3 m ρ c (Proc.devRef .tc main_call0_v20) : Mat 10000 64)
    = joinCols (by norm_num : 64 = 32 + 32) (prod (Cert.Spec.hidden (m ((c : Thread nD τ).loc main_arg0)) (m ((c : Thread nD τ).loc main_arg2)) (m ((c : Thread nD τ).loc main_arg3)) (row (m ((c : Thread nD τ).loc main_arg4)))) (m ((c : Thread nD τ).loc main_arg5))) (prod (Cert.Spec.hidden (m ((c : Thread nD τ).loc main_arg1)) (m ((c : Thread nD τ).loc main_arg2)) (m ((c : Thread nD τ).loc main_arg3)) (row (m ((c : Thread nD τ).loc main_arg4)))) (m ((c : Thread nD τ).loc main_arg5))) := by
  have h0 : (V2 m ρ c (Pipeline.arrRef spec1 0) : Mat 10000 10000) = (m ((c : Thread nD τ).loc main_arg2)) := arg2_at2 m ρ c
  have h1 : (V2 m ρ c (Pipeline.arrRef spec1 1) : Mat 10000 128) = supports (m ((c : Thread nD τ).loc main_arg0)) (m ((c : Thread nD τ).loc main_arg1)) (m ((c : Thread nD τ).loc main_arg3)) := s1_eq m ρ c
  have h2 : (V2 m ρ c (Pipeline.arrRef spec1 2) : Mat 1 128) = joinCols (by norm_num : 128 = 64 + 64) (row (m ((c : Thread nD τ).loc main_arg4))) (row (m ((c : Thread nD τ).loc main_arg4))) :=
    (v1_keep2 m ρ c).trans (b1c_eq m ρ c)
  have h3 : (V2 m ρ c (Pipeline.arrRef spec1 3) : Mat 128 64) = (W1 m ρ c (Proc.devRef .tc main_call0_v10) : Mat 128 64) := v10_keep2 m ρ c
  calc (W3 m ρ c (Proc.devRef .tc main_call0_v20) : Mat 10000 64)
      = (dat1 (F := Ideal) (V2 m ρ) c).arrAt 4 cfg1.N := W3_arr m ρ c 4
    _ = pass1 (V2 m ρ c (Pipeline.arrRef spec1 0)) (V2 m ρ c (Pipeline.arrRef spec1 1)) (V2 m ρ c (Pipeline.arrRef spec1 2)) (V2 m ρ c (Pipeline.arrRef spec1 3)) := RegionValue.arr1_4 (V2 m ρ) c
    _ = pass1 (m ((c : Thread nD τ).loc main_arg2)) (supports (m ((c : Thread nD τ).loc main_arg0)) (m ((c : Thread nD τ).loc main_arg1)) (m ((c : Thread nD τ).loc main_arg3))) (joinCols (by norm_num : 128 = 64 + 64) (row (m ((c : Thread nD τ).loc main_arg4))) (row (m ((c : Thread nD τ).loc main_arg4))))
          (W1 m ρ c (Proc.devRef .tc main_call0_v10) : Mat 128 64) := by rw [h0, h1, h2, h3]
    _ = _ := by
      unfold pass1 supports Cert.Spec.hidden
      rw [prod_joinCols, addRowMax_joinCols,
        prod_joinCols_blockDiag (by norm_num : 128 = 64 + 64) (by norm_num : 64 = 32 + 32) _ _ (m ((c : Thread nD τ).loc main_arg5)) (m ((c : Thread nD τ).loc main_arg5)) (W1 m ρ c (Proc.devRef .tc main_call0_v10) : Mat 128 64)
          (w2c_UL m ρ c) (w2c_UR m ρ c) (w2c_LL m ρ c) (w2c_LR m ρ c)]

/-! ## Region 2: the two embeddings side by side, the decoder of the first, the linear map of the second -/

theorem e_eq (c : Dev nD) : RegionValue.e2 (V4 m ρ) c = joinCols (by norm_num : 64 = 32 + 32) (embed (m ((c : Thread nD τ).loc main_arg0)) (m ((c : Thread nD τ).loc main_arg2)) (m ((c : Thread nD τ).loc main_arg3)) (row (m ((c : Thread nD τ).loc main_arg4))) (m ((c : Thread nD τ).loc main_arg5)) (row (m ((c : Thread nD τ).loc main_arg6)))) (embed (m ((c : Thread nD τ).loc main_arg1)) (m ((c : Thread nD τ).loc main_arg2)) (m ((c : Thread nD τ).loc main_arg3)) (row (m ((c : Thread nD τ).loc main_arg4))) (m ((c : Thread nD τ).loc main_arg5)) (row (m ((c : Thread nD τ).loc main_arg6)))) := by
  have h0 : (V4 m ρ c (Pipeline.arrRef spec2 0) : Mat 10000 10000) = (m ((c : Thread nD τ).loc main_arg2)) := arg2_at4 m ρ c
  have h1 : (V4 m ρ c (Pipeline.arrRef spec2 1) : Mat 10000 64)
      = joinCols (by norm_num : 64 = 32 + 32) (prod (Cert.Spec.hidden (m ((c : Thread nD τ).loc main_arg0)) (m ((c : Thread nD τ).loc main_arg2)) (m ((c : Thread nD τ).loc main_arg3)) (row (m ((c : Thread nD τ).loc main_arg4)))) (m ((c : Thread nD τ).loc main_arg5))) (prod (Cert.Spec.hidden (m ((c : Thread nD τ).loc main_arg1)) (m ((c : Thread nD τ).loc main_arg2)) (m ((c : Thread nD τ).loc main_arg3)) (row (m ((c : Thread nD τ).loc main_arg4)))) (m ((c : Thread nD τ).loc main_arg5))) := (v20_keep4 m ρ c).trans (h2_eq m ρ c)
  have h2 : (V4 m ρ c (Pipeline.arrRef spec2 2) : Mat 1 64) = joinCols (by norm_num : 64 = 32 + 32) (row (m ((c : Thread nD τ).loc main_arg6))) (row (m ((c : Thread nD τ).loc main_arg6))) :=
    (v12_keep4 m ρ c).trans (b2c_eq m ρ c)
  show pass2 (V4 m ρ c (Pipeline.arrRef spec2 0)) (V4 m ρ c (Pipeline.arrRef spec2 1)) (V4 m ρ c (Pipeline.arrRef spec2 2)) = _
  rw [h0, h1, h2]
  unfold pass2 embed
  rw [prod_joinCols, addRow_joinCols]

theorem out0_eq (c : Dev nD) : (W7 m ρ c (Proc.devRef .tc main_v0_0) : Mat 10000 32) = Cert.Spec.out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
  calc (W7 m ρ c (Proc.devRef .tc main_v0_0) : Mat 10000 32)
      = W5 m ρ c (Proc.devRef .tc main_v0_0) := out0_keep7 m ρ c
    _ = (dat2 (F := Ideal) (V4 m ρ) c).arrAt 9 cfg2.N := W5_arr m ρ c 9
    _ = cols 0 32 (by norm_num) (RegionValue.e2 (V4 m ρ) c) := RegionValue.arr2_9 (V4 m ρ) c
    _ = _ := by rw [e_eq, cols_joinCols_left]; rfl

theorem out1_eq (c : Dev nD) : (W7 m ρ c (Proc.devRef .tc main_v0_1) : Mat 10000 32) = Cert.Spec.out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
  calc (W7 m ρ c (Proc.devRef .tc main_v0_1) : Mat 10000 32)
      = W5 m ρ c (Proc.devRef .tc main_v0_1) := out1_keep7 m ρ c
    _ = (dat2 (F := Ideal) (V4 m ρ) c).arrAt 10 cfg2.N := W5_arr m ρ c 10
    _ = cols 32 32 (by norm_num) (RegionValue.e2 (V4 m ρ) c) := RegionValue.arr2_10 (V4 m ρ) c
    _ = _ := by rw [e_eq, cols_joinCols_right]; rfl

theorem out2_eq (c : Dev nD) : (W7 m ρ c (Proc.devRef .tc main_v0_2) : Mat 10000 128) = Cert.Spec.out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  have h3 : (V4 m ρ c (Pipeline.arrRef spec2 3) : Mat 64 64) = (W1 m ρ c (Proc.devRef .tc main_call0_v15) : Mat 64 64) := v15_keep4 m ρ c
  have h4 : (V4 m ρ c (Pipeline.arrRef spec2 4) : Mat 1 64) = row (m ((c : Thread nD τ).loc main_arg8)) := v21_eq m ρ c
  have h5 : (V4 m ρ c (Pipeline.arrRef spec2 5) : Mat 64 128) = (m ((c : Thread nD τ).loc main_arg9)) := arg9_at4 m ρ c
  have h6 : (V4 m ρ c (Pipeline.arrRef spec2 6) : Mat 1 128) = row (m ((c : Thread nD τ).loc main_arg10)) := v22_eq m ρ c
  calc (W7 m ρ c (Proc.devRef .tc main_v0_2) : Mat 10000 128)
      = W5 m ρ c (Proc.devRef .tc main_v0_2) := out2_keep7 m ρ c
    _ = (dat2 (F := Ideal) (V4 m ρ) c).arrAt 11 cfg2.N := W5_arr m ρ c 11
    _ = addRow (prod (addRowMax (prod (RegionValue.e2 (V4 m ρ) c) (V4 m ρ c (Pipeline.arrRef spec2 3))) (V4 m ρ c (Pipeline.arrRef spec2 4)) 0) (V4 m ρ c (Pipeline.arrRef spec2 5))) (V4 m ρ c (Pipeline.arrRef spec2 6)) :=
        RegionValue.arr2_11 (V4 m ρ) c
    _ = _ := by
      obtain ⟨Wd, hWd, hU, hL⟩ : ∃ Wd : Mat 64 64, (V4 m ρ c (Pipeline.arrRef spec2 3) : Mat 64 64) = Wd
          ∧ (∀ (l : Fin 64) (j : Fin 64) (hl : l.val < 32), Wd (ix2 l j) = ((m ((c : Thread nD τ).loc main_arg7)) : Mat 32 64) (ix2 ⟨l.val, hl⟩ j))
          ∧ (∀ (l : Fin 64) (j : Fin 64) (hl : ¬ l.val < 32), Wd (ix2 l j) = (0 : EReal)) :=
        ⟨_, h3, dw1p_U m ρ c, dw1p_L m ρ c⟩
      have hp : prod (joinCols (by norm_num : 64 = 32 + 32) (embed (m ((c : Thread nD τ).loc main_arg0)) (m ((c : Thread nD τ).loc main_arg2)) (m ((c : Thread nD τ).loc main_arg3)) (row (m ((c : Thread nD τ).loc main_arg4))) (m ((c : Thread nD τ).loc main_arg5)) (row (m ((c : Thread nD τ).loc main_arg6)))) (embed (m ((c : Thread nD τ).loc main_arg1)) (m ((c : Thread nD τ).loc main_arg2)) (m ((c : Thread nD τ).loc main_arg3)) (row (m ((c : Thread nD τ).loc main_arg4))) (m ((c : Thread nD τ).loc main_arg5)) (row (m ((c : Thread nD τ).loc main_arg6))))) Wd = prod (embed (m ((c : Thread nD τ).loc main_arg0)) (m ((c : Thread nD τ).loc main_arg2)) (m ((c : Thread nD τ).loc main_arg3)) (row (m ((c : Thread nD τ).loc main_arg4))) (m ((c : Thread nD τ).loc main_arg5)) (row (m ((c : Thread nD τ).loc main_arg6)))) (m ((c : Thread nD τ).loc main_arg7)) :=
        prod_joinCols_upper (by norm_num : 64 = 32 + 32) _ _ (m ((c : Thread nD τ).loc main_arg7)) Wd hU hL
      have step : ∀ (E E' : Mat 10000 64) (w3 w3' : Mat 64 64) (w4 w4' : Mat 1 64) (w5 w5' : Mat 64 128) (w6 w6' : Mat 1 128),
          E = E' → w3 = w3' → w4 = w4' → w5 = w5' → w6 = w6' →
          addRow (prod (addRowMax (prod E w3) w4 0) w5) w6 = addRow (prod (addRowMax (prod E' w3') w4' 0) w5') w6' := by
        intro E E' w3 w3' w4 w4' w5 w5' w6 w6' hE h3 h4 h5 h6
        rw [hE, h3, h4, h5, h6]
      refine (step _ _ _ _ _ _ _ _ _ _ (e_eq m ρ c) hWd h4 h5 h6).trans ?_
      rw [hp]
      rfl

/-- The linear map in front of the normalisation, as region 2 leaves it. -/
theorem z_eq (c : Dev nD) : (W5 m ρ c (Proc.devRef .tc main_call0_v24_3) : Mat 10000 64) = zlin (embed (m ((c : Thread nD τ).loc main_arg1)) (m ((c : Thread nD τ).loc main_arg2)) (m ((c : Thread nD τ).loc main_arg3)) (row (m ((c : Thread nD τ).loc main_arg4))) (m ((c : Thread nD τ).loc main_arg5)) (row (m ((c : Thread nD τ).loc main_arg6)))) (m ((c : Thread nD τ).loc main_arg11)) (row (m ((c : Thread nD τ).loc main_arg12))) := by
  have h7 : (V4 m ρ c (Pipeline.arrRef spec2 7) : Mat 64 64) = (W1 m ρ c (Proc.devRef .tc main_call0_v18) : Mat 64 64) := v18_keep4 m ρ c
  have h8 : (V4 m ρ c (Pipeline.arrRef spec2 8) : Mat 1 64) = row (m ((c : Thread nD τ).loc main_arg12)) := v23_eq m ρ c
  calc (W5 m ρ c (Proc.devRef .tc main_call0_v24_3) : Mat 10000 64)
      = (dat2 (F := Ideal) (V4 m ρ) c).arrAt 12 cfg2.N := W5_arr m ρ c 12
    _ = addRow (prod (RegionValue.e2 (V4 m ρ) c) (V4 m ρ c (Pipeline.arrRef spec2 7))) (V4 m ρ c (Pipeline.arrRef spec2 8)) := RegionValue.arr2_12 (V4 m ρ) c
    _ = _ := by
      obtain ⟨Wz, hWz, hU, hL⟩ : ∃ Wz : Mat 64 64, (V4 m ρ c (Pipeline.arrRef spec2 7) : Mat 64 64) = Wz
          ∧ (∀ (l : Fin 64) (j : Fin 64) (hl : l.val < 32), Wz (ix2 l j) = (0 : EReal))
          ∧ (∀ (l : Fin 64) (j : Fin 64) (hl : ¬ l.val < 32), Wz (ix2 l j) = ((m ((c : Thread nD τ).loc main_arg11)) : Mat 32 64) (ix2 ⟨l.val - 32, by have := l.isLt; omega⟩ j)) :=
        ⟨_, h7, zwp_U m ρ c, zwp_L m ρ c⟩
      have hp : prod (joinCols (by norm_num : 64 = 32 + 32) (embed (m ((c : Thread nD τ).loc main_arg0)) (m ((c : Thread nD τ).loc main_arg2)) (m ((c : Thread nD τ).loc main_arg3)) (row (m ((c : Thread nD τ).loc main_arg4))) (m ((c : Thread nD τ).loc main_arg5)) (row (m ((c : Thread nD τ).loc main_arg6)))) (embed (m ((c : Thread nD τ).loc main_arg1)) (m ((c : Thread nD τ).loc main_arg2)) (m ((c : Thread nD τ).loc main_arg3)) (row (m ((c : Thread nD τ).loc main_arg4))) (m ((c : Thread nD τ).loc main_arg5)) (row (m ((c : Thread nD τ).loc main_arg6))))) Wz = prod (embed (m ((c : Thread nD τ).loc main_arg1)) (m ((c : Thread nD τ).loc main_arg2)) (m ((c : Thread nD τ).loc main_arg3)) (row (m ((c : Thread nD τ).loc main_arg4))) (m ((c : Thread nD τ).loc main_arg5)) (row (m ((c : Thread nD τ).loc main_arg6)))) (m ((c : Thread nD τ).loc main_arg11)) :=
        prod_joinCols_lower (by norm_num : 64 = 32 + 32) _ _ (m ((c : Thread nD τ).loc main_arg11)) Wz hU hL
      rw [e_eq, hWz, hp, h8]
      rfl

/-! ## Region 3: the normalisation and the three heads -/

theorem zr_eq (c : Dev nD) : RegionValue.zr3 (V6 m ρ) c = Cert.Spec.feat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  have h0 : (V6 m ρ c (Pipeline.arrRef spec3 0) : Mat 10000 64) = zlin (embed (m ((c : Thread nD τ).loc main_arg1)) (m ((c : Thread nD τ).loc main_arg2)) (m ((c : Thread nD τ).loc main_arg3)) (row (m ((c : Thread nD τ).loc main_arg4))) (m ((c : Thread nD τ).loc main_arg5)) (row (m ((c : Thread nD τ).loc main_arg6)))) (m ((c : Thread nD τ).loc main_arg11)) (row (m ((c : Thread nD τ).loc main_arg12))) := (v24_keep6 m ρ c).trans (z_eq m ρ c)
  have h1 : (V6 m ρ c (Pipeline.arrRef spec3 1) : Mat 1 64) = row (m ((c : Thread nD τ).loc main_arg13)) := v25_eq m ρ c
  have h2 : (V6 m ρ c (Pipeline.arrRef spec3 2) : Mat 1 64) = row (m ((c : Thread nD τ).loc main_arg14)) := v26_eq m ρ c
  show bnRelu (V6 m ρ c (Pipeline.arrRef spec3 0)) (V6 m ρ c (Pipeline.arrRef spec3 1)) (V6 m ρ c (Pipeline.arrRef spec3 2)) = _
  rw [h0, h1, h2]
  rfl

theorem out3_eq (c : Dev nD) : (W7 m ρ c (Proc.devRef .tc main_v0_3) : Mat 10000 128) = Cert.Spec.out3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  have h3 : (V6 m ρ c (Pipeline.arrRef spec3 3) : Mat 64 128) = (m ((c : Thread nD τ).loc main_arg15)) := arg15_at6 m ρ c
  have h4 : (V6 m ρ c (Pipeline.arrRef spec3 4) : Mat 1 128) = row (m ((c : Thread nD τ).loc main_arg16)) := v27_eq m ρ c
  calc (W7 m ρ c (Proc.devRef .tc main_v0_3) : Mat 10000 128)
      = (dat3 (F := Ideal) (V6 m ρ) c).arrAt 9 cfg3.N := W7_arr m ρ c 9
    _ = piHead (RegionValue.zr3 (V6 m ρ) c) (V6 m ρ c (Pipeline.arrRef spec3 3)) (V6 m ρ c (Pipeline.arrRef spec3 4)) := RegionValue.arr3_9 (V6 m ρ) c
    _ = _ := by rw [zr_eq, h3, h4]; rfl

theorem out4_eq (c : Dev nD) : (W7 m ρ c (Proc.devRef .tc main_v0_4) : Mat 10000 128) = Cert.Spec.out4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  have h5 : (V6 m ρ c (Pipeline.arrRef spec3 5) : Mat 64 128) = (m ((c : Thread nD τ).loc main_arg17)) := arg17_at6 m ρ c
  have h6 : (V6 m ρ c (Pipeline.arrRef spec3 6) : Mat 1 128) = row (m ((c : Thread nD τ).loc main_arg18)) := v28_eq m ρ c
  calc (W7 m ρ c (Proc.devRef .tc main_v0_4) : Mat 10000 128)
      = (dat3 (F := Ideal) (V6 m ρ) c).arrAt 10 cfg3.N := W7_arr m ρ c 10
    _ = dispHead (RegionValue.zr3 (V6 m ρ) c) (V6 m ρ c (Pipeline.arrRef spec3 5)) (V6 m ρ c (Pipeline.arrRef spec3 6)) := RegionValue.arr3_10 (V6 m ρ) c
    _ = _ := by rw [zr_eq, h5, h6]; rfl

theorem out5_eq (c : Dev nD) : (W7 m ρ c (Proc.devRef .tc main_v0_5) : Mat 10000 128) = Cert.Spec.out5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  have h7 : (V6 m ρ c (Pipeline.arrRef spec3 7) : Mat 64 128) = (m ((c : Thread nD τ).loc main_arg19)) := arg19_at6 m ρ c
  have h8 : (V6 m ρ c (Pipeline.arrRef spec3 8) : Mat 1 128) = row (m ((c : Thread nD τ).loc main_arg20)) := v29_eq m ρ c
  calc (W7 m ρ c (Proc.devRef .tc main_v0_5) : Mat 10000 128)
      = (dat3 (F := Ideal) (V6 m ρ) c).arrAt 11 cfg3.N := W7_arr m ρ c 11
    _ = meanHead (RegionValue.zr3 (V6 m ρ) c) (V6 m ρ c (Pipeline.arrRef spec3 7)) (V6 m ρ c (Pipeline.arrRef spec3 8)) := RegionValue.arr3_11 (V6 m ρ) c
    _ = _ := by rw [zr_eq, h7, h8]; rfl

/-! ## The run -/

/-- Every weakly fair execution of the idealized kernel's @main terminates with its six results at the specification's
    functions of the argument arrays, and the arguments unchanged. -/
theorem run (m : (ℓ : Loc nD τ sig) → Buf (Elt Ideal) ℓ) (ρ : Dev nD → PrngReg) :
    θ_run (Cert.KernelIdeal.defs (F := Ideal)) (onTc (τ := τ) (main (F := Ideal))) ⟨m, fun _ => 0, ρ⟩ (fun r => ∀ c : Dev nD,
      r.2.mem ((c.tc : Thread nD τ).loc main_v0_0) = Cert.Spec.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧       r.2.mem ((c.tc : Thread nD τ).loc main_v0_1) = Cert.Spec.out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧       r.2.mem ((c.tc : Thread nD τ).loc main_v0_2) = Cert.Spec.out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧       r.2.mem ((c.tc : Thread nD τ).loc main_v0_3) = Cert.Spec.out3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧       r.2.mem ((c.tc : Thread nD τ).loc main_v0_4) = Cert.Spec.out4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧       r.2.mem ((c.tc : Thread nD τ).loc main_v0_5) = Cert.Spec.out5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run (Cert.KernelIdeal.defs (F := Ideal)) _ _).mono (fun r h c =>
    ⟨(h c _ (mem_uc main_v0_0 (by decide))).trans (out0_eq m ρ c),
     (h c _ (mem_uc main_v0_1 (by decide))).trans (out1_eq m ρ c),
     (h c _ (mem_uc main_v0_2 (by decide))).trans (out2_eq m ρ c),
     (h c _ (mem_uc main_v0_3 (by decide))).trans (out3_eq m ρ c),
     (h c _ (mem_uc main_v0_4 (by decide))).trans (out4_eq m ρ c),
     (h c _ (mem_uc main_v0_5 (by decide))).trans (out5_eq m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c),
     (h c _ (mem_uc main_arg13 (by decide))).trans (W7_main_arg13 m ρ c),
     (h c _ (mem_uc main_arg14 (by decide))).trans (W7_main_arg14 m ρ c),
     (h c _ (mem_uc main_arg15 (by decide))).trans (W7_main_arg15 m ρ c),
     (h c _ (mem_uc main_arg16 (by decide))).trans (W7_main_arg16 m ρ c),
     (h c _ (mem_uc main_arg17 (by decide))).trans (W7_main_arg17 m ρ c),
     (h c _ (mem_uc main_arg18 (by decide))).trans (W7_main_arg18 m ρ c),
     (h c _ (mem_uc main_arg19 (by decide))).trans (W7_main_arg19 m ρ c),
     (h c _ (mem_uc main_arg20 (by decide))).trans (W7_main_arg20 m ρ c)⟩)
    (run_all m ρ)

end Cert.KernelIdeal.KValue

end
-- ==== Proof.LibAfter.lean ====
/-
  Running a list of host operations in two stretches.

  The contents every buffer holds after a list of host operations is a fold of the operations' results over the
  contents before it; the fold over a list split in two is the fold over the second part from what the first part
  leaves. So a long straight line can be read stretch by stretch, each from the contents at its start.
-/
import Idealize.ShloMosaic.Lib.StableHlo.Run

namespace Cert.LibAfter

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => exact ih _

end Cert.LibAfter
-- ==== Proof.RefRun.lean ====
/-
  The reference program's run.

  The reference is a straight line of host operations: its entry function runs two stretches one after the other,
  and each function it calls (the rectifier, the column variance with its guarded division, the softplus, the
  clipping) is the callee's own operations over the buffers that one call names. Listed in order with the callees'
  operations in place of the calls, the program is a plain sequence; every weakly fair execution of it terminates,
  and what each buffer holds at the end is the fold of the operations' results over the launch contents.
-/
import proofs.«178206_g36112085024797_cont_8to1_b_1395_2_alg».proof.ReferenceIdeal
import proofs.«178206_g36112085024797_cont_8to1_b_1395_2_alg».proof.Proof.LibAfter
import Idealize.ShloMosaic.Lib.StableHlo.Run

set_option maxRecDepth 16384

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The first stretch's 87 operations, in order: the two embeddings, the linear map, the column mean, the column
    variance (its callee's operations and, inside it, the guarded division's), the normalisation, the rectifier, and
    the logistic head up to its denominator. -/
abbrev ops0 : List (HloOp τ sig (Elt F)) :=
  [ StableHlo.binary main_arg0 main_arg3 main_v0 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    StableHlo.binary main_arg2 main_v0 main_v1 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    StableHlo.unary main_arg4 main_v2 (broadcastInDim S1x64 ![1] bcast_S64_S1x64_1 : (⟨S64, .f32⟩ : BufTy).Contents (Elt F) → (⟨S1x64, .f32⟩ : BufTy).Contents (Elt F)),
    StableHlo.unary main_v2 main_v3 (broadcastInDim S10000x64 ![0, 1] bcast_S1x64_S10000x64_0_1 : (⟨S1x64, .f32⟩ : BufTy).Contents (Elt F) → (⟨S10000x64, .f32⟩ : BufTy).Contents (Elt F)),
    StableHlo.binary main_v1 main_v3 main_v4 (addf : (⟨S10000x64, .f32⟩ : BufTy).Contents (Elt F) → (⟨S10000x64, .f32⟩ : BufTy).Contents (Elt F) → (⟨S10000x64, .f32⟩ : BufTy).Contents (Elt F)),
    StableHlo.TRef.nullary main_call0.cst (constant S_ .f32 0x00000000#32),
    StableHlo.TRef.unary main_call0.cst main_call0.v0 (broadcastInDim S10000x64 ![] bcast_S_S10000x64),
    StableHlo.TRef.binary (StableHlo.TRef.of main_v4 : StableHlo.TRef sig ⟨S10000x64, .f32⟩) main_call0.v0 main_call0.v1 maximumf,
    StableHlo.binary main_v5 main_arg5 main_v6 ((fun l r => Host.dotGeneral dot_S10000x64_S64x32_S10000x32_1_0_0_1_n_n none l r) : (⟨S10000x64, .f32⟩ : BufTy).Contents (Elt F) → (⟨S64x32, .f32⟩ : BufTy).Contents (Elt F) → (⟨S10000x32, .f32⟩ : BufTy).Contents (Elt F)),
    StableHlo.binary main_arg2 main_v6 main_v7 ((fun l r => Host.dotGeneral dot_S10000x10000_S10000x32_S10000x32_1_0_0_1_n_n none l r) : (⟨S10000x10000, .f32⟩ : BufTy).Contents (Elt F) → (⟨S10000x32, .f32⟩ : BufTy).Contents (Elt F) → (⟨S10000x32, .f32⟩ : BufTy).Contents (Elt F)),
    StableHlo.unary main_arg6 main_v8 (broadcastInDim S1x32 ![1] bcast_S32_S1x32_1 : (⟨S32, .f32⟩ : BufTy).Contents (Elt F) → (⟨S1x32, .f32⟩ : BufTy).Contents (Elt F)),
    StableHlo.unary main_v8 main_v9 (broadcastInDim S10000x32 ![0, 1] bcast_S1x32_S10000x32_0_1 : (⟨S1x32, .f32⟩ : BufTy).Contents (Elt F) → (⟨S10000x32, .f32⟩ : BufTy).Contents (Elt F)),
    StableHlo.binary main_v7 main_v9 main_v10 (addf : (⟨S10000x32, .f32⟩ : BufTy).Contents (Elt F) → (⟨S10000x32, .f32⟩ : BufTy).Contents (Elt F) → (⟨S10000x32, .f32⟩ : BufTy).Contents (Elt F)),
    StableHlo.binary main_arg1 main_arg3 main_v11 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    StableHlo.binary main_arg2 main_v11 main_v12 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    StableHlo.unary main_arg4 main_v13 (broadcastInDim S1x64 ![1] bcast_S64_S1x64_1 : (⟨S64, .f32⟩ : BufTy).Contents (Elt F) → (⟨S1x64, .f32⟩ : BufTy).Contents (Elt F)),
    StableHlo.unary main_v13 main_v14 (broadcastInDim S10000x64 ![0, 1] bcast_S1x64_S10000x64_0_1 : (⟨S1x64, .f32⟩ : BufTy).Contents (Elt F) → (⟨S10000x64, .f32⟩ : BufTy).Contents (Elt F)),
    StableHlo.binary main_v12 main_v14 main_v15 (addf : (⟨S10000x64, .f32⟩ : BufTy).Contents (Elt F) → (⟨S10000x64, .f32⟩ : BufTy).Contents (Elt F) → (⟨S10000x64, .f32⟩ : BufTy).Contents (Elt F)),
    StableHlo.TRef.nullary main_call1.cst (constant S_ .f32 0x00000000#32),
    StableHlo.TRef.unary main_call1.cst main_call1.v0 (broadcastInDim S10000x64 ![] bcast_S_S10000x64),
    StableHlo.TRef.binary (StableHlo.TRef.of main_v15 : StableHlo.TRef sig ⟨S10000x64, .f32⟩) main_call1.v0 main_call1.v1 maximumf,
    StableHlo.binary main_v16 main_arg5 main_v17 ((fun l r => Host.dotGeneral dot_S10000x64_S64x32_S10000x32_1_0_0_1_n_n none l r) : (⟨S10000x64, .f32⟩ : BufTy).Contents (Elt F) → (⟨S64x32, .f32⟩ : BufTy).Contents (Elt F) → (⟨S10000x32, .f32⟩ : BufTy).Contents (Elt F)),
    StableHlo.binary main_arg2 main_v17 main_v18 ((fun l r => Host.dotGeneral dot_S10000x10000_S10000x32_S10000x32_1_0_0_1_n_n none l r) : (⟨S10000x10000, .f32⟩ : BufTy).Contents (Elt F) → (⟨S10000x32, .f32⟩ : BufTy).Contents (Elt F) → (⟨S10000x32, .f32⟩ : BufTy).Contents (Elt F)),
    StableHlo.unary main_arg6 main_v19 (broadcastInDim S1x32 ![1] bcast_S32_S1x32_1 : (⟨S32, .f32⟩ : BufTy).Contents (Elt F) → (⟨S1x32, .f32⟩ : BufTy).Contents (Elt F)),
    StableHlo.unary main_v19 main_v20 (broadcastInDim S10000x32 ![0, 1] bcast_S1x32_S10000x32_0_1 : (⟨S1x32, .f32⟩ : BufTy).Contents (Elt F) → (⟨S10000x32, .f32⟩ : BufTy).Contents (Elt F)),
    StableHlo.binary main_v18 main_v20 main_v21 (addf : (⟨S10000x32, .f32⟩ : BufTy).Contents (Elt F) → (⟨S10000x32, .f32⟩ : BufTy).Contents (Elt F) → (⟨S10000x32, .f32⟩ : BufTy).Contents (Elt F)),
    StableHlo.binary main_v21 main_arg11 main_v22 ((fun l r => Host.dotGeneral dot_S10000x32_S32x64_S10000x64_1_0_0_1_n_n none l r) : (⟨S10000x32, .f32⟩ : BufTy).Contents (Elt F) → (⟨S32x64, .f32⟩ : BufTy).Contents (Elt F) → (⟨S10000x64, .f32⟩ : BufTy).Contents (Elt F)),
    StableHlo.unary main_arg12 main_v23 (broadcastInDim S1x64 ![1] bcast_S64_S1x64_1 : (⟨S64, .f32⟩ : BufTy).Contents (Elt F) → (⟨S1x64, .f32⟩ : BufTy).Contents (Elt F)),
    StableHlo.unary main_v23 main_v24 (broadcastInDim S10000x64 ![0, 1] bcast_S1x64_S10000x64_0_1 : (⟨S1x64, .f32⟩ : BufTy).Contents (Elt F) → (⟨S10000x64, .f32⟩ : BufTy).Contents (Elt F)),
    StableHlo.binary main_v22 main_v24 main_v25 (addf : (⟨S10000x64, .f32⟩ : BufTy).Contents (Elt F) → (⟨S10000x64, .f32⟩ : BufTy).Contents (Elt F) → (⟨S10000x64, .f32⟩ : BufTy).Contents (Elt F)),
    StableHlo.nullary main_cst (constant S_ .f32 0x00000000#32),
    StableHlo.binary main_v25 main_cst main_v26 ((fun x v => Host.reduceAdd x v reducesTo_S10000x64_S64_d0 h_S_) : (⟨S10000x64, .f32⟩ : BufTy).Contents (Elt F) → (⟨S_, .f32⟩ : BufTy).Contents (Elt F) → (⟨S64, .f32⟩ : BufTy).Contents (Elt F)),
    StableHlo.nullary main_cst_0 (constant S_ .f32 0x461C4000#32),
    StableHlo.unary main_cst_0 main_v27 (broadcastInDim S64 ![] bcast_S_S64 : (⟨S_, .f32⟩ : BufTy).Contents (Elt F) → (⟨S64, .f32⟩ : BufTy).Contents (Elt F)),
    StableHlo.binary main_v26 main_v27 main_v28 (Host.divf : (⟨S64, .f32⟩ : BufTy).Contents (Elt F) → (⟨S64, .f32⟩ : BufTy).Contents (Elt F) → (⟨S64, .f32⟩ : BufTy).Contents (Elt F)),
    StableHlo.nullary main_c (constantI S_ 32 0#32),
    StableHlo.TRef.nullary main_call2.cst (constant S_ .f32 0x00000000#32),
    StableHlo.TRef.binary (StableHlo.TRef.of main_v25 : StableHlo.TRef sig ⟨S10000x64, .f32⟩) main_call2.cst main_call2.v0 (fun x v => Host.reduceAdd x v reducesTo_S10000x64_S64_d0 h_S_),
    StableHlo.TRef.unary main_call2.v0 main_call2.v1 (broadcastInDim S1x64 ![1] bcast_S64_S1x64_1),
    StableHlo.TRef.nullary main_call2.cst_0 (constant S_ .f32 0x461C4000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S10000x64 ![0, 1] bcast_S1x64_S10000x64_0_1),
    StableHlo.TRef.binary (StableHlo.TRef.of main_v25 : StableHlo.TRef sig ⟨S10000x64, .f32⟩) main_call2.v4 main_call2.v5 subf,
    StableHlo.TRef.binary main_call2.v5 main_call2.v5 main_call2.v6 mulf,
    StableHlo.TRef.unary (StableHlo.TRef.of main_c : StableHlo.TRef sig ⟨S_, .i32⟩) main_call2.v7 (sitofp .f32),
    StableHlo.TRef.nullary main_call2.cst_1 (constant S_ .f32 0x461C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S10000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v28 main_v30 (broadcastInDim S1x64 ![1] bcast_S64_S1x64_1 : (⟨S64, .f32⟩ : BufTy).Contents (Elt F) → (⟨S1x64, .f32⟩ : BufTy).Contents (Elt F)),
    StableHlo.unary main_v30 main_v31 (broadcastInDim S10000x64 ![0, 1] bcast_S1x64_S10000x64_0_1 : (⟨S1x64, .f32⟩ : BufTy).Contents (Elt F) → (⟨S10000x64, .f32⟩ : BufTy).Contents (Elt F)),
    StableHlo.binary main_v25 main_v31 main_v32 (subf : (⟨S10000x64, .f32⟩ : BufTy).Contents (Elt F) → (⟨S10000x64, .f32⟩ : BufTy).Contents (Elt F) → (⟨S10000x64, .f32⟩ : BufTy).Contents (Elt F)),
    StableHlo.nullary main_cst_1 (constant S_ .f32 0x3727C5AC#32),
    StableHlo.unary main_cst_1 main_v33 (broadcastInDim S64 ![] bcast_S_S64 : (⟨S_, .f32⟩ : BufTy).Contents (Elt F) → (⟨S64, .f32⟩ : BufTy).Contents (Elt F)),
    StableHlo.binary main_v29 main_v33 main_v34 (addf : (⟨S64, .f32⟩ : BufTy).Contents (Elt F) → (⟨S64, .f32⟩ : BufTy).Contents (Elt F) → (⟨S64, .f32⟩ : BufTy).Contents (Elt F)),
    StableHlo.unary main_v34 main_v35 (Host.sqrt : (⟨S64, .f32⟩ : BufTy).Contents (Elt F) → (⟨S64, .f32⟩ : BufTy).Contents (Elt F)),
    StableHlo.unary main_v35 main_v36 (broadcastInDim S1x64 ![1] bcast_S64_S1x64_1 : (⟨S64, .f32⟩ : BufTy).Contents (Elt F) → (⟨S1x64, .f32⟩ : BufTy).Contents (Elt F)),
    StableHlo.unary main_v36 main_v37 (broadcastInDim S10000x64 ![0, 1] bcast_S1x64_S10000x64_0_1 : (⟨S1x64, .f32⟩ : BufTy).Contents (Elt F) → (⟨S10000x64, .f32⟩ : BufTy).Contents (Elt F)),
    StableHlo.binary main_v32 main_v37 main_v38 (Host.divf : (⟨S10000x64, .f32⟩ : BufTy).Contents (Elt F) → (⟨S10000x64, .f32⟩ : BufTy).Contents (Elt F) → (⟨S10000x64, .f32⟩ : BufTy).Contents (Elt F)),
    StableHlo.unary main_arg13 main_v39 (broadcastInDim S1x64 ![1] bcast_S64_S1x64_1 : (⟨S64, .f32⟩ : BufTy).Contents (Elt F) → (⟨S1x64, .f32⟩ : BufTy).Contents (Elt F)),
    StableHlo.unary main_v39 main_v40 (broadcastInDim S10000x64 ![0, 1] bcast_S1x64_S10000x64_0_1 : (⟨S1x64, .f32⟩ : BufTy).Contents (Elt F) → (⟨S10000x64, .f32⟩ : BufTy).Contents (Elt F)),
    StableHlo.binary main_v38 main_v40 main_v41 (mulf : (⟨S10000x64, .f32⟩ : BufTy).Contents (Elt F) → (⟨S10000x64, .f32⟩ : BufTy).Contents (Elt F) → (⟨S10000x64, .f32⟩ : BufTy).Contents (Elt F)),
    StableHlo.unary main_arg14 main_v42 (broadcastInDim S1x64 ![1] bcast_S64_S1x64_1 : (⟨S64, .f32⟩ : BufTy).Contents (Elt F) → (⟨S1x64, .f32⟩ : BufTy).Contents (Elt F)),
    StableHlo.unary main_v42 main_v43 (broadcastInDim S10000x64 ![0, 1] bcast_S1x64_S10000x64_0_1 : (⟨S1x64, .f32⟩ : BufTy).Contents (Elt F) → (⟨S10000x64, .f32⟩ : BufTy).Contents (Elt F)),
    StableHlo.binary main_v41 main_v43 main_v44 (addf : (⟨S10000x64, .f32⟩ : BufTy).Contents (Elt F) → (⟨S10000x64, .f32⟩ : BufTy).Contents (Elt F) → (⟨S10000x64, .f32⟩ : BufTy).Contents (Elt F)),
    StableHlo.TRef.nullary main_call3.cst (constant S_ .f32 0x00000000#32),
    StableHlo.TRef.unary main_call3.cst main_call3.v0 (broadcastInDim S10000x64 ![] bcast_S_S10000x64),
    StableHlo.TRef.binary (StableHlo.TRef.of main_v44 : StableHlo.TRef sig ⟨S10000x64, .f32⟩) main_call3.v0 main_call3.v1 maximumf,
    StableHlo.binary main_v45 main_arg15 main_v46 ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)),
    StableHlo.unary main_arg16 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S10000x128 ![0, 1] bcast_S1x128_S10000x128_0_1 : (⟨S1x128, .f32⟩ : BufTy).Contents (Elt F) → (⟨S10000x128, .f32⟩ : BufTy).Contents (Elt F)),
    StableHlo.binary main_v46 main_v48 main_v49 (addf : (⟨S10000x128, .f32⟩ : BufTy).Contents (Elt F) → (⟨S10000x128, .f32⟩ : BufTy).Contents (Elt F) → (⟨S10000x128, .f32⟩ : BufTy).Contents (Elt F)),
    StableHlo.unary main_v49 main_v50 (Host.negf : (⟨S10000x128, .f32⟩ : BufTy).Contents (Elt F) → (⟨S10000x128, .f32⟩ : BufTy).Contents (Elt F)),
    StableHlo.unary main_v50 main_v51 (Host.exp : (⟨S10000x128, .f32⟩ : BufTy).Contents (Elt F) → (⟨S10000x128, .f32⟩ : BufTy).Contents (Elt F)),
    StableHlo.nullary main_cst_2 (constant S_ .f32 0x3F800000#32),
    StableHlo.unary main_cst_2 main_v52 (broadcastInDim S10000x128 ![] bcast_S_S10000x128 : (⟨S_, .f32⟩ : BufTy).Contents (Elt F) → (⟨S10000x128, .f32⟩ : BufTy).Contents (Elt F)),
    StableHlo.binary main_v52 main_v51 main_v53 (addf : (⟨S10000x128, .f32⟩ : BufTy).Contents (Elt F) → (⟨S10000x128, .f32⟩ : BufTy).Contents (Elt F) → (⟨S10000x128, .f32⟩ : BufTy).Contents (Elt F)),
    StableHlo.nullary main_cst_3 (constant S_ .f32 0x3F800000#32) ]

/-- The second stretch's 52 operations, in order: the logistic head's quotient, the softplus head and its clipping, the
    exponential head and its clipping, and the decoder of the first embedding. -/
abbrev ops1 : List (HloOp τ sig (Elt F)) :=
  [ StableHlo.unary main_cst_3 main_v54 (broadcastInDim S10000x128 ![] bcast_S_S10000x128 : (⟨S_, .f32⟩ : BufTy).Contents (Elt F) → (⟨S10000x128, .f32⟩ : BufTy).Contents (Elt F)),
    StableHlo.binary main_v54 main_v53 main_v55 (Host.divf : (⟨S10000x128, .f32⟩ : BufTy).Contents (Elt F) → (⟨S10000x128, .f32⟩ : BufTy).Contents (Elt F) → (⟨S10000x128, .f32⟩ : BufTy).Contents (Elt F)),
    StableHlo.binary main_v45 main_arg17 main_v56 ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)),
    StableHlo.unary main_arg18 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S10000x128 ![0, 1] bcast_S1x128_S10000x128_0_1 : (⟨S1x128, .f32⟩ : BufTy).Contents (Elt F) → (⟨S10000x128, .f32⟩ : BufTy).Contents (Elt F)),
    StableHlo.binary main_v56 main_v58 main_v59 (addf : (⟨S10000x128, .f32⟩ : BufTy).Contents (Elt F) → (⟨S10000x128, .f32⟩ : BufTy).Contents (Elt F) → (⟨S10000x128, .f32⟩ : BufTy).Contents (Elt F)),
    StableHlo.TRef.nullary main_call4.cst (constant S_ .f32 0x00000000#32),
    StableHlo.TRef.unary main_call4.cst main_call4.v0 (broadcastInDim S10000x128 ![] bcast_S_S10000x128),
    StableHlo.TRef.binary (StableHlo.TRef.of main_v59 : StableHlo.TRef sig ⟨S10000x128, .f32⟩) main_call4.v0 main_call4.v1 maximumf,
    StableHlo.TRef.unary main_call4.cst main_call4.v2 (broadcastInDim S10000x128 ![] bcast_S_S10000x128),
    StableHlo.TRef.binary (StableHlo.TRef.of main_v59 : StableHlo.TRef sig ⟨S10000x128, .f32⟩) main_call4.v2 main_call4.v3 subf,
    StableHlo.TRef.binary main_call4.v3 main_call4.v3 main_call4.v4 (cmpf .une),
    StableHlo.TRef.unary main_call4.cst main_call4.v5 (broadcastInDim S10000x128 ![] bcast_S_S10000x128),
    StableHlo.TRef.binary (StableHlo.TRef.of main_v59 : StableHlo.TRef sig ⟨S10000x128, .f32⟩) main_call4.v5 main_call4.v6 addf,
    StableHlo.TRef.unary main_call4.v3 main_call4.v7 Host.absf,
    StableHlo.TRef.unary main_call4.v7 main_call4.v8 Host.negf,
    StableHlo.TRef.unary main_call4.v8 main_call4.v9 Host.exp,
    StableHlo.TRef.unary main_call4.v9 main_call4.v10 Host.log1p,
    StableHlo.TRef.binary main_call4.v1 main_call4.v10 main_call4.v11 addf,
    StableHlo.TRef.ternary main_call4.v4 main_call4.v6 main_call4.v11 main_call4.v12 select,
    StableHlo.nullary main_cst_4 (constant S_ .f32 0x38D1B717#32),
    StableHlo.nullary main_cst_5 (constant S_ .f32 0x461C4000#32),
    StableHlo.TRef.unary (StableHlo.TRef.of main_cst_4 : StableHlo.TRef sig ⟨S_, .f32⟩) main_call5.v0 id,
    StableHlo.TRef.unary main_call5.v0 main_call5.v1 (broadcastInDim S10000x128 ![] bcast_S_S10000x128),
    StableHlo.TRef.binary main_call5.v1 (StableHlo.TRef.of main_v60 : StableHlo.TRef sig ⟨S10000x128, .f32⟩) main_call5.v2 maximumf,
    StableHlo.TRef.unary (StableHlo.TRef.of main_cst_5 : StableHlo.TRef sig ⟨S_, .f32⟩) main_call5.v3 id,
    StableHlo.TRef.unary main_call5.v3 main_call5.v4 (broadcastInDim S10000x128 ![] bcast_S_S10000x128),
    StableHlo.TRef.binary main_call5.v4 main_call5.v2 main_call5.v5 minimumf,
    StableHlo.binary main_v45 main_arg19 main_v62 ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)),
    StableHlo.unary main_arg20 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S10000x128 ![0, 1] bcast_S1x128_S10000x128_0_1 : (⟨S1x128, .f32⟩ : BufTy).Contents (Elt F) → (⟨S10000x128, .f32⟩ : BufTy).Contents (Elt F)),
    StableHlo.binary main_v62 main_v64 main_v65 (addf : (⟨S10000x128, .f32⟩ : BufTy).Contents (Elt F) → (⟨S10000x128, .f32⟩ : BufTy).Contents (Elt F) → (⟨S10000x128, .f32⟩ : BufTy).Contents (Elt F)),
    StableHlo.unary main_v65 main_v66 (Host.exp : (⟨S10000x128, .f32⟩ : BufTy).Contents (Elt F) → (⟨S10000x128, .f32⟩ : BufTy).Contents (Elt F)),
    StableHlo.nullary main_cst_6 (constant S_ .f32 0x3727C5AC#32),
    StableHlo.nullary main_cst_7 (constant S_ .f32 0x49742400#32),
    StableHlo.TRef.unary (StableHlo.TRef.of main_cst_6 : StableHlo.TRef sig ⟨S_, .f32⟩) main_call6.v0 id,
    StableHlo.TRef.unary main_call6.v0 main_call6.v1 (broadcastInDim S10000x128 ![] bcast_S_S10000x128),
    StableHlo.TRef.binary main_call6.v1 (StableHlo.TRef.of main_v66 : StableHlo.TRef sig ⟨S10000x128, .f32⟩) main_call6.v2 maximumf,
    StableHlo.TRef.unary (StableHlo.TRef.of main_cst_7 : StableHlo.TRef sig ⟨S_, .f32⟩) main_call6.v3 id,
    StableHlo.TRef.unary main_call6.v3 main_call6.v4 (broadcastInDim S10000x128 ![] bcast_S_S10000x128),
    StableHlo.TRef.binary main_call6.v4 main_call6.v2 main_call6.v5 minimumf,
    StableHlo.binary main_v10 main_arg7 main_v68 ((fun l r => Host.dotGeneral dot_S10000x32_S32x64_S10000x64_1_0_0_1_n_n none l r) : (⟨S10000x32, .f32⟩ : BufTy).Contents (Elt F) → (⟨S32x64, .f32⟩ : BufTy).Contents (Elt F) → (⟨S10000x64, .f32⟩ : BufTy).Contents (Elt F)),
    StableHlo.unary main_arg8 main_v69 (broadcastInDim S1x64 ![1] bcast_S64_S1x64_1 : (⟨S64, .f32⟩ : BufTy).Contents (Elt F) → (⟨S1x64, .f32⟩ : BufTy).Contents (Elt F)),
    StableHlo.unary main_v69 main_v70 (broadcastInDim S10000x64 ![0, 1] bcast_S1x64_S10000x64_0_1 : (⟨S1x64, .f32⟩ : BufTy).Contents (Elt F) → (⟨S10000x64, .f32⟩ : BufTy).Contents (Elt F)),
    StableHlo.binary main_v68 main_v70 main_v71 (addf : (⟨S10000x64, .f32⟩ : BufTy).Contents (Elt F) → (⟨S10000x64, .f32⟩ : BufTy).Contents (Elt F) → (⟨S10000x64, .f32⟩ : BufTy).Contents (Elt F)),
    StableHlo.TRef.nullary main_call7.cst (constant S_ .f32 0x00000000#32),
    StableHlo.TRef.unary main_call7.cst main_call7.v0 (broadcastInDim S10000x64 ![] bcast_S_S10000x64),
    StableHlo.TRef.binary (StableHlo.TRef.of main_v71 : StableHlo.TRef sig ⟨S10000x64, .f32⟩) main_call7.v0 main_call7.v1 maximumf,
    StableHlo.binary main_v72 main_arg9 main_v73 ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)),
    StableHlo.unary main_arg10 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S10000x128 ![0, 1] bcast_S1x128_S10000x128_0_1 : (⟨S1x128, .f32⟩ : BufTy).Contents (Elt F) → (⟨S10000x128, .f32⟩ : BufTy).Contents (Elt F)),
    StableHlo.binary main_v73 main_v75 main_v76 (addf : (⟨S10000x128, .f32⟩ : BufTy).Contents (Elt F) → (⟨S10000x128, .f32⟩ : BufTy).Contents (Elt F) → (⟨S10000x128, .f32⟩ : BufTy).Contents (Elt F)) ]

/-- The first stretch is that straight line: the callees' definitions unfolded at their calls, the sequencing
    re-associated. -/
theorem part0_eq (c : Dev nD) : main_part0 (F := F) c = seq ops0 := by
  simp only [main_part0, fn_relu.body, fn_var.body, fn_where.body, seq, bind_assoc, pure_bind]
  rfl

/-- The second stretch likewise. -/
theorem part1_eq (c : Dev nD) : main_part1 (F := F) c = seq ops1 := by
  simp only [main_part1, fn_relu.body, fn_softplus.body, fn_clip.body, seq, bind_assoc, pure_bind]

/-! ## The arithmetic, stage by stage

Each function below is one stretch of the reference's arithmetic as a pure term of its operands, written with the
program's own operations; the run then names each result as a composition of these. -/

/-- A length-64 vector as a row, repeated down the 10000 rows. -/
def rows64 (b : FVec F S64 .f32) : FVec F S10000x64 .f32 :=
  broadcastInDim S10000x64 ![0, 1] bcast_S1x64_S10000x64_0_1 (broadcastInDim S1x64 ![1] bcast_S64_S1x64_1 b)
/-- A length-32 vector as a row, repeated down the rows. -/
def rows32 (b : FVec F S32 .f32) : FVec F S10000x32 .f32 :=
  broadcastInDim S10000x32 ![0, 1] bcast_S1x32_S10000x32_0_1 (broadcastInDim S1x32 ![1] bcast_S32_S1x32_1 b)
/-- A length-128 vector as a row, repeated down the rows. -/
def rows128 (b : FVec F S128 .f32) : FVec F S10000x128 .f32 :=
  broadcastInDim S10000x128 ![0, 1] bcast_S1x128_S10000x128_0_1 (broadcastInDim S1x128 ![1] bcast_S128_S1x128_1 b)

/-- The rectifier on a 10000 × 64 array: the maximum with the zero word spread everywhere. -/
def relu64 (h : FVec F S10000x64 .f32) : FVec F S10000x64 .f32 :=
  maximumf h (broadcastInDim S10000x64 ![] bcast_S_S10000x64 (constant (F := F) S_ .f32 0x00000000#32))

/-- The two graph-convolution layers: A · (max (A · (x · W₁) + b₁, 0) · W₂) + b₂. -/
def gcn (x : FVec F S10000x128 .f32) (sadj : FVec F S10000x10000 .f32) (W1 : FVec F S128x64 .f32) (b1 : FVec F S64 .f32)
    (W2 : FVec F S64x32 .f32) (b2 : FVec F S32 .f32) : FVec F S10000x32 .f32 :=
  addf (Host.dotGeneral dot_S10000x10000_S10000x32_S10000x32_1_0_0_1_n_n none sadj
          (Host.dotGeneral dot_S10000x64_S64x32_S10000x32_1_0_0_1_n_n none
            (relu64 (addf (Host.dotGeneral dot_S10000x10000_S10000x64_S10000x64_1_0_0_1_n_n none sadj
                            (Host.dotGeneral dot_S10000x128_S128x64_S10000x64_1_0_0_1_n_n none x W1)) (rows64 b1))) W2))
    (rows32 b2)

/-- A linear map from 32 to 64 columns with its bias. -/
def lin64 (e : FVec F S10000x32 .f32) (W : FVec F S32x64 .f32) (b : FVec F S64 .f32) : FVec F S10000x64 .f32 :=
  addf (Host.dotGeneral dot_S10000x32_S32x64_S10000x64_1_0_0_1_n_n none e W) (rows64 b)

/-- A linear map from 64 to 128 columns with its bias. -/
def lin128 (z : FVec F S10000x64 .f32) (W : FVec F S64x128 .f32) (b : FVec F S128 .f32) : FVec F S10000x128 .f32 :=
  addf (Host.dotGeneral dot_S10000x64_S64x128_S10000x128_1_0_0_1_n_n none z W) (rows128 b)

/-- The column means: the column sums from a zero initial value, divided by the word of 10000. -/
def colMeans (z : FVec F S10000x64 .f32) : FVec F S64 .f32 :=
  Host.divf (Host.reduceAdd z (constant (F := F) S_ .f32 0x00000000#32) reducesTo_S10000x64_S64_d0 h_S_)
    (broadcastInDim S64 ![] bcast_S_S64 (constant (F := F) S_ .f32 0x461C4000#32))

/-- The deviations from the column means as the variance computes them (the means kept as one row). -/
def devs (z : FVec F S10000x64 .f32) : FVec F S10000x64 .f32 :=
  subf z (broadcastInDim S10000x64 ![0, 1] bcast_S1x64_S10000x64_0_1
    (Host.divf (broadcastInDim S1x64 ![1] bcast_S64_S1x64_1
        (Host.reduceAdd z (constant (F := F) S_ .f32 0x00000000#32) reducesTo_S10000x64_S64_d0 h_S_))
      (broadcastInDim S1x64 ![] bcast_S_S1x64 (constant (F := F) S_ .f32 0x461C4000#32))))

/-- The variance's divisor: 10000 minus the correction 0 converted from an integer. -/
def varCount : FVec F S_ .f32 :=
  subf (constant (F := F) S_ .f32 0x461C4000#32) (sitofp .f32 (constantI S_ 32 0#32))

/-- The column variances: the sums of squared deviations over the divisor where the divisor is positive, else the
    not-a-number word. -/
def colVars (z : FVec F S10000x64 .f32) : FVec F S64 .f32 :=
  select (broadcastInDim S64 ![] bcast_S_S64 (cmpf .ogt (varCount (F := F)) (constant (F := F) S_ .f32 0x00000000#32)))
    (Host.divf (Host.reduceAdd (mulf (devs z) (devs z)) (constant (F := F) S_ .f32 0x00000000#32) reducesTo_S10000x64_S64_d0 h_S_)
      (broadcastInDim S64 ![] bcast_S_S64 (varCount (F := F))))
    (broadcastInDim S64 ![] bcast_S_S64 (id (constant (F := F) S_ .f32 0x7FC00000#32)))

/-- Normalise each column, scale, shift, rectify. -/
def feat (z : FVec F S10000x64 .f32) (g bt : FVec F S64 .f32) : FVec F S10000x64 .f32 :=
  relu64 (addf (mulf (Host.divf (subf z (rows64 (colMeans z)))
      (rows64 (Host.sqrt (addf (colVars z) (broadcastInDim S64 ![] bcast_S_S64 (constant (F := F) S_ .f32 0x3727C5AC#32))))))
    (rows64 g)) (rows64 bt))

/-- The logistic head's denominator: 1 + exp (−t). -/
def piDen (t : FVec F S10000x128 .f32) : FVec F S10000x128 .f32 :=
  addf (broadcastInDim S10000x128 ![] bcast_S_S10000x128 (constant (F := F) S_ .f32 0x3F800000#32)) (Host.exp (Host.negf t))

/-- The softplus as the program spells it: the argument itself where (t − 0) differs from itself, else
    max (t, 0) + log (1 + exp (−|t − 0|)). -/
def softplusArr (t : FVec F S10000x128 .f32) : FVec F S10000x128 .f32 :=
  select (cmpf .une (subf t (broadcastInDim S10000x128 ![] bcast_S_S10000x128 (constant (F := F) S_ .f32 0x00000000#32)))
                    (subf t (broadcastInDim S10000x128 ![] bcast_S_S10000x128 (constant (F := F) S_ .f32 0x00000000#32))))
    (addf t (broadcastInDim S10000x128 ![] bcast_S_S10000x128 (constant (F := F) S_ .f32 0x00000000#32)))
    (addf (maximumf t (broadcastInDim S10000x128 ![] bcast_S_S10000x128 (constant (F := F) S_ .f32 0x00000000#32)))
      (Host.log1p (Host.exp (Host.negf (Host.absf
        (subf t (broadcastInDim S10000x128 ![] bcast_S_S10000x128 (constant (F := F) S_ .f32 0x00000000#32))))))))

/-- Clipping between two scalar words: min (hi, max (lo, t)). -/
def clipArr (t : FVec F S10000x128 .f32) (lo hi : FVec F S_ .f32) : FVec F S10000x128 .f32 :=
  minimumf (broadcastInDim S10000x128 ![] bcast_S_S10000x128 (id hi))
    (maximumf (broadcastInDim S10000x128 ![] bcast_S_S10000x128 (id lo)) t)

/-- The decoder: max (e · D₁ + d₁, 0) · D₂ + d₂. -/
def dec (e : FVec F S10000x32 .f32) (dW1 : FVec F S32x64 .f32) (db1 : FVec F S64 .f32) (dW2 : FVec F S64x128 .f32)
    (db2 : FVec F S128 .f32) : FVec F S10000x128 .f32 :=
  lin128 (relu64 (lin64 e dW1 db1)) dW2 db2

/-! ## The run -/

theorem main_eq (c : Dev nD) : main (F := F) c = seq (ops0 ++ ops1) := by
  have h : main (F := F) c = main_part0 c >>= fun _ => main_part1 c := rfl
  rw [h, part0_eq, part1_eq, seq_append]

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨binary_bufs_sub .., binary_bufs_sub .., unary_bufs_sub .., unary_bufs_sub .., binary_bufs_sub .., nullary_bufs_sub ..,
    unary_bufs_sub .., binary_bufs_sub .., binary_bufs_sub .., binary_bufs_sub .., unary_bufs_sub .., unary_bufs_sub ..,
    binary_bufs_sub .., binary_bufs_sub .., binary_bufs_sub .., unary_bufs_sub .., unary_bufs_sub .., binary_bufs_sub ..,
    nullary_bufs_sub .., unary_bufs_sub .., binary_bufs_sub .., binary_bufs_sub .., binary_bufs_sub .., unary_bufs_sub ..,
    unary_bufs_sub .., binary_bufs_sub .., binary_bufs_sub .., unary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., unary_bufs_sub .., unary_bufs_sub .., nullary_bufs_sub ..,
    unary_bufs_sub .., binary_bufs_sub .., nullary_bufs_sub ..⟩

theorem ops1_sub : (ops1 : List (HloOp τ sig (Elt F))).Forall fun op => op.bufs ⊆ tcRefs τ sig :=
  ⟨unary_bufs_sub .., binary_bufs_sub .., binary_bufs_sub .., unary_bufs_sub .., unary_bufs_sub .., binary_bufs_sub ..,
    nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub .., nullary_bufs_sub .., nullary_bufs_sub .., unary_bufs_sub .., unary_bufs_sub ..,
    binary_bufs_sub .., unary_bufs_sub .., unary_bufs_sub .., binary_bufs_sub .., binary_bufs_sub .., unary_bufs_sub ..,
    unary_bufs_sub .., binary_bufs_sub .., unary_bufs_sub .., nullary_bufs_sub .., nullary_bufs_sub .., unary_bufs_sub ..,
    unary_bufs_sub .., binary_bufs_sub .., unary_bufs_sub .., unary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub ..⟩

theorem ops_sub : (ops0 ++ ops1 : List (HloOp τ sig (Elt F))).Forall fun op => op.bufs ⊆ tcRefs τ sig :=
  List.forall_iff_forall_mem.mpr fun op h => (List.mem_append.mp h).elim
    (List.forall_iff_forall_mem.mp ops0_sub op) (List.forall_iff_forall_mem.mp ops1_sub op)

/-- Every operation determines its results. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl⟩

theorem ops_fresh : ∀ op ∈ (ops0 ++ ops1 : List (HloOp τ sig (Elt F))), op.fresh = ∅ :=
  fun op h => (List.mem_append.mp h).elim
    (List.forall_iff_forall_mem.mp ops0_fresh op) (List.forall_iff_forall_mem.mp ops1_fresh op)

/-- On every device, for any float values, from any memory with zero counters: every weakly fair execution of the
    entry function terminates, and every buffer ends at the second stretch's fold over the first stretch's fold over
    the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops1 (after ops0 (launchContents m c)) (b : DevRef τ sig) :=
  (θ_run defs _ _).mono (fun _ h c b => (h c b).trans (congrFun (Cert.LibAfter.after_append ops0 ops1 _) _))
    (run_seq scopedRefs_eq scopedSems_eq defs main (fun _ => ops0 ++ ops1) main_eq (fun _ => ops_sub) m ρ (fun _ => ops_fresh))

/-! ## What the first stretch leaves -/

variable (V W : Valuation τ sig (Elt F))

theorem p0_v10 : after ops0 V (main_v10 : DevRef τ sig) = gcn (V (main_arg0 : DevRef τ sig)) (V (main_arg2 : DevRef τ sig)) (V (main_arg3 : DevRef τ sig)) (V (main_arg4 : DevRef τ sig)) (V (main_arg5 : DevRef τ sig)) (V (main_arg6 : DevRef τ sig)) := by
  after_results_simp
  rfl

theorem p0_v21 : after ops0 V (main_v21 : DevRef τ sig) = gcn (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  rfl

theorem p0_v45 : after ops0 V (main_v45 : DevRef τ sig) = feat (lin64 (gcn (V (main_arg1 : DevRef τ sig)) (V (main_arg2 : DevRef τ sig)) (V (main_arg3 : DevRef τ sig)) (V (main_arg4 : DevRef τ sig)) (V (main_arg5 : DevRef τ sig)) (V (main_arg6 : DevRef τ sig))) (V (main_arg11 : DevRef τ sig)) (V (main_arg12 : DevRef τ sig))) (V (main_arg13 : DevRef τ sig)) (V (main_arg14 : DevRef τ sig)) := by
  after_results_simp
  rfl

theorem p0_v53 : after ops0 V (main_v53 : DevRef τ sig) = piDen (lin128 (feat (lin64 (gcn (V (main_arg1 : DevRef τ sig)) (V (main_arg2 : DevRef τ sig)) (V (main_arg3 : DevRef τ sig)) (V (main_arg4 : DevRef τ sig)) (V (main_arg5 : DevRef τ sig)) (V (main_arg6 : DevRef τ sig))) (V (main_arg11 : DevRef τ sig)) (V (main_arg12 : DevRef τ sig))) (V (main_arg13 : DevRef τ sig)) (V (main_arg14 : DevRef τ sig))) (V (main_arg15 : DevRef τ sig)) (V (main_arg16 : DevRef τ sig))) := by
  after_results_simp
  rfl

theorem p0_cst_3 : after ops0 V (main_cst_3 : DevRef τ sig) = constant (F := F) S_ .f32 0x3F800000#32 := by
  after_results_simp

theorem p0_arg0 : after ops0 V (main_arg0 : DevRef τ sig) = V (main_arg0 : DevRef τ sig) := by
  after_results_simp

theorem p0_arg1 : after ops0 V (main_arg1 : DevRef τ sig) = V (main_arg1 : DevRef τ sig) := by
  after_results_simp

theorem p0_arg2 : after ops0 V (main_arg2 : DevRef τ sig) = V (main_arg2 : DevRef τ sig) := by
  after_results_simp

theorem p0_arg3 : after ops0 V (main_arg3 : DevRef τ sig) = V (main_arg3 : DevRef τ sig) := by
  after_results_simp

theorem p0_arg4 : after ops0 V (main_arg4 : DevRef τ sig) = V (main_arg4 : DevRef τ sig) := by
  after_results_simp

theorem p0_arg5 : after ops0 V (main_arg5 : DevRef τ sig) = V (main_arg5 : DevRef τ sig) := by
  after_results_simp

theorem p0_arg6 : after ops0 V (main_arg6 : DevRef τ sig) = V (main_arg6 : DevRef τ sig) := by
  after_results_simp

theorem p0_arg7 : after ops0 V (main_arg7 : DevRef τ sig) = V (main_arg7 : DevRef τ sig) := by
  after_results_simp

theorem p0_arg8 : after ops0 V (main_arg8 : DevRef τ sig) = V (main_arg8 : DevRef τ sig) := by
  after_results_simp

theorem p0_arg9 : after ops0 V (main_arg9 : DevRef τ sig) = V (main_arg9 : DevRef τ sig) := by
  after_results_simp

theorem p0_arg10 : after ops0 V (main_arg10 : DevRef τ sig) = V (main_arg10 : DevRef τ sig) := by
  after_results_simp

theorem p0_arg11 : after ops0 V (main_arg11 : DevRef τ sig) = V (main_arg11 : DevRef τ sig) := by
  after_results_simp

theorem p0_arg12 : after ops0 V (main_arg12 : DevRef τ sig) = V (main_arg12 : DevRef τ sig) := by
  after_results_simp

theorem p0_arg13 : after ops0 V (main_arg13 : DevRef τ sig) = V (main_arg13 : DevRef τ sig) := by
  after_results_simp

theorem p0_arg14 : after ops0 V (main_arg14 : DevRef τ sig) = V (main_arg14 : DevRef τ sig) := by
  after_results_simp

theorem p0_arg15 : after ops0 V (main_arg15 : DevRef τ sig) = V (main_arg15 : DevRef τ sig) := by
  after_results_simp

theorem p0_arg16 : after ops0 V (main_arg16 : DevRef τ sig) = V (main_arg16 : DevRef τ sig) := by
  after_results_simp

theorem p0_arg17 : after ops0 V (main_arg17 : DevRef τ sig) = V (main_arg17 : DevRef τ sig) := by
  after_results_simp

theorem p0_arg18 : after ops0 V (main_arg18 : DevRef τ sig) = V (main_arg18 : DevRef τ sig) := by
  after_results_simp

theorem p0_arg19 : after ops0 V (main_arg19 : DevRef τ sig) = V (main_arg19 : DevRef τ sig) := by
  after_results_simp

theorem p0_arg20 : after ops0 V (main_arg20 : DevRef τ sig) = V (main_arg20 : DevRef τ sig) := by
  after_results_simp

/-! ## What the second stretch leaves -/

theorem p1_v55 : after ops1 W (main_v55 : DevRef τ sig)
    = Host.divf (broadcastInDim S10000x128 ![] bcast_S_S10000x128 (W (main_cst_3 : DevRef τ sig))) (W (main_v53 : DevRef τ sig)) := by
  after_results_simp

theorem p1_v61 : after ops1 W (main_v61 : DevRef τ sig)
    = clipArr (softplusArr (lin128 (W (main_v45 : DevRef τ sig)) (W (main_arg17 : DevRef τ sig)) (W (main_arg18 : DevRef τ sig))))
        (constant (F := F) S_ .f32 0x38D1B717#32) (constant (F := F) S_ .f32 0x461C4000#32) := by
  after_results_simp
  rfl

theorem p1_v67 : after ops1 W (main_v67 : DevRef τ sig)
    = clipArr (Host.exp (lin128 (W (main_v45 : DevRef τ sig)) (W (main_arg19 : DevRef τ sig)) (W (main_arg20 : DevRef τ sig))))
        (constant (F := F) S_ .f32 0x3727C5AC#32) (constant (F := F) S_ .f32 0x49742400#32) := by
  after_results_simp
  rfl

theorem p1_v76 : after ops1 W (main_v76 : DevRef τ sig)
    = dec (W (main_v10 : DevRef τ sig)) (W (main_arg7 : DevRef τ sig)) (W (main_arg8 : DevRef τ sig)) (W (main_arg9 : DevRef τ sig)) (W (main_arg10 : DevRef τ sig)) := by
  after_results_simp
  rfl

theorem p1_v10 : after ops1 W (main_v10 : DevRef τ sig) = W (main_v10 : DevRef τ sig) := by
  after_results_simp

theorem p1_v21 : after ops1 W (main_v21 : DevRef τ sig) = W (main_v21 : DevRef τ sig) := by
  after_results_simp

theorem p1_arg0 : after ops1 W (main_arg0 : DevRef τ sig) = W (main_arg0 : DevRef τ sig) := by
  after_results_simp

theorem p1_arg1 : after ops1 W (main_arg1 : DevRef τ sig) = W (main_arg1 : DevRef τ sig) := by
  after_results_simp

theorem p1_arg2 : after ops1 W (main_arg2 : DevRef τ sig) = W (main_arg2 : DevRef τ sig) := by
  after_results_simp

theorem p1_arg3 : after ops1 W (main_arg3 : DevRef τ sig) = W (main_arg3 : DevRef τ sig) := by
  after_results_simp

theorem p1_arg4 : after ops1 W (main_arg4 : DevRef τ sig) = W (main_arg4 : DevRef τ sig) := by
  after_results_simp

theorem p1_arg5 : after ops1 W (main_arg5 : DevRef τ sig) = W (main_arg5 : DevRef τ sig) := by
  after_results_simp

theorem p1_arg6 : after ops1 W (main_arg6 : DevRef τ sig) = W (main_arg6 : DevRef τ sig) := by
  after_results_simp

theorem p1_arg7 : after ops1 W (main_arg7 : DevRef τ sig) = W (main_arg7 : DevRef τ sig) := by
  after_results_simp

theorem p1_arg8 : after ops1 W (main_arg8 : DevRef τ sig) = W (main_arg8 : DevRef τ sig) := by
  after_results_simp

theorem p1_arg9 : after ops1 W (main_arg9 : DevRef τ sig) = W (main_arg9 : DevRef τ sig) := by
  after_results_simp

theorem p1_arg10 : after ops1 W (main_arg10 : DevRef τ sig) = W (main_arg10 : DevRef τ sig) := by
  after_results_simp

theorem p1_arg11 : after ops1 W (main_arg11 : DevRef τ sig) = W (main_arg11 : DevRef τ sig) := by
  after_results_simp

theorem p1_arg12 : after ops1 W (main_arg12 : DevRef τ sig) = W (main_arg12 : DevRef τ sig) := by
  after_results_simp

theorem p1_arg13 : after ops1 W (main_arg13 : DevRef τ sig) = W (main_arg13 : DevRef τ sig) := by
  after_results_simp

theorem p1_arg14 : after ops1 W (main_arg14 : DevRef τ sig) = W (main_arg14 : DevRef τ sig) := by
  after_results_simp

theorem p1_arg15 : after ops1 W (main_arg15 : DevRef τ sig) = W (main_arg15 : DevRef τ sig) := by
  after_results_simp

theorem p1_arg16 : after ops1 W (main_arg16 : DevRef τ sig) = W (main_arg16 : DevRef τ sig) := by
  after_results_simp

theorem p1_arg17 : after ops1 W (main_arg17 : DevRef τ sig) = W (main_arg17 : DevRef τ sig) := by
  after_results_simp

theorem p1_arg18 : after ops1 W (main_arg18 : DevRef τ sig) = W (main_arg18 : DevRef τ sig) := by
  after_results_simp

theorem p1_arg19 : after ops1 W (main_arg19 : DevRef τ sig) = W (main_arg19 : DevRef τ sig) := by
  after_results_simp

theorem p1_arg20 : after ops1 W (main_arg20 : DevRef τ sig) = W (main_arg20 : DevRef τ sig) := by
  after_results_simp

/-! ## The six results and the arguments after both stretches -/

theorem res_v10 : after ops1 (after ops0 V) (main_v10 : DevRef τ sig) = gcn (V (main_arg0 : DevRef τ sig)) (V (main_arg2 : DevRef τ sig)) (V (main_arg3 : DevRef τ sig)) (V (main_arg4 : DevRef τ sig)) (V (main_arg5 : DevRef τ sig)) (V (main_arg6 : DevRef τ sig)) := by
  rw [p1_v10, p0_v10]

theorem res_v21 : after ops1 (after ops0 V) (main_v21 : DevRef τ sig) = gcn (V (main_arg1 : DevRef τ sig)) (V (main_arg2 : DevRef τ sig)) (V (main_arg3 : DevRef τ sig)) (V (main_arg4 : DevRef τ sig)) (V (main_arg5 : DevRef τ sig)) (V (main_arg6 : DevRef τ sig)) := by
  rw [p1_v21, p0_v21]

theorem res_v76 : after ops1 (after ops0 V) (main_v76 : DevRef τ sig)
    = dec (gcn (V (main_arg0 : DevRef τ sig)) (V (main_arg2 : DevRef τ sig)) (V (main_arg3 : DevRef τ sig)) (V (main_arg4 : DevRef τ sig)) (V (main_arg5 : DevRef τ sig)) (V (main_arg6 : DevRef τ sig))) (V (main_arg7 : DevRef τ sig)) (V (main_arg8 : DevRef τ sig)) (V (main_arg9 : DevRef τ sig)) (V (main_arg10 : DevRef τ sig)) := by
  rw [p1_v76, p0_v10, p0_arg7, p0_arg8, p0_arg9, p0_arg10]

theorem res_v55 : after ops1 (after ops0 V) (main_v55 : DevRef τ sig)
    = Host.divf (broadcastInDim S10000x128 ![] bcast_S_S10000x128 (constant (F := F) S_ .f32 0x3F800000#32))
        (piDen (lin128 (feat (lin64 (gcn (V (main_arg1 : DevRef τ sig)) (V (main_arg2 : DevRef τ sig)) (V (main_arg3 : DevRef τ sig)) (V (main_arg4 : DevRef τ sig)) (V (main_arg5 : DevRef τ sig)) (V (main_arg6 : DevRef τ sig))) (V (main_arg11 : DevRef τ sig)) (V (main_arg12 : DevRef τ sig))) (V (main_arg13 : DevRef τ sig)) (V (main_arg14 : DevRef τ sig))) (V (main_arg15 : DevRef τ sig)) (V (main_arg16 : DevRef τ sig)))) := by
  rw [p1_v55, p0_cst_3, p0_v53]

theorem res_v61 : after ops1 (after ops0 V) (main_v61 : DevRef τ sig)
    = clipArr (softplusArr (lin128 (feat (lin64 (gcn (V (main_arg1 : DevRef τ sig)) (V (main_arg2 : DevRef τ sig)) (V (main_arg3 : DevRef τ sig)) (V (main_arg4 : DevRef τ sig)) (V (main_arg5 : DevRef τ sig)) (V (main_arg6 : DevRef τ sig))) (V (main_arg11 : DevRef τ sig)) (V (main_arg12 : DevRef τ sig))) (V (main_arg13 : DevRef τ sig)) (V (main_arg14 : DevRef τ sig))) (V (main_arg17 : DevRef τ sig)) (V (main_arg18 : DevRef τ sig))))
        (constant (F := F) S_ .f32 0x38D1B717#32) (constant (F := F) S_ .f32 0x461C4000#32) := by
  rw [p1_v61, p0_v45, p0_arg17, p0_arg18]

theorem res_v67 : after ops1 (after ops0 V) (main_v67 : DevRef τ sig)
    = clipArr (Host.exp (lin128 (feat (lin64 (gcn (V (main_arg1 : DevRef τ sig)) (V (main_arg2 : DevRef τ sig)) (V (main_arg3 : DevRef τ sig)) (V (main_arg4 : DevRef τ sig)) (V (main_arg5 : DevRef τ sig)) (V (main_arg6 : DevRef τ sig))) (V (main_arg11 : DevRef τ sig)) (V (main_arg12 : DevRef τ sig))) (V (main_arg13 : DevRef τ sig)) (V (main_arg14 : DevRef τ sig))) (V (main_arg19 : DevRef τ sig)) (V (main_arg20 : DevRef τ sig))))
        (constant (F := F) S_ .f32 0x3727C5AC#32) (constant (F := F) S_ .f32 0x49742400#32) := by
  rw [p1_v67, p0_v45, p0_arg19, p0_arg20]

theorem res_arg0 : after ops1 (after ops0 V) (main_arg0 : DevRef τ sig) = V (main_arg0 : DevRef τ sig) := by
  rw [p1_arg0, p0_arg0]

theorem res_arg1 : after ops1 (after ops0 V) (main_arg1 : DevRef τ sig) = V (main_arg1 : DevRef τ sig) := by
  rw [p1_arg1, p0_arg1]

theorem res_arg2 : after ops1 (after ops0 V) (main_arg2 : DevRef τ sig) = V (main_arg2 : DevRef τ sig) := by
  rw [p1_arg2, p0_arg2]

theorem res_arg3 : after ops1 (after ops0 V) (main_arg3 : DevRef τ sig) = V (main_arg3 : DevRef τ sig) := by
  rw [p1_arg3, p0_arg3]

theorem res_arg4 : after ops1 (after ops0 V) (main_arg4 : DevRef τ sig) = V (main_arg4 : DevRef τ sig) := by
  rw [p1_arg4, p0_arg4]

theorem res_arg5 : after ops1 (after ops0 V) (main_arg5 : DevRef τ sig) = V (main_arg5 : DevRef τ sig) := by
  rw [p1_arg5, p0_arg5]

theorem res_arg6 : after ops1 (after ops0 V) (main_arg6 : DevRef τ sig) = V (main_arg6 : DevRef τ sig) := by
  rw [p1_arg6, p0_arg6]

theorem res_arg7 : after ops1 (after ops0 V) (main_arg7 : DevRef τ sig) = V (main_arg7 : DevRef τ sig) := by
  rw [p1_arg7, p0_arg7]

theorem res_arg8 : after ops1 (after ops0 V) (main_arg8 : DevRef τ sig) = V (main_arg8 : DevRef τ sig) := by
  rw [p1_arg8, p0_arg8]

theorem res_arg9 : after ops1 (after ops0 V) (main_arg9 : DevRef τ sig) = V (main_arg9 : DevRef τ sig) := by
  rw [p1_arg9, p0_arg9]

theorem res_arg10 : after ops1 (after ops0 V) (main_arg10 : DevRef τ sig) = V (main_arg10 : DevRef τ sig) := by
  rw [p1_arg10, p0_arg10]

theorem res_arg11 : after ops1 (after ops0 V) (main_arg11 : DevRef τ sig) = V (main_arg11 : DevRef τ sig) := by
  rw [p1_arg11, p0_arg11]

theorem res_arg12 : after ops1 (after ops0 V) (main_arg12 : DevRef τ sig) = V (main_arg12 : DevRef τ sig) := by
  rw [p1_arg12, p0_arg12]

theorem res_arg13 : after ops1 (after ops0 V) (main_arg13 : DevRef τ sig) = V (main_arg13 : DevRef τ sig) := by
  rw [p1_arg13, p0_arg13]

theorem res_arg14 : after ops1 (after ops0 V) (main_arg14 : DevRef τ sig) = V (main_arg14 : DevRef τ sig) := by
  rw [p1_arg14, p0_arg14]

theorem res_arg15 : after ops1 (after ops0 V) (main_arg15 : DevRef τ sig) = V (main_arg15 : DevRef τ sig) := by
  rw [p1_arg15, p0_arg15]

theorem res_arg16 : after ops1 (after ops0 V) (main_arg16 : DevRef τ sig) = V (main_arg16 : DevRef τ sig) := by
  rw [p1_arg16, p0_arg16]

theorem res_arg17 : after ops1 (after ops0 V) (main_arg17 : DevRef τ sig) = V (main_arg17 : DevRef τ sig) := by
  rw [p1_arg17, p0_arg17]

theorem res_arg18 : after ops1 (after ops0 V) (main_arg18 : DevRef τ sig) = V (main_arg18 : DevRef τ sig) := by
  rw [p1_arg18, p0_arg18]

theorem res_arg19 : after ops1 (after ops0 V) (main_arg19 : DevRef τ sig) = V (main_arg19 : DevRef τ sig) := by
  rw [p1_arg19, p0_arg19]

theorem res_arg20 : after ops1 (after ops0 V) (main_arg20 : DevRef τ sig) = V (main_arg20 : DevRef τ sig) := by
  rw [p1_arg20, p0_arg20]

end Cert.ReferenceIdeal.RefRun

end
-- ==== Proof.LibHostRow.lean ====
/-
  A bias row spread over the rows of a matrix, and a scalar spread over an array, on the host.

  To add a length-`d` vector to every row of an `[n, d]` array the host first regards the vector as one row `[1, d]`
  and then repeats that row `n` times (two `broadcast_in_dim`s, with dimension maps `[1]` and `[0, 1]`): entry (r, q) of
  the result is entry q of the vector. A scalar spread to any shape (dimension map `[]`) reads the scalar everywhere.
  All three steps are stated for arbitrary extents.
-/
import Idealize.ShloMosaic.Lib.Pipeline.Value
import Idealize.ShloMosaic.Lib.ValueIdx

noncomputable section

namespace Cert.LibHostRow

open Idealize.ShloMosaic Idealize.ShloMosaic.ValueIdx

/-- A vector regarded as one row reads, at (0, q), the vector's entry q. -/
theorem row_apply {α : Type} {d : ℕ} (x : (⟨1, ![d]⟩ : Shape).Idx → α)
    (h : (⟨1, ![d]⟩ : Shape).BroadcastsInDim ⟨2, ![1, d]⟩ (![1] : Fin 1 → Fin 2)) (u : Fin 1) (q : Fin d) :
    broadcastInDim ⟨2, ![1, d]⟩ ![1] h x (ix2 u q) = x (ix1 q) := by
  refine broadcastInDim_apply _ h x (ix2 u q) (ix1 q) fun a => ?_
  match a with
  | ⟨0, _⟩ =>
    show q.val = if d = 1 then 0 else q.val
    split
    · have := q.isLt; omega
    · rfl

/-- One row repeated down the rows reads, at (r, q), the row's entry q. -/
theorem rows_apply {α : Type} {n d : ℕ} (x : (⟨2, ![1, d]⟩ : Shape).Idx → α)
    (h : (⟨2, ![1, d]⟩ : Shape).BroadcastsInDim ⟨2, ![n, d]⟩ (![0, 1] : Fin 2 → Fin 2)) (r : Fin n) (q : Fin d) :
    broadcastInDim ⟨2, ![n, d]⟩ ![0, 1] h x (ix2 r q) = x (ix2 (0 : Fin 1) q) := by
  refine broadcastInDim_apply _ h x (ix2 r q) (ix2 (0 : Fin 1) q) fun a => ?_
  match a with
  | ⟨0, _⟩ => rfl
  | ⟨1, _⟩ =>
    show q.val = if d = 1 then 0 else q.val
    split
    · have := q.isLt; omega
    · rfl

/-- A scalar spread to any shape reads, everywhere, the scalar. -/
theorem scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun a => a.elim0

end Cert.LibHostRow

end
-- ==== Proof.RefValue.lean ====
/-
  The reference program's value.

  Each stretch of the reference's arithmetic, read on the extended reals, is one of the specification's functions:
  a host dot of a plain product is the matrix product; a vector regarded as one row and repeated down the rows, then
  added, is the bias row added to every row; the maximum with the spread zero word is the floor at zero; the column
  sums from a zero initial value divided by the word of 10000 are the column means; the variance's guard
  (10000 − 0 > 0) holds, so its guarded quotient is the plain quotient; a value is never different from itself, so
  the softplus takes its logarithmic branch; 1 / (1 + exp (−t)) is the logistic function; clipping is a minimum of a
  maximum. Composed, the six results of the run are the specification's six functions of the twenty-one arguments.
-/
import proofs.«178206_g36112085024797_cont_8to1_b_1395_2_alg».proof.Proof.RefRun
import proofs.«178206_g36112085024797_cont_8to1_b_1395_2_alg».proof.Proof.Spec
import proofs.«178206_g36112085024797_cont_8to1_b_1395_2_alg».proof.Proof.LibHostRow
import proofs.«178206_g36112085024797_cont_8to1_b_1395_2_alg».proof.Proof.LibHostColSum
import Idealize.ShloMosaic.Lib.IdealHost
import Idealize.ShloMosaic.Lib.ValueLayout
import Idealize.ShloMosaic.PureOps.Ideal.Laws

set_option maxRecDepth 16384
noncomputable section

namespace Cert.ReferenceIdeal.RefValue
open Idealize.ShloMosaic Idealize.ShloMosaic.TcCoe Idealize.SL.Sem Cert.ReferenceIdeal

section Stages

open Idealize.ShloMosaic.ValueIdx
open Cert.MatProduct (rowOf colOf prod eq_row_col)
open Cert.RowBias (addRow addRowMax)
open Cert.LibHostRow (scalar_apply)
open Cert.ReferenceIdeal.Facts₀

variable [Cert.ReferenceIdeal.Facts]

/-! ### Products -/

/-- A host dot whose dimension numbers are those of a plain product is the product. -/
theorem dot_eq_prod {M K N : ℕ} (d : DotDims ⟨2, ![M, K]⟩ ⟨2, ![K, N]⟩ ⟨2, ![M, N]⟩) (hd : d = DotDims.plain M K N)
    (l : FVec Ideal ⟨2, ![M, K]⟩ .f32) (r : FVec Ideal ⟨2, ![K, N]⟩ .f32) :
    Host.dotGeneral d none l r = prod l r := by
  subst hd
  exact Cert.MatProduct.dotGeneral_eq_prod none _ l r

theorem dot_x_w1 (l : FVec Ideal S10000x128 .f32) (r : FVec Ideal S128x64 .f32) :
    Host.dotGeneral dot_S10000x128_S128x64_S10000x64_1_0_0_1_n_n none l r = prod l r := dot_eq_prod _ rfl l r

theorem dot_a_64 (l : FVec Ideal S10000x10000 .f32) (r : FVec Ideal S10000x64 .f32) :
    Host.dotGeneral dot_S10000x10000_S10000x64_S10000x64_1_0_0_1_n_n none l r = prod l r := dot_eq_prod _ rfl l r

theorem dot_h_w2 (l : FVec Ideal S10000x64 .f32) (r : FVec Ideal S64x32 .f32) :
    Host.dotGeneral dot_S10000x64_S64x32_S10000x32_1_0_0_1_n_n none l r = prod l r := dot_eq_prod _ rfl l r

theorem dot_a_32 (l : FVec Ideal S10000x10000 .f32) (r : FVec Ideal S10000x32 .f32) :
    Host.dotGeneral dot_S10000x10000_S10000x32_S10000x32_1_0_0_1_n_n none l r = prod l r := dot_eq_prod _ rfl l r

theorem dot_e_64 (l : FVec Ideal S10000x32 .f32) (r : FVec Ideal S32x64 .f32) :
    Host.dotGeneral dot_S10000x32_S32x64_S10000x64_1_0_0_1_n_n none l r = prod l r := dot_eq_prod _ rfl l r

theorem dot_z_128 (l : FVec Ideal S10000x64 .f32) (r : FVec Ideal S64x128 .f32) :
    Host.dotGeneral dot_S10000x64_S64x128_S10000x128_1_0_0_1_n_n none l r = prod l r := dot_eq_prod _ rfl l r

/-! ### Bias rows and the floor at zero -/

/-- One row repeated down the rows reads, at any entry, the row at the entry's column. -/
theorem spread_apply {n d : ℕ} (x : (⟨2, ![1, d]⟩ : Shape).Idx → EReal)
    (h2 : (⟨2, ![1, d]⟩ : Shape).BroadcastsInDim ⟨2, ![n, d]⟩ (![0, 1] : Fin 2 → Fin 2)) (y : (⟨2, ![n, d]⟩ : Shape).Idx) :
    broadcastInDim ⟨2, ![n, d]⟩ ![0, 1] h2 x y = x (ix2 0 (colOf y)) := by
  conv_lhs => rw [eq_row_col y]
  exact Cert.LibHostRow.rows_apply x h2 _ _

/-- A vector regarded as one row and repeated down the rows reads, at any entry, the vector at the entry's column. -/
theorem rows_apply {n d : ℕ} (b : (⟨1, ![d]⟩ : Shape).Idx → EReal)
    (h1 : (⟨1, ![d]⟩ : Shape).BroadcastsInDim ⟨2, ![1, d]⟩ (![1] : Fin 1 → Fin 2))
    (h2 : (⟨2, ![1, d]⟩ : Shape).BroadcastsInDim ⟨2, ![n, d]⟩ (![0, 1] : Fin 2 → Fin 2)) (y : (⟨2, ![n, d]⟩ : Shape).Idx) :
    broadcastInDim ⟨2, ![n, d]⟩ ![0, 1] h2 (broadcastInDim ⟨2, ![1, d]⟩ ![1] h1 b) y = b (ix1 (colOf y)) := by
  rw [spread_apply, Cert.LibHostRow.row_apply]

/-- Adding that spread vector is adding the bias row. -/
theorem addf_rows {n d : ℕ} (x : FVec Ideal ⟨2, ![n, d]⟩ .f32) (b : FVec Ideal ⟨1, ![d]⟩ .f32)
    (h1 : (⟨1, ![d]⟩ : Shape).BroadcastsInDim ⟨2, ![1, d]⟩ (![1] : Fin 1 → Fin 2))
    (h2 : (⟨2, ![1, d]⟩ : Shape).BroadcastsInDim ⟨2, ![n, d]⟩ (![0, 1] : Fin 2 → Fin 2)) :
    addf x (broadcastInDim ⟨2, ![n, d]⟩ ![0, 1] h2 (broadcastInDim ⟨2, ![1, d]⟩ ![1] h1 b)) = addRow x (Cert.Spec.row b) := by
  funext y
  rw [addf_apply, rows_apply]
  rfl

theorem rows64_apply (b : FVec Ideal S64 .f32) (y : S10000x64.Idx) : RefRun.rows64 b y = b (ix1 (colOf y)) :=
  rows_apply b _ _ y

/-- The rectifier is the floor at zero, entry by entry. -/
theorem relu64_apply (h : FVec Ideal S10000x64 .f32) (y : S10000x64.Idx) : RefRun.relu64 h y = max (h y) 0 := by
  unfold RefRun.relu64
  rw [maximumf_apply, scalar_apply, constant_apply, Ideal.ofBits_zero_f32]

/-- A bias row added and the result floored at zero. -/
theorem relu_addf_rows64 (x : FVec Ideal S10000x64 .f32) (b : FVec Ideal S64 .f32) :
    RefRun.relu64 (addf x (RefRun.rows64 b)) = addRowMax x (Cert.Spec.row b) 0 := by
  funext y
  rw [relu64_apply, addf_apply, rows64_apply]
  rfl

theorem lin64_eq (e : FVec Ideal S10000x32 .f32) (W : FVec Ideal S32x64 .f32) (b : FVec Ideal S64 .f32) :
    RefRun.lin64 e W b = addRow (prod e W) (Cert.Spec.row b) := by
  unfold RefRun.lin64 RefRun.rows64
  rw [dot_e_64, addf_rows]

theorem relu_lin64_eq (e : FVec Ideal S10000x32 .f32) (W : FVec Ideal S32x64 .f32) (b : FVec Ideal S64 .f32) :
    RefRun.relu64 (RefRun.lin64 e W b) = addRowMax (prod e W) (Cert.Spec.row b) 0 := by
  unfold RefRun.lin64
  rw [dot_e_64, relu_addf_rows64]

theorem lin128_eq (z : FVec Ideal S10000x64 .f32) (W : FVec Ideal S64x128 .f32) (b : FVec Ideal S128 .f32) :
    RefRun.lin128 z W b = addRow (prod z W) (Cert.Spec.row b) := by
  unfold RefRun.lin128 RefRun.rows128
  rw [dot_z_128, addf_rows]

/-! ### The two graph-convolution layers and the decoder -/

theorem gcn_eq (x : FVec Ideal S10000x128 .f32) (sadj : FVec Ideal S10000x10000 .f32) (W1 : FVec Ideal S128x64 .f32)
    (b1 : FVec Ideal S64 .f32) (W2 : FVec Ideal S64x32 .f32) (b2 : FVec Ideal S32 .f32) :
    RefRun.gcn x sadj W1 b1 W2 b2 = Cert.Spec.embed x sadj W1 (Cert.Spec.row b1) W2 (Cert.Spec.row b2) := by
  unfold RefRun.gcn RefRun.rows32
  delta Cert.Spec.embed Cert.Spec.hidden
  rw [dot_a_32, dot_h_w2, dot_a_64, dot_x_w1, relu_addf_rows64, addf_rows]

theorem dec_eq (e : FVec Ideal S10000x32 .f32) (dW1 : FVec Ideal S32x64 .f32) (db1 : FVec Ideal S64 .f32)
    (dW2 : FVec Ideal S64x128 .f32) (db2 : FVec Ideal S128 .f32) :
    RefRun.dec e dW1 db1 dW2 db2 = Cert.Spec.decode e dW1 (Cert.Spec.row db1) dW2 (Cert.Spec.row db2) := by
  unfold RefRun.dec
  delta Cert.Spec.decode
  rw [relu_lin64_eq, lin128_eq]

/-! ### The normalisation over the rows -/

theorem reduces64 : S10000x64.Reduces [0] S64 := by decide

/-- The host's column sum from the zero word is the sum down the column. -/
theorem colSum_apply (z : FVec Ideal S10000x64 .f32) (c : Fin 64) :
    Host.reduceAdd z (constant (F := Ideal) S_ .f32 0x00000000#32) reducesTo_S10000x64_S64_d0 h_S_ (ix1 c)
      = ∑ r : Fin 10000, z (ix2 r c) := by
  rw [Cert.LibHostColSum.reduceAdd_col z _ reducesTo_S10000x64_S64_d0 reduces64 h_S_ c, constant_apply,
    Ideal.ofBits_zero_f32, zero_add]

theorem colMeans_apply (z : FVec Ideal S10000x64 .f32) (c : Fin 64) : RefRun.colMeans z (ix1 c) = Cert.Spec.colMean z c := by
  unfold RefRun.colMeans
  delta Cert.Spec.colMean Cert.Spec.lit
  rw [hostDivf_apply, colSum_apply, scalar_apply, constant_apply]

theorem devs_apply (z : FVec Ideal S10000x64 .f32) (y : S10000x64.Idx) :
    RefRun.devs z y = z y - Cert.Spec.colMean z (colOf y) := by
  unfold RefRun.devs
  delta Cert.Spec.colMean Cert.Spec.lit
  rw [subf_apply, spread_apply, hostDivf_apply, Cert.LibHostRow.row_apply, colSum_apply, scalar_apply, constant_apply]

/-- The word of 10000 denotes a positive number. -/
theorem tenThousand_pos : (0 : EReal) < Ideal.ofBits .f32 0x461C4000#32 := by
  simp [Ideal.ofBits, Ideal.ieee, -EReal.coe_mul]

/-- The variance's divisor is the word of 10000: the integer 0 converts to 0, and t − 0 = t. -/
theorem varCount_apply (j : S_.Idx) : RefRun.varCount (F := Ideal) j = Ideal.ofBits .f32 0x461C4000#32 := by
  unfold RefRun.varCount
  rw [subf_apply, constant_apply, sitofp_apply, constantI_apply]
  show Ideal.ofBits .f32 0x461C4000#32 - (((0#32 : BitVec 32).toInt : ℝ) : EReal) = _
  simp

theorem colVars_apply (z : FVec Ideal S10000x64 .f32) (c : Fin 64) : RefRun.colVars z (ix1 c) = Cert.Spec.colVar z c := by
  unfold RefRun.colVars
  delta Cert.Spec.colVar Cert.Spec.lit
  have hc : FloatOps.cmpf (F := Ideal) (φ := .f32) .ogt (Ideal.ofBits .f32 0x461C4000#32) 0 = 1#1 := by
    show BitVec.ofBool (decide ((0 : EReal) < Ideal.ofBits .f32 0x461C4000#32)) = 1#1
    simp [tenThousand_pos]
  rw [select_apply, scalar_apply, cmpf_apply, varCount_apply, constant_apply, Ideal.ofBits_zero_f32, hc, select_one,
    hostDivf_apply, colSum_apply, scalar_apply, varCount_apply]
  refine congrArg (Ideal.div · _) (Finset.sum_congr rfl fun r _ => ?_)
  rw [mulf_apply, devs_apply]
  rfl

theorem sqrtVar_apply (z : FVec Ideal S10000x64 .f32) (c : Fin 64) :
    Host.sqrt (addf (RefRun.colVars z) (broadcastInDim S64 ![] bcast_S_S64 (constant (F := Ideal) S_ .f32 0x3727C5AC#32))) (ix1 c)
      = Ideal.sqrt (Cert.Spec.colVar z c + Cert.Spec.lit 0x3727C5AC#32) := by
  show Ideal.sqrt (RefRun.colVars z (ix1 c)
      + broadcastInDim S64 ![] bcast_S_S64 (constant (F := Ideal) S_ .f32 0x3727C5AC#32) (ix1 c)) = _
  rw [colVars_apply, scalar_apply, constant_apply]
  rfl

theorem feat_eq (z : FVec Ideal S10000x64 .f32) (g bt : FVec Ideal S64 .f32) :
    RefRun.feat z g bt = Cert.Spec.bnRelu z (Cert.Spec.row g) (Cert.Spec.row bt) := by
  funext y
  unfold RefRun.feat
  delta Cert.Spec.bnRelu
  rw [relu64_apply, addf_apply, mulf_apply, hostDivf_apply, subf_apply, rows64_apply (RefRun.colMeans z) y, colMeans_apply,
    rows64_apply (Host.sqrt _) y, sqrtVar_apply, rows64_apply g y, rows64_apply bt y]
  rfl

/-! ### The three heads -/

/-- 1 / (1 + exp (−t)) with the word of one is the logistic function. -/
theorem pi_apply (t : FVec Ideal S10000x128 .f32) (y : S10000x128.Idx) :
    Host.divf (broadcastInDim S10000x128 ![] bcast_S_S10000x128 (constant (F := Ideal) S_ .f32 0x3F800000#32)) (RefRun.piDen t) y
      = Ideal.logistic (t y) := by
  unfold RefRun.piDen
  rw [hostDivf_apply, scalar_apply, constant_apply, addf_apply, scalar_apply, constant_apply, Ideal.ofBits_one_f32]
  rfl

theorem zero128_eq :
    (broadcastInDim S10000x128 ![] bcast_S_S10000x128 (constant (F := Ideal) S_ .f32 0x00000000#32) : FVec Ideal S10000x128 .f32)
      = fun _ => (0 : EReal) := by
  funext y
  rw [scalar_apply, constant_apply, Ideal.ofBits_zero_f32]

/-- A value is never different from itself, and t − 0 = t: the program's softplus is max (t, 0) + log (1 + exp (−|t|)). -/
theorem softplus_apply (t : FVec Ideal S10000x128 .f32) (y : S10000x128.Idx) :
    RefRun.softplusArr t y = Cert.Spec.softplus (t y) := by
  unfold RefRun.softplusArr
  delta Cert.Spec.softplus
  have hsub : subf t (fun _ => (0 : EReal)) = t := by
    funext i
    show t i - 0 = t i
    simp
  have hne : ∀ u : EReal, FloatOps.cmpf (F := Ideal) (φ := .f32) .une u u = 0#1 := fun u => by
    show BitVec.ofBool (decide (u ≠ u)) = 0#1
    simp
  rw [zero128_eq, hsub, select_apply, cmpf_apply, hne, select_zero]
  rfl

theorem clip_apply (t : FVec Ideal S10000x128 .f32) (lo hi : FVec Ideal S_ .f32) (y : S10000x128.Idx) :
    RefRun.clipArr t lo hi y = min (hi ix0) (max (lo ix0) (t y)) := by
  unfold RefRun.clipArr
  rw [minimumf_apply, scalar_apply, maximumf_apply, scalar_apply]
  rfl

end Stages

/-! ### The six results -/

section Results

open Idealize.ShloMosaic.ValueIdx

variable [Cert.ReferenceIdeal.Facts]
variable (x : FVec Ideal S10000x128 .f32) (xbi : FVec Ideal S10000x128 .f32) (sadj : FVec Ideal S10000x10000 .f32) (W1 : FVec Ideal S128x64 .f32) (b1 : FVec Ideal S64 .f32) (W2 : FVec Ideal S64x32 .f32) (b2 : FVec Ideal S32 .f32) (dW1 : FVec Ideal S32x64 .f32) (db1 : FVec Ideal S64 .f32) (dW2 : FVec Ideal S64x128 .f32) (db2 : FVec Ideal S128 .f32) (zW : FVec Ideal S32x64 .f32) (zb : FVec Ideal S64 .f32) (g : FVec Ideal S64 .f32) (bt : FVec Ideal S64 .f32) (piW : FVec Ideal S64x128 .f32) (pib : FVec Ideal S128 .f32) (dispW : FVec Ideal S64x128 .f32) (dispb : FVec Ideal S128 .f32) (meanW : FVec Ideal S64x128 .f32) (meanb : FVec Ideal S128 .f32)

theorem feat_spec : RefRun.feat (RefRun.lin64 (RefRun.gcn xbi sadj W1 b1 W2 b2) zW zb) g bt
    = Cert.Spec.feat x xbi sadj W1 b1 W2 b2 dW1 db1 dW2 db2 zW zb g bt piW pib dispW dispb meanW meanb := by
  rw [feat_eq, lin64_eq, gcn_eq]
  rfl

theorem out0_eq : RefRun.gcn x sadj W1 b1 W2 b2 = Cert.Spec.out0 x xbi sadj W1 b1 W2 b2 dW1 db1 dW2 db2 zW zb g bt piW pib dispW dispb meanW meanb :=
  gcn_eq x sadj W1 b1 W2 b2

theorem out1_eq : RefRun.gcn xbi sadj W1 b1 W2 b2 = Cert.Spec.out1 x xbi sadj W1 b1 W2 b2 dW1 db1 dW2 db2 zW zb g bt piW pib dispW dispb meanW meanb :=
  gcn_eq xbi sadj W1 b1 W2 b2

theorem out2_eq : RefRun.dec (RefRun.gcn x sadj W1 b1 W2 b2) dW1 db1 dW2 db2 = Cert.Spec.out2 x xbi sadj W1 b1 W2 b2 dW1 db1 dW2 db2 zW zb g bt piW pib dispW dispb meanW meanb := by
  rw [dec_eq, gcn_eq]
  rfl

theorem out3_eq :
    Host.divf (broadcastInDim S10000x128 ![] Facts₀.bcast_S_S10000x128 (constant (F := Ideal) S_ .f32 0x3F800000#32))
        (RefRun.piDen (RefRun.lin128 (RefRun.feat (RefRun.lin64 (RefRun.gcn xbi sadj W1 b1 W2 b2) zW zb) g bt) piW pib))
      = Cert.Spec.out3 x xbi sadj W1 b1 W2 b2 dW1 db1 dW2 db2 zW zb g bt piW pib dispW dispb meanW meanb := by
  funext y
  rw [pi_apply, lin128_eq, feat_spec x xbi sadj W1 b1 W2 b2 dW1 db1 dW2 db2 zW zb g bt piW pib dispW dispb meanW meanb]
  rfl

theorem out4_eq :
    RefRun.clipArr (RefRun.softplusArr (RefRun.lin128 (RefRun.feat (RefRun.lin64 (RefRun.gcn xbi sadj W1 b1 W2 b2) zW zb) g bt) dispW dispb))
        (constant (F := Ideal) S_ .f32 0x38D1B717#32) (constant (F := Ideal) S_ .f32 0x461C4000#32)
      = Cert.Spec.out4 x xbi sadj W1 b1 W2 b2 dW1 db1 dW2 db2 zW zb g bt piW pib dispW dispb meanW meanb := by
  funext y
  rw [clip_apply, softplus_apply, lin128_eq, feat_spec x xbi sadj W1 b1 W2 b2 dW1 db1 dW2 db2 zW zb g bt piW pib dispW dispb meanW meanb]
  rfl

theorem out5_eq :
    RefRun.clipArr (Host.exp (RefRun.lin128 (RefRun.feat (RefRun.lin64 (RefRun.gcn xbi sadj W1 b1 W2 b2) zW zb) g bt) meanW meanb))
        (constant (F := Ideal) S_ .f32 0x3727C5AC#32) (constant (F := Ideal) S_ .f32 0x49742400#32)
      = Cert.Spec.out5 x xbi sadj W1 b1 W2 b2 dW1 db1 dW2 db2 zW zb g bt piW pib dispW dispb meanW meanb := by
  funext y
  rw [clip_apply, lin128_eq, feat_spec x xbi sadj W1 b1 W2 b2 dW1 db1 dW2 db2 zW zb g bt piW pib dispW dispb meanW meanb]
  rfl

end Results

/-! ### The run -/

theorem run [Cert.ReferenceIdeal.Facts] (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev nD,
      r.2.mem ((c.tc : Thread nD τ).loc main_v10) = Cert.Spec.out0 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))
      ∧ r.2.mem ((c.tc : Thread nD τ).loc main_v21) = Cert.Spec.out1 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))
      ∧ r.2.mem ((c.tc : Thread nD τ).loc main_v76) = Cert.Spec.out2 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))
      ∧ r.2.mem ((c.tc : Thread nD τ).loc main_v55) = Cert.Spec.out3 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))
      ∧ r.2.mem ((c.tc : Thread nD τ).loc main_v61) = Cert.Spec.out4 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))
      ∧ r.2.mem ((c.tc : Thread nD τ).loc main_v67) = Cert.Spec.out5 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) := by
  refine (θ_run (Cert.ReferenceIdeal.defs (F := Ideal)) _ _).mono (fun r h c => ?_) (RefRun.run_after (F := Ideal) m ρ)
  refine ⟨?_, ?_, ?_, ?_, ?_, ?_, (h c main_arg0).trans (RefRun.res_arg0 _),
    (h c main_arg1).trans (RefRun.res_arg1 _),
    (h c main_arg2).trans (RefRun.res_arg2 _),
    (h c main_arg3).trans (RefRun.res_arg3 _),
    (h c main_arg4).trans (RefRun.res_arg4 _),
    (h c main_arg5).trans (RefRun.res_arg5 _),
    (h c main_arg6).trans (RefRun.res_arg6 _),
    (h c main_arg7).trans (RefRun.res_arg7 _),
    (h c main_arg8).trans (RefRun.res_arg8 _),
    (h c main_arg9).trans (RefRun.res_arg9 _),
    (h c main_arg10).trans (RefRun.res_arg10 _),
    (h c main_arg11).trans (RefRun.res_arg11 _),
    (h c main_arg12).trans (RefRun.res_arg12 _),
    (h c main_arg13).trans (RefRun.res_arg13 _),
    (h c main_arg14).trans (RefRun.res_arg14 _),
    (h c main_arg15).trans (RefRun.res_arg15 _),
    (h c main_arg16).trans (RefRun.res_arg16 _),
    (h c main_arg17).trans (RefRun.res_arg17 _),
    (h c main_arg18).trans (RefRun.res_arg18 _),
    (h c main_arg19).trans (RefRun.res_arg19 _),
    (h c main_arg20).trans (RefRun.res_arg20 _)⟩
  · exact (h c main_v10).trans ((RefRun.res_v10 (StableHlo.launchContents m c)).trans (out0_eq (StableHlo.launchContents m c (main_arg0 : DevRef τ sig)) (StableHlo.launchContents m c (main_arg1 : DevRef τ sig)) (StableHlo.launchContents m c (main_arg2 : DevRef τ sig)) (StableHlo.launchContents m c (main_arg3 : DevRef τ sig)) (StableHlo.launchContents m c (main_arg4 : DevRef τ sig)) (StableHlo.launchContents m c (main_arg5 : DevRef τ sig)) (StableHlo.launchContents m c (main_arg6 : DevRef τ sig)) (StableHlo.launchContents m c (main_arg7 : DevRef τ sig)) (StableHlo.launchContents m c (main_arg8 : DevRef τ sig)) (StableHlo.launchContents m c (main_arg9 : DevRef τ sig)) (StableHlo.launchContents m c (main_arg10 : DevRef τ sig)) (StableHlo.launchContents m c (main_arg11 : DevRef τ sig)) (StableHlo.launchContents m c (main_arg12 : DevRef τ sig)) (StableHlo.launchContents m c (main_arg13 : DevRef τ sig)) (StableHlo.launchContents m c (main_arg14 : DevRef τ sig)) (StableHlo.launchContents m c (main_arg15 : DevRef τ sig)) (StableHlo.launchContents m c (main_arg16 : DevRef τ sig)) (StableHlo.launchContents m c (main_arg17 : DevRef τ sig)) (StableHlo.launchContents m c (main_arg18 : DevRef τ sig)) (StableHlo.launchContents m c (main_arg19 : DevRef τ sig)) (StableHlo.launchContents m c (main_arg20 : DevRef τ sig))))
  · exact (h c main_v21).trans ((RefRun.res_v21 (StableHlo.launchContents m c)).trans (out1_eq (StableHlo.launchContents m c (main_arg0 : DevRef τ sig)) (StableHlo.launchContents m c (main_arg1 : DevRef τ sig)) (StableHlo.launchContents m c (main_arg2 : DevRef τ sig)) (StableHlo.launchContents m c (main_arg3 : DevRef τ sig)) (StableHlo.launchContents m c (main_arg4 : DevRef τ sig)) (StableHlo.launchContents m c (main_arg5 : DevRef τ sig)) (StableHlo.launchContents m c (main_arg6 : DevRef τ sig)) (StableHlo.launchContents m c (main_arg7 : DevRef τ sig)) (StableHlo.launchContents m c (main_arg8 : DevRef τ sig)) (StableHlo.launchContents m c (main_arg9 : DevRef τ sig)) (StableHlo.launchContents m c (main_arg10 : DevRef τ sig)) (StableHlo.launchContents m c (main_arg11 : DevRef τ sig)) (StableHlo.launchContents m c (main_arg12 : DevRef τ sig)) (StableHlo.launchContents m c (main_arg13 : DevRef τ sig)) (StableHlo.launchContents m c (main_arg14 : DevRef τ sig)) (StableHlo.launchContents m c (main_arg15 : DevRef τ sig)) (StableHlo.launchContents m c (main_arg16 : DevRef τ sig)) (StableHlo.launchContents m c (main_arg17 : DevRef τ sig)) (StableHlo.launchContents m c (main_arg18 : DevRef τ sig)) (StableHlo.launchContents m c (main_arg19 : DevRef τ sig)) (StableHlo.launchContents m c (main_arg20 : DevRef τ sig))))
  · exact (h c main_v76).trans ((RefRun.res_v76 (StableHlo.launchContents m c)).trans (out2_eq (StableHlo.launchContents m c (main_arg0 : DevRef τ sig)) (StableHlo.launchContents m c (main_arg1 : DevRef τ sig)) (StableHlo.launchContents m c (main_arg2 : DevRef τ sig)) (StableHlo.launchContents m c (main_arg3 : DevRef τ sig)) (StableHlo.launchContents m c (main_arg4 : DevRef τ sig)) (StableHlo.launchContents m c (main_arg5 : DevRef τ sig)) (StableHlo.launchContents m c (main_arg6 : DevRef τ sig)) (StableHlo.launchContents m c (main_arg7 : DevRef τ sig)) (StableHlo.launchContents m c (main_arg8 : DevRef τ sig)) (StableHlo.launchContents m c (main_arg9 : DevRef τ sig)) (StableHlo.launchContents m c (main_arg10 : DevRef τ sig)) (StableHlo.launchContents m c (main_arg11 : DevRef τ sig)) (StableHlo.launchContents m c (main_arg12 : DevRef τ sig)) (StableHlo.launchContents m c (main_arg13 : DevRef τ sig)) (StableHlo.launchContents m c (main_arg14 : DevRef τ sig)) (StableHlo.launchContents m c (main_arg15 : DevRef τ sig)) (StableHlo.launchContents m c (main_arg16 : DevRef τ sig)) (StableHlo.launchContents m c (main_arg17 : DevRef τ sig)) (StableHlo.launchContents m c (main_arg18 : DevRef τ sig)) (StableHlo.launchContents m c (main_arg19 : DevRef τ sig)) (StableHlo.launchContents m c (main_arg20 : DevRef τ sig))))
  · exact (h c main_v55).trans ((RefRun.res_v55 (StableHlo.launchContents m c)).trans (out3_eq (StableHlo.launchContents m c (main_arg0 : DevRef τ sig)) (StableHlo.launchContents m c (main_arg1 : DevRef τ sig)) (StableHlo.launchContents m c (main_arg2 : DevRef τ sig)) (StableHlo.launchContents m c (main_arg3 : DevRef τ sig)) (StableHlo.launchContents m c (main_arg4 : DevRef τ sig)) (StableHlo.launchContents m c (main_arg5 : DevRef τ sig)) (StableHlo.launchContents m c (main_arg6 : DevRef τ sig)) (StableHlo.launchContents m c (main_arg7 : DevRef τ sig)) (StableHlo.launchContents m c (main_arg8 : DevRef τ sig)) (StableHlo.launchContents m c (main_arg9 : DevRef τ sig)) (StableHlo.launchContents m c (main_arg10 : DevRef τ sig)) (StableHlo.launchContents m c (main_arg11 : DevRef τ sig)) (StableHlo.launchContents m c (main_arg12 : DevRef τ sig)) (StableHlo.launchContents m c (main_arg13 : DevRef τ sig)) (StableHlo.launchContents m c (main_arg14 : DevRef τ sig)) (StableHlo.launchContents m c (main_arg15 : DevRef τ sig)) (StableHlo.launchContents m c (main_arg16 : DevRef τ sig)) (StableHlo.launchContents m c (main_arg17 : DevRef τ sig)) (StableHlo.launchContents m c (main_arg18 : DevRef τ sig)) (StableHlo.launchContents m c (main_arg19 : DevRef τ sig)) (StableHlo.launchContents m c (main_arg20 : DevRef τ sig))))
  · exact (h c main_v61).trans ((RefRun.res_v61 (StableHlo.launchContents m c)).trans (out4_eq (StableHlo.launchContents m c (main_arg0 : DevRef τ sig)) (StableHlo.launchContents m c (main_arg1 : DevRef τ sig)) (StableHlo.launchContents m c (main_arg2 : DevRef τ sig)) (StableHlo.launchContents m c (main_arg3 : DevRef τ sig)) (StableHlo.launchContents m c (main_arg4 : DevRef τ sig)) (StableHlo.launchContents m c (main_arg5 : DevRef τ sig)) (StableHlo.launchContents m c (main_arg6 : DevRef τ sig)) (StableHlo.launchContents m c (main_arg7 : DevRef τ sig)) (StableHlo.launchContents m c (main_arg8 : DevRef τ sig)) (StableHlo.launchContents m c (main_arg9 : DevRef τ sig)) (StableHlo.launchContents m c (main_arg10 : DevRef τ sig)) (StableHlo.launchContents m c (main_arg11 : DevRef τ sig)) (StableHlo.launchContents m c (main_arg12 : DevRef τ sig)) (StableHlo.launchContents m c (main_arg13 : DevRef τ sig)) (StableHlo.launchContents m c (main_arg14 : DevRef τ sig)) (StableHlo.launchContents m c (main_arg15 : DevRef τ sig)) (StableHlo.launchContents m c (main_arg16 : DevRef τ sig)) (StableHlo.launchContents m c (main_arg17 : DevRef τ sig)) (StableHlo.launchContents m c (main_arg18 : DevRef τ sig)) (StableHlo.launchContents m c (main_arg19 : DevRef τ sig)) (StableHlo.launchContents m c (main_arg20 : DevRef τ sig))))
  · exact (h c main_v67).trans ((RefRun.res_v67 (StableHlo.launchContents m c)).trans (out5_eq (StableHlo.launchContents m c (main_arg0 : DevRef τ sig)) (StableHlo.launchContents m c (main_arg1 : DevRef τ sig)) (StableHlo.launchContents m c (main_arg2 : DevRef τ sig)) (StableHlo.launchContents m c (main_arg3 : DevRef τ sig)) (StableHlo.launchContents m c (main_arg4 : DevRef τ sig)) (StableHlo.launchContents m c (main_arg5 : DevRef τ sig)) (StableHlo.launchContents m c (main_arg6 : DevRef τ sig)) (StableHlo.launchContents m c (main_arg7 : DevRef τ sig)) (StableHlo.launchContents m c (main_arg8 : DevRef τ sig)) (StableHlo.launchContents m c (main_arg9 : DevRef τ sig)) (StableHlo.launchContents m c (main_arg10 : DevRef τ sig)) (StableHlo.launchContents m c (main_arg11 : DevRef τ sig)) (StableHlo.launchContents m c (main_arg12 : DevRef τ sig)) (StableHlo.launchContents m c (main_arg13 : DevRef τ sig)) (StableHlo.launchContents m c (main_arg14 : DevRef τ sig)) (StableHlo.launchContents m c (main_arg15 : DevRef τ sig)) (StableHlo.launchContents m c (main_arg16 : DevRef τ sig)) (StableHlo.launchContents m c (main_arg17 : DevRef τ sig)) (StableHlo.launchContents m c (main_arg18 : DevRef τ sig)) (StableHlo.launchContents m c (main_arg19 : DevRef τ sig)) (StableHlo.launchContents m c (main_arg20 : DevRef τ sig))))

end Cert.ReferenceIdeal.RefValue
end
-- ==== Proof.lean ====
/-
  Two two-layer graph convolutions over one dense adjacency, a decoder and three normalised heads: the kernel carries
  both networks side by side through two fused passes over the adjacency, the reference computes them one after the
  other.  On the extended reals both end at the same six whole-array functions of the twenty-one arguments
  (Proof/Spec.lean): the kernel side is read region by region off its run (Proof/KernelValue.lean, over
  Proof/Region0 … Region3 and the algebra of side-by-side joins in Proof/Algebra.lean), the reference side off its
  host run (Proof/RefValue.lean).  The three frames are the programs' runs with the values dropped, and the
  idealization rewrote nothing, so its conjunct is trivial.  No finiteness is used: 0 · x = 0 and x + 0 = x hold for
  every extended real.
-/
import proofs.«178206_g36112085024797_cont_8to1_b_1395_2_alg».proof.Defs
import proofs.«178206_g36112085024797_cont_8to1_b_1395_2_alg».proof.Proof.Gen.Kernel
import proofs.«178206_g36112085024797_cont_8to1_b_1395_2_alg».proof.Proof.Gen.Kernel.Frame
import proofs.«178206_g36112085024797_cont_8to1_b_1395_2_alg».proof.Proof.Gen.KernelIdeal
import proofs.«178206_g36112085024797_cont_8to1_b_1395_2_alg».proof.Proof.Gen.KernelIdeal.Frame
import proofs.«178206_g36112085024797_cont_8to1_b_1395_2_alg».proof.Proof.Gen.ReferenceIdeal
import proofs.«178206_g36112085024797_cont_8to1_b_1395_2_alg».proof.Proof.Gen.Pre_finite_inputs
import proofs.«178206_g36112085024797_cont_8to1_b_1395_2_alg».proof.Proof.KernelValue
import proofs.«178206_g36112085024797_cont_8to1_b_1395_2_alg».proof.Proof.RefValue
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the six results dropped. -/
theorem frame_ri : Cert.frame_ReferenceIdeal := fun m ρ _ =>
  (θ_run (Cert.ReferenceIdeal.defs (F := Ideal)) _ _).mono (fun _ h c => (h c).2.2.2.2.2.2)
    (Cert.ReferenceIdeal.RefValue.run m ρ)

/-- A function of twenty-one arguments takes equal values at equal arguments. -/
theorem congr21 {T0 T1 T2 T3 T4 T5 T6 T7 T8 T9 T10 T11 T12 T13 T14 T15 T16 T17 T18 T19 T20 R : Type} (f : T0 → T1 → T2 → T3 → T4 → T5 → T6 → T7 → T8 → T9 → T10 → T11 → T12 → T13 → T14 → T15 → T16 → T17 → T18 → T19 → T20 → R)
    {a0 b0 : T0} {a1 b1 : T1} {a2 b2 : T2} {a3 b3 : T3} {a4 b4 : T4} {a5 b5 : T5} {a6 b6 : T6} {a7 b7 : T7} {a8 b8 : T8} {a9 b9 : T9} {a10 b10 : T10} {a11 b11 : T11} {a12 b12 : T12} {a13 b13 : T13} {a14 b14 : T14} {a15 b15 : T15} {a16 b16 : T16} {a17 b17 : T17} {a18 b18 : T18} {a19 b19 : T19} {a20 b20 : T20}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) :
    f a0 a1 a2 a3 a4 a5 a6 a7 a8 a9 a10 a11 a12 a13 a14 a15 a16 a17 a18 a19 a20 = f b0 b1 b2 b3 b4 b5 b6 b7 b8 b9 b10 b11 b12 b13 b14 b15 b16 b17 b18 b19 b20 := by
  cases h0; cases h1; cases h2; cases h3; cases h4; cases h5; cases h6; cases h7; cases h8; cases h9; cases h10; cases h11; cases h12; cases h13; cases h14; cases h15; cases h16; cases h17; cases h18; cases h19; cases h20
  rfl

/-- Both programs end at the specification's six functions of arguments that agree. -/
theorem algebraic : Cert.algebraic_KernelIdeal_ReferenceIdeal := by
  intro m ρ m' ρ' _ hagree
  refine ⟨_, _, _, _, _, _, Cert.KernelIdeal.KValue.run m ρ, ?_⟩
  refine (θ_run (Cert.ReferenceIdeal.defs (F := Ideal)) _ _).mono (fun r h c => ?_) (Cert.ReferenceIdeal.RefValue.run m' ρ')
  obtain ⟨e0, e1, e2, e3, e4, e5, e6, e7, e8, e9, e10, e11, e12, e13, e14, e15, e16, e17, e18, e19, e20⟩ := hagree c
  obtain ⟨r0, r1, r2, r3, r4, r5, ra⟩ := h c
  exact ⟨r0.trans (congr21 Cert.Spec.out0 e0 e1 e2 e3 e4 e5 e6 e7 e8 e9 e10 e11 e12 e13 e14 e15 e16 e17 e18 e19 e20), r1.trans (congr21 Cert.Spec.out1 e0 e1 e2 e3 e4 e5 e6 e7 e8 e9 e10 e11 e12 e13 e14 e15 e16 e17 e18 e19 e20),
    r2.trans (congr21 Cert.Spec.out2 e0 e1 e2 e3 e4 e5 e6 e7 e8 e9 e10 e11 e12 e13 e14 e15 e16 e17 e18 e19 e20), r3.trans (congr21 Cert.Spec.out3 e0 e1 e2 e3 e4 e5 e6 e7 e8 e9 e10 e11 e12 e13 e14 e15 e16 e17 e18 e19 e20),
    r4.trans (congr21 Cert.Spec.out4 e0 e1 e2 e3 e4 e5 e6 e7 e8 e9 e10 e11 e12 e13 e14 e15 e16 e17 e18 e19 e20), r5.trans (congr21 Cert.Spec.out5 e0 e1 e2 e3 e4 e5 e6 e7 e8 e9 e10 e11 e12 e13 e14 e15 e16 e17 e18 e19 e20), ra⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
